-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_arg6 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  main_v33

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024x1024 .f32) (main_arg5 : FVec F S1024x1024 .f32) (main_arg6 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S64x2048x64 : Shape := ⟨3, ![64, 2048, 64]⟩
abbrev S1x2048x1024 : Shape := ⟨3, ![1, 2048, 1024]⟩
abbrev S64x1024 : Shape := ⟨2, ![64, 1024]⟩
abbrev S1x2048x64 : Shape := ⟨3, ![1, 2048, 64]⟩
abbrev S2048x1024 : Shape := ⟨2, ![2048, 1024]⟩
abbrev S2048x64 : Shape := ⟨2, ![2048, 64]⟩
abbrev S8192x1024 : Shape := ⟨2, ![8192, 1024]⟩
abbrev S64x2048x2048 : Shape := ⟨3, ![64, 2048, 2048]⟩
abbrev S1x512x64 : Shape := ⟨3, ![1, 512, 64]⟩
abbrev S512x1024 : Shape := ⟨2, ![512, 1024]⟩
abbrev S1x512x2048 : Shape := ⟨3, ![1, 512, 2048]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩
abbrev S4x16x2048x2048 : Shape := ⟨4, ![4, 16, 2048, 2048]⟩

abbrev nBuf : Space → Nat
  | .hbm => 19
  | .vmem => 34
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S64x2048x64, .bf16⟩
  | .hbm, ⟨13, _⟩ => ⟨S64x2048x64, .bf16⟩
  | .hbm, ⟨14, _⟩ => ⟨S64x2048x64, .bf16⟩
  | .hbm, ⟨15, _⟩ => ⟨S8192x1024, .f32⟩
  | .hbm, ⟨16, _⟩ => ⟨S64x2048x2048, .f32⟩
  | .hbm, ⟨17, _⟩ => ⟨S4x2048x1024, .f32⟩
  | .hbm, ⟨18, _⟩ => ⟨S4x16x2048x2048, .f32⟩
  | .local _ .vmem, ⟨0, _⟩ => ⟨S1x2048x1024, .f32⟩
  | .local _ .vmem, ⟨1, _⟩ => ⟨S1x2048x1024, .f32⟩
  | .local _ .vmem, ⟨2, _⟩ => ⟨S64x1024, .bf16⟩
  | .local _ .vmem, ⟨3, _⟩ => ⟨S64x1024, .bf16⟩
  | .local _ .vmem, ⟨4, _⟩ => ⟨S1x2048x64, .bf16⟩
  | .local _ .vmem, ⟨5, _⟩ => ⟨S1x2048x64, .bf16⟩
  | .local _ .vmem, ⟨6, _⟩ => ⟨S2048x1024, .bf16⟩
  | .local _ .vmem, ⟨7, _⟩ => ⟨S1x2048x1024, .f32⟩
  | .local _ .vmem, ⟨8, _⟩ => ⟨S1x2048x1024, .f32⟩
  | .local _ .vmem, ⟨9, _⟩ => ⟨S64x1024, .bf16⟩
  | .local _ .vmem, ⟨10, _⟩ => ⟨S64x1024, .bf16⟩
  | .local _ .vmem, ⟨11, _⟩ => ⟨S1x2048x64, .bf16⟩
  | .local _ .vmem, ⟨12, _⟩ => ⟨S1x2048x64, .bf16⟩
  | .local _ .vmem, ⟨13, _⟩ => ⟨S2048x1024, .bf16⟩
  | .local _ .vmem, ⟨14, _⟩ => ⟨S1x2048x1024, .f32⟩
  | .local _ .vmem, ⟨15, _⟩ => ⟨S1x2048x1024, .f32⟩
  | .local _ .vmem, ⟨16, _⟩ => ⟨S64x1024, .bf16⟩
  | .local _ .vmem, ⟨17, _⟩ => ⟨S64x1024, .bf16⟩
  | .local _ .vmem, ⟨18, _⟩ => ⟨S1x2048x64, .bf16⟩
  | .local _ .vmem, ⟨19, _⟩ => ⟨S1x2048x64, .bf16⟩
  | .local _ .vmem, ⟨20, _⟩ => ⟨S2048x1024, .bf16⟩
  | .local _ .vmem, ⟨21, _⟩ => ⟨S1x512x64, .bf16⟩
  | .local _ .vmem, ⟨22, _⟩ => ⟨S1x512x64, .bf16⟩
  | .local _ .vmem, ⟨23, _⟩ => ⟨S1x2048x64, .bf16⟩
  | .local _ .vmem, ⟨24, _⟩ => ⟨S1x2048x64, .bf16⟩
  | .local _ .vmem, ⟨25, _⟩ => ⟨S1x2048x64, .bf16⟩
  | .local _ .vmem, ⟨26, _⟩ => ⟨S1x2048x64, .bf16⟩
  | .local _ .vmem, ⟨27, _⟩ => ⟨S64x1024, .bf16⟩
  | .local _ .vmem, ⟨28, _⟩ => ⟨S64x1024, .bf16⟩
  | .local _ .vmem, ⟨29, _⟩ => ⟨S512x1024, .f32⟩
  | .local _ .vmem, ⟨30, _⟩ => ⟨S512x1024, .f32⟩
  | .local _ .vmem, ⟨31, _⟩ => ⟨S1x512x2048, .f32⟩
  | .local _ .vmem, ⟨32, _⟩ => ⟨S1x512x2048, .f32⟩
  | .local _ .vmem, ⟨33, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg4_1 : Ref sig .tc := ⟨.vmem, 30, rfl⟩
abbrev cc3_stg5_0 : Ref sig .tc := ⟨.vmem, 31, rfl⟩
abbrev cc3_stg5_1 : Ref sig .tc := ⟨.vmem, 32, rfl⟩
abbrev cc3_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage1_0 : Fin 2 → Memref sig .tc .vmem S1x2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S64x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage2_0 : Fin 2 → Memref sig .tc .vmem S1x2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S64x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x2048x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨3, ![4, 4, 16], ![false, false, false]⟩

def k3_cond2 (i : grid3.Coords) : BitVec 1 :=
  let arg2 : BitVec 32 := BitVec.ofNat 32 (i 2).val
  let c15_i32 : BitVec 32 := 15#32
  let v35 : BitVec 1 := Scalar.cmpi .eq arg2 c15_i32
  let v36 : BitVec 32 := Scalar.extui v35
  let c0_i32_23 : BitVec 32 := 0#32
  let v37 : BitVec 1 := Scalar.cmpi .ne v36 c0_i32_23
  v37

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc3_transform_5 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, arg1.toNat, c0_i32.toNat]

abbrev stage3_0 : Fin 2 → Memref sig .tc .vmem S1x512x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x2048x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x2048x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 2 → Memref sig .tc .vmem S64x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, false, true]

abbrev stage3_4 : Fin 2 → Memref sig .tc .vmem S512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

abbrev stage3_5 : Fin 2 → Memref sig .tc .vmem S1x512x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, true]

class Facts₀ : Prop where
  bitsLt_bf16_f32 : FTy.bits .bf16 < FTy.bits .f32
  transposes_S1024x1024_S1024x1024_1_0 : S1024x1024.Transposes [1, 0] S1024x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  packedbf16_S1x2048x64_S1x2048x64_0_0_0 : (Rect.unit (s := S1x2048x64) ![0, 0, 0] S1x2048x64.size inb_S1x2048x64_S1x2048x64_0_0_0).PackedRows (EltTy.packing .bf16)
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S8192x1024_S4x2048x1024 : S8192x1024.ShapeCasts S4x2048x1024
  shapeCasts_S64x2048x2048_S4x16x2048x2048 : S64x2048x2048.ShapeCasts S4x16x2048x2048
  dot_S2048x1024_S64x1024_S2048x64_1_1_0_0_n_n_wf : DotDims.WF S2048x1024 S64x1024 S2048x64 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .f32 = 32 ∨ (Rect.block (s := S4x2048x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S1024x1024.size a
  hwx0_1 : ∀ i : grid0.Coords, EltTy.bits .bf16 = 32 ∨ (Rect.block (s := S1024x1024) S64x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .bf16 = 32 ∨ (Rect.block (s := S64x2048x64) S1x2048x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x1024.size a ≤ S4x2048x1024.size a
  hwx1_0 : ∀ i : grid1.Coords, EltTy.bits .f32 = 32 ∨ (Rect.block (s := S4x2048x1024) S1x2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x1024.size a ≤ S1024x1024.size a
  hwx1_1 : ∀ i : grid1.Coords, EltTy.bits .bf16 = 32 ∨ (Rect.block (s := S1024x1024) S64x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S64x2048x64.size a
  hwx1_2 : ∀ i : grid1.Coords, EltTy.bits .bf16 = 32 ∨ (Rect.block (s := S64x2048x64) S1x2048x64.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x1024.size a ≤ S4x2048x1024.size a
  hwx2_0 : ∀ i : grid2.Coords, EltTy.bits .f32 = 32 ∨ (Rect.block (s := S4x2048x1024) S1x2048x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x1024.size a ≤ S1024x1024.size a
  hwx2_1 : ∀ i : grid2.Coords, EltTy.bits .bf16 = 32 ∨ (Rect.block (s := S1024x1024) S64x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048x64.size a ≤ S64x2048x64.size a
  hwx2_2 : ∀ i : grid2.Coords, EltTy.bits .bf16 = 32 ∨ (Rect.block (s := S64x2048x64) S1x2048x64.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x64.size a ≤ S64x2048x64.size a
  hwx3_0 : ∀ i : grid3.Coords, EltTy.bits .bf16 = 32 ∨ (Rect.block (s := S64x2048x64) S1x512x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x64.size a ≤ S64x2048x64.size a
  hwx3_1 : ∀ i : grid3.Coords, EltTy.bits .bf16 = 32 ∨ (Rect.block (s := S64x2048x64) S1x2048x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x64.size a ≤ S64x2048x64.size a
  hwx3_2 : ∀ i : grid3.Coords, EltTy.bits .bf16 = 32 ∨ (Rect.block (s := S64x2048x64) S1x2048x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S64x1024.size a ≤ S1024x1024.size a
  hwx3_3 : ∀ i : grid3.Coords, EltTy.bits .bf16 = 32 ∨ (Rect.block (s := S1024x1024) S64x1024.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x1024.size a ≤ S8192x1024.size a
  hwx3_4 : ∀ i : grid3.Coords, EltTy.bits .f32 = 32 ∨ (Rect.block (s := S8192x1024) S512x1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x512x2048.size a ≤ S64x2048x2048.size a
  hwx3_5 : ∀ i : grid3.Coords, EltTy.bits .f32 = 32 ∨ (Rect.block (s := S64x2048x2048) S1x512x2048.size (cc3_transform_5 i) (hinb3_5 i)).WholeWords (EltTy.packing .f32)

variable [Facts₀]

def dot_S2048x1024_S64x1024_S2048x64_1_1_0_0_n_n : DotDims S2048x1024 S64x1024 S2048x64 where
  lhsContracting := [1]
  rhsContracting := [1]
  lhsNonContracting := [0]
  rhsNonContracting := [0]
  lhsBatch := []
  rhsBatch := []
  wf := dot_S2048x1024_S64x1024_S2048x64_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S64x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x2048x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S1x2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S64x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x2048x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v5) S1x512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S1x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S1x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v4) S64x1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v8_0) S512x1024.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v8_1) S1x512x2048.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun i => !(k3_cond2 i == 1#1) | 5 => fun _ => false | ⟨_ + 6, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S16x64x1024 : Shape := ⟨3, ![16, 64, 1024]⟩
abbrev S16x64x4x2048 : Shape := ⟨4, ![16, 64, 4, 2048]⟩
abbrev S4x16x2048x64 : Shape := ⟨4, ![4, 16, 2048, 64]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S16x64x1024, .f32⟩
  | .hbm, ⟨8, _⟩ => ⟨S16x64x4x2048, .f32⟩
  | .hbm, ⟨9, _⟩ => ⟨S4x16x2048x64, .f32⟩
  | .hbm, ⟨10, _⟩ => ⟨S16x64x1024, .f32⟩
  | .hbm, ⟨11, _⟩ => ⟨S16x64x4x2048, .f32⟩
  | .hbm, ⟨12, _⟩ => ⟨S4x16x2048x64, .f32⟩
  | .hbm, ⟨13, _⟩ => ⟨S16x64x1024, .f32⟩
  | .hbm, ⟨14, _⟩ => ⟨S16x64x4x2048, .f32⟩
  | .hbm, ⟨15, _⟩ => ⟨S4x16x2048x64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4x16x2048x64, .f32⟩
  | .hbm, ⟨20, _⟩ => ⟨S4x16x2048x64, .f32⟩
  | .hbm, ⟨21, _⟩ => ⟨S4x16x2048x2048, .f32⟩
  | .hbm, ⟨22, _⟩ => ⟨S_, .f32⟩
  | .hbm, ⟨23, _⟩ => ⟨S4x16x2048, .f32⟩
  | .hbm, ⟨24, _⟩ => ⟨S_, .f32⟩
  | .hbm, ⟨25, _⟩ => ⟨S4x16x2048, .f32⟩
  | .hbm, ⟨26, _⟩ => ⟨S4x16x2048, .f32⟩
  | .hbm, ⟨27, _⟩ => ⟨S4x16x2048x1, .f32⟩
  | .hbm, ⟨28, _⟩ => ⟨S4x16x2048x2048, .f32⟩
  | .hbm, ⟨29, _⟩ => ⟨S4x16x2048x2048, .f32⟩
  | .hbm, ⟨30, _⟩ => ⟨S4x16x2048x2048, .f32⟩
  | .hbm, ⟨31, _⟩ => ⟨S_, .f32⟩
  | .hbm, ⟨32, _⟩ => ⟨S4x16x2048, .f32⟩
  | .hbm, ⟨33, _⟩ => ⟨S4x16x2048x1, .f32⟩
  | .hbm, ⟨34, _⟩ => ⟨S4x16x2048x2048, .f32⟩
  | .hbm, ⟨35, _⟩ => ⟨S4x16x2048x2048, .f32⟩
  | .hbm, ⟨36, _⟩ => ⟨S4x16x2048x64, .f32⟩
  | .hbm, ⟨37, _⟩ => ⟨S4x2048x16x64, .f32⟩
  | .hbm, ⟨38, _⟩ => ⟨S4x2048x1024, .f32⟩
  | .hbm, ⟨39, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  shapeCasts_S1024x1024_S16x64x1024 : S1024x1024.ShapeCasts S16x64x1024
  transposes_S16x64x4x2048_S4x16x2048x64_2_0_3_1 : S16x64x4x2048.Transposes [2, 0, 3, 1] S4x16x2048x64
  bcast_S_S4x16x2048x64 : S_.BroadcastsInDim S4x16x2048x64 (![] : Fin 0 → Fin S4x16x2048x64.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S16x64x1024_S4x2048x1024_S16x64x4x2048_2_2_01_01_n_n_wf : DotDims.WF S16x64x1024 S4x2048x1024 S16x64x4x2048 [2] [2] [0, 1] [0, 1] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S16x64x1024_S4x2048x1024_S16x64x4x2048_2_2_01_01_n_n : DotDims S16x64x1024 S4x2048x1024 S16x64x4x2048 where
  lhsContracting := [2]
  rhsContracting := [2]
  lhsNonContracting := [0, 1]
  rhsNonContracting := [0, 1]
  lhsBatch := []
  rhsBatch := []
  wf := dot_S16x64x1024_S4x2048x1024_S16x64x4x2048_2_2_01_01_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.KR0Run.lean ====
/-
  The projection kernel of call 0, run on whole staging buffers, in its two control cases:
  at the first head of a batch row (grid coordinate 1 is zero) the body rounds the activation
  block into the scratch buffer and then multiplies it by the head's weight block; at every
  other head it multiplies the scratch as the point before left it.
-/
import proofs.«140923_j35270271435571_2_alg».proof.Proof.Gen.Kernel.Launch
import proofs.«140923_j35270271435571_2_alg».proof.Proof.Gen.Kernel.Skeleton
import proofs.«140923_j35270271435571_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body: the head coordinate is zero. -/
abbrev cond0_0 (i : grid0.Coords) : Prop := (Scalar.cmpi .ne (Scalar.extui (Scalar.cmpi .eq (BitVec.ofNat 32 (i 1).val) 0#32)) 0#32) = 1#1
/-- It holds exactly at the points that are multiples of 16 (the head coordinate is the inner one, of extent 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The scratch operand as a memref, and as a view. -/
abbrev scM0 : Memref sig .tc .vmem S2048x1024 .bf16 := Memref.whole cc0_scratch0
abbrev VS0 : View sig .tc .vmem S2048x1024 .bf16 := (scM0).view
/-- One staging buffer of the output window, through which its contents are stated. -/
abbrev VO0 : View sig .tc .vmem S1x2048x64 .bf16 := (Memref.whole cc0_stg2_0 : Memref sig .tc .vmem S1x2048x64 .bf16).view

set_option maxHeartbeats 4000000 in
/-- First head of a row: the pieces the body's stores leave in the output buffer and in the scratch, with the
    proof that the body runs to a continuation that holds them. -/
noncomputable def kernelRun0_A (c : Dev nD) (i : grid0.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond0_0 i)
    (x0 : Vec F S1x2048x1024 .f32) (x1 : Vec F S64x1024 .bf16) :
    Σ' (L2 : List (View.Piece (Elt F) S1x2048x64 .bf16)), { LS0 : List (View.Piece (Elt F) S2048x1024 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__proj_head_kernel i arg2 harg2 arg3 harg3 arg4 harg4 arg5 harg5) K } := by
  refine ⟨?_, ?_, fun E K => ?run⟩
  case run =>
    simp only [cc0__proj_head_kernel_eq_skeleton]; unfold cc0__proj_head_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 4000000 in
/-- Any other head: the scratch is read at the contents the point before left and handed back untouched;
    the pieces are the output buffer's. -/
noncomputable def kernelRun0_B (c : Dev nD) (i : grid0.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : ¬cond0_0 i)
    (x0 : Vec F S1x2048x1024 .f32) (x1 : Vec F S64x1024 .bf16) (xs0 : Vec F S2048x1024 .bf16) :
    { L2 : List (View.Piece (Elt F) S1x2048x64 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xs0) -∗ K ⟨⟩))
          ⊢ wp frame (wpE (defs₀ (F := F)) Variants.none c none) E (cc0__proj_head_kernel i arg2 harg2 arg3 harg3 arg4 harg4 arg5 harg5) K } := by
  refine ⟨?_, fun E K => ?run⟩
  case run =>
    simp only [cc0__proj_head_kernel_eq_skeleton]; unfold cc0__proj_head_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; isplitr; · ipureintro; exact harg5.read_unread _
    iexact HS0

end Cert.Kernel.Hand

end
-- ==== Proof.KR0Dat.lean ====
/-
  Call 0's proof data. After the body at a grid point the output buffer holds the point's
  product block and the scratch holds the rounded activation block of the point's batch row:
  both are stated by recursion on the point, a point that is not the first head of its row
  reading the scratch as the point before left it.
-/
import proofs.«140923_j35270271435571_2_alg».proof.Proof.Gen.Kernel.Launch
import proofs.«140923_j35270271435571_2_alg».proof.Proof.Gen.Kernel.Skeleton
import proofs.«140923_j35270271435571_2_alg».proof.Proof.Gen.Kernel.Points
import proofs.«140923_j35270271435571_2_alg».proof.Proof.KR0Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at a point, as the pipeline passes it, and its wholeness. -/
abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x64 .bf16 := win0_2.stage (cfg0.slots t 2)
abbrev hs0_2 (t : Fin cfg0.N) : (ms0_2 t).IsWhole := hstage0_2 ((cfg0.slots t 2).cast nbuf0_2)

end Region

/-! ## The pieces cover the buffers -/

theorem cover0_A (c : Dev nD) (i : grid0.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond0_0 i)
    (x0 : Vec F S1x2048x1024 .f32) (x1 : Vec F S64x1024 .bf16) (y : S1x2048x64.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x2048x64.size (by sl_kernel_rfl) y

theorem scover0_A (c : Dev nD) (i : grid0.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond0_0 i)
    (x0 : Vec F S1x2048x1024 .f32) (x1 : Vec F S64x1024 .bf16) (y : S2048x1024.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S2048x1024.size (by sl_kernel_rfl) y

theorem cover0_B (c : Dev nD) (i : grid0.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : ¬cond0_0 i)
    (x0 : Vec F S1x2048x1024 .f32) (x1 : Vec F S64x1024 .bf16) (xs0 : Vec F S2048x1024 .bf16) (y : S1x2048x64.Idx) :
    ∃ pc ∈ (kernelRun0_B c i arg2 harg2 arg3 harg3 arg4 harg4 arg5 harg5 hc0 x0 x1 xs0).1, y ∈ pc.1.set :=
  View.cover_of_tiledL (kernelRun0_B c i arg2 harg2 arg3 harg3 arg4 harg4 arg5 harg5 hc0 x0 x1 xs0).1 S1x2048x64.size (by sl_kernel_rfl) y

/-- What the first-head case leaves in the output buffer and in the scratch; what any other head leaves in the
    output buffer: the pieces read back. -/
def out0_A (c : Dev nD) (i : grid0.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond0_0 i)
    (x0 : Vec F S1x2048x1024 .f32) (x1 : Vec F S64x1024 .bf16) : Vec F S1x2048x64 .bf16 :=
  VO0.read (Elt F) (VO0.writes (Elt F) VO0.junk (kernelRun0_A c i arg2 harg2 arg3 harg3 arg4 harg4 arg5 harg5 hc0 x0 x1).1)
def sout0_A (c : Dev nD) (i : grid0.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond0_0 i)
    (x0 : Vec F S1x2048x1024 .f32) (x1 : Vec F S64x1024 .bf16) : Vec F S2048x1024 .bf16 :=
  VS0.read (Elt F) (VS0.writes (Elt F) VS0.junk (kernelRun0_A c i arg2 harg2 arg3 harg3 arg4 harg4 arg5 harg5 hc0 x0 x1).2.1)
def out0_B (c : Dev nD) (i : grid0.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : ¬cond0_0 i)
    (x0 : Vec F S1x2048x1024 .f32) (x1 : Vec F S64x1024 .bf16) (xs0 : Vec F S2048x1024 .bf16) : Vec F S1x2048x64 .bf16 :=
  VO0.read (Elt F) (VO0.writes (Elt F) VO0.junk (kernelRun0_B c i arg2 harg2 arg3 harg3 arg4 harg4 arg5 harg5 hc0 x0 x1 xs0).1)

section Region
variable (V : (c : Dev nD) → (b : Ref sig .tc) → Buf (Elt F) ((c : Thread nD τ).loc b))

/-- What the output buffer and the scratch hold after the body at position `n`. -/
def outsAt0 (c : Dev nD) : (n : ℕ) → n < cfg0.N → Vec F S1x2048x64 .bf16 × Vec F S2048x1024 .bf16
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (iblk0 V c 0 ⟨0, hn⟩) (iblk0 V c 1 ⟨0, hn⟩),
      sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (iblk0 V c 0 ⟨0, hn⟩) (iblk0 V c 1 ⟨0, hn⟩))
  | n + 1, hn =>
    if h0 : (n + 1) % 16 = 0 then
      (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (iblk0 V c 0 ⟨n + 1, hn⟩) (iblk0 V c 1 ⟨n + 1, hn⟩),
        sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (iblk0 V c 0 ⟨n + 1, hn⟩) (iblk0 V c 1 ⟨n + 1, hn⟩))
    else
      (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (iblk0 V c 0 ⟨n + 1, hn⟩) (iblk0 V c 1 ⟨n + 1, hn⟩) (outsAt0 c n (Nat.lt_of_succ_lt hn)).2,
        (outsAt0 c n (Nat.lt_of_succ_lt hn)).2)

theorem outsAt0_A (c : Dev nD) (t : Fin cfg0.N) (h0 : t.val % 16 = 0) :
    outsAt0 V c t.val t.isLt = (out0_A c (grid0.coords t) (ms0_0 t) (hs0_0 t) (ms0_1 t) (hs0_1 t) (ms0_2 t) (hs0_2 t) scM0 (Memref.isWhole_whole _) ((hcond0_0 t).mpr h0) (iblk0 V c 0 t) (iblk0 V c 1 t),
      sout0_A c (grid0.coords t) (ms0_0 t) (hs0_0 t) (ms0_1 t) (hs0_1 t) (ms0_2 t) (hs0_2 t) scM0 (Memref.isWhole_whole _) ((hcond0_0 t).mpr h0) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 16 = 0) :
    outsAt0 V c t.val t.isLt = (out0_B c (grid0.coords t) (ms0_0 t) (hs0_0 t) (ms0_1 t) (hs0_1 t) (ms0_2 t) (hs0_2 t) scM0 (Memref.isWhole_whole _) (fun h => h0 ((hcond0_0 t).mp h)) (iblk0 V c 0 t) (iblk0 V c 1 t) (outsAt0 V c (t.val - 1) (Nat.lt_of_le_of_lt (Nat.sub_le _ _) t.isLt)).2,
      (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant: before the first point the scoped buffers at anything; afterwards the scratch at what the point
    before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The launch's invariant with the scratch split out of the scoped rest. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- The proof data of the pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Region

end Cert.Kernel.Hand

end
-- ==== Proof.KR0Obl.lean ====
/-
  Call 0's body obligation: at every grid point the body, entered with the invariant, the input
  buffers at their blocks and the output buffer at anything, returns the invariant of the next
  point and the buffers at what the proof data name. Also: what the launch hands the region is the
  invariant before the first point, and the invariant after the last point gives it back.
-/
import proofs.«140923_j35270271435571_2_alg».proof.Proof.Gen.Kernel.Launch
import proofs.«140923_j35270271435571_2_alg».proof.Proof.Gen.Kernel.Skeleton
import proofs.«140923_j35270271435571_2_alg».proof.Proof.Gen.Kernel.Points
import proofs.«140923_j35270271435571_2_alg».proof.Proof.KR0Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2]
  by_cases h0 : t.val % 16 = 0
  · rw [outsAt0_A V c t h0]
    unfold out0_A sout0_A; (try dsimp only)
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (iblk0 V c 0 t) (iblk0 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A c _ _ _ _ _ _ _ _ _ _ _ _)
    · rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (iblk0 V c 0 t) (iblk0 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A c _ _ _ _ _ _ _ _ _ _ _ _)
  · rw [outsAt0_B V c t h0]
    unfold out0_B; (try dsimp only)
    have hz : t.val ≠ 0 := fun h => h0 (by rw [h])
    rw [PhiS0_castSucc V c t, PhiS0_pos V c _ _ hz]
    iintro ⟨⟨⟨HS0, Hrest⟩, Hg⟩, Ho, ⟨%d0, H0⟩, ⟨%d1, H1⟩, ⟨%d2, H2⟩⟩
    iapply ((kernelRun0_B c (grid0.coords t) _ _ _ _ _ _ _ _ (fun h => h0 ((hcond0_0 t).mp h)) (iblk0 V c 0 t) (iblk0 V c 1 t) _).2 Set.univ _)
    isplitl [H0]; · iexact H0
    isplitl [H1]; · iexact H1
    isplitl [H2]; · iexists _; iexact H2
    isplitl [HS0]; · iexact HS0
    iintro ⟨H0, H1, ⟨%e2, H2⟩, HS0⟩
    isplitl [HS0 Hrest Hg]
    · isplitl [HS0 Hrest]
      · isplitl [HS0]; · iexact HS0
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back: the scratch's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

end Region

end Cert.Kernel.Hand

end
-- ==== Proof.KR1Run.lean ====
/-
  The projection kernel of call 1, run on whole staging buffers, in its two control cases:
  at the first head of a batch row (grid coordinate 1 is zero) the body rounds the activation
  block into the scratch buffer and then multiplies it by the head's weight block; at every
  other head it multiplies the scratch as the point before left it.
-/
import proofs.«140923_j35270271435571_2_alg».proof.Proof.Gen.Kernel.Launch
import proofs.«140923_j35270271435571_2_alg».proof.Proof.Gen.Kernel.Skeleton
import proofs.«140923_j35270271435571_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body: the head coordinate is zero. -/
abbrev cond1_0 (i : grid1.Coords) : Prop := (Scalar.cmpi .ne (Scalar.extui (Scalar.cmpi .eq (BitVec.ofNat 32 (i 1).val) 0#32)) 0#32) = 1#1
/-- It holds exactly at the points that are multiples of 16 (the head coordinate is the inner one, of extent 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- The scratch operand as a memref, and as a view. -/
abbrev scM1 : Memref sig .tc .vmem S2048x1024 .bf16 := Memref.whole cc1_scratch0
abbrev VS1 : View sig .tc .vmem S2048x1024 .bf16 := (scM1).view
/-- One staging buffer of the output window, through which its contents are stated. -/
abbrev VO1 : View sig .tc .vmem S1x2048x64 .bf16 := (Memref.whole cc1_stg2_0 : Memref sig .tc .vmem S1x2048x64 .bf16).view

set_option maxHeartbeats 4000000 in
/-- First head of a row: the pieces the body's stores leave in the output buffer and in the scratch, with the
    proof that the body runs to a continuation that holds them. -/
noncomputable def kernelRun1_A (c : Dev nD) (i : grid1.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond1_0 i)
    (x0 : Vec F S1x2048x1024 .f32) (x1 : Vec F S64x1024 .bf16) :
    Σ' (L2 : List (View.Piece (Elt F) S1x2048x64 .bf16)), { LS0 : List (View.Piece (Elt F) S2048x1024 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__proj_head_kernel i arg2 harg2 arg3 harg3 arg4 harg4 arg5 harg5) K } := by
  refine ⟨?_, ?_, fun E K => ?run⟩
  case run =>
    simp only [cc1__proj_head_kernel_eq_skeleton]; unfold cc1__proj_head_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 4000000 in
/-- Any other head: the scratch is read at the contents the point before left and handed back untouched;
    the pieces are the output buffer's. -/
noncomputable def kernelRun1_B (c : Dev nD) (i : grid1.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : ¬cond1_0 i)
    (x0 : Vec F S1x2048x1024 .f32) (x1 : Vec F S64x1024 .bf16) (xs0 : Vec F S2048x1024 .bf16) :
    { L2 : List (View.Piece (Elt F) S1x2048x64 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xs0) -∗ K ⟨⟩))
          ⊢ wp frame (wpE (defs₀ (F := F)) Variants.none c none) E (cc1__proj_head_kernel i arg2 harg2 arg3 harg3 arg4 harg4 arg5 harg5) K } := by
  refine ⟨?_, fun E K => ?run⟩
  case run =>
    simp only [cc1__proj_head_kernel_eq_skeleton]; unfold cc1__proj_head_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; isplitr; · ipureintro; exact harg5.read_unread _
    iexact HS0

end Cert.Kernel.Hand

end
-- ==== Proof.KR1Dat.lean ====
/-
  Call 1's proof data. After the body at a grid point the output buffer holds the point's
  product block and the scratch holds the rounded activation block of the point's batch row:
  both are stated by recursion on the point, a point that is not the first head of its row
  reading the scratch as the point before left it.
-/
import proofs.«140923_j35270271435571_2_alg».proof.Proof.Gen.Kernel.Launch
import proofs.«140923_j35270271435571_2_alg».proof.Proof.Gen.Kernel.Skeleton
import proofs.«140923_j35270271435571_2_alg».proof.Proof.Gen.Kernel.Points
import proofs.«140923_j35270271435571_2_alg».proof.Proof.KR1Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at a point, as the pipeline passes it, and its wholeness. -/
abbrev ms1_0 (t : Fin cfg1.N) : Memref sig .tc .vmem S1x2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x64 .bf16 := win1_2.stage (cfg1.slots t 2)
abbrev hs1_2 (t : Fin cfg1.N) : (ms1_2 t).IsWhole := hstage1_2 ((cfg1.slots t 2).cast nbuf1_2)

end Region

/-! ## The pieces cover the buffers -/

theorem cover1_A (c : Dev nD) (i : grid1.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond1_0 i)
    (x0 : Vec F S1x2048x1024 .f32) (x1 : Vec F S64x1024 .bf16) (y : S1x2048x64.Idx) :
    ∃ pc ∈ (kernelRun1_A c i arg2 harg2 arg3 harg3 arg4 harg4 arg5 harg5 hc0 x0 x1).1, y ∈ pc.1.set :=
  View.cover_of_tiledL (kernelRun1_A c i arg2 harg2 arg3 harg3 arg4 harg4 arg5 harg5 hc0 x0 x1).1 S1x2048x64.size (by sl_kernel_rfl) y

theorem scover1_A (c : Dev nD) (i : grid1.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond1_0 i)
    (x0 : Vec F S1x2048x1024 .f32) (x1 : Vec F S64x1024 .bf16) (y : S2048x1024.Idx) :
    ∃ pc ∈ (kernelRun1_A c i arg2 harg2 arg3 harg3 arg4 harg4 arg5 harg5 hc0 x0 x1).2.1, y ∈ pc.1.set :=
  View.cover_of_tiledL (kernelRun1_A c i arg2 harg2 arg3 harg3 arg4 harg4 arg5 harg5 hc0 x0 x1).2.1 S2048x1024.size (by sl_kernel_rfl) y

theorem cover1_B (c : Dev nD) (i : grid1.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : ¬cond1_0 i)
    (x0 : Vec F S1x2048x1024 .f32) (x1 : Vec F S64x1024 .bf16) (xs0 : Vec F S2048x1024 .bf16) (y : S1x2048x64.Idx) :
    ∃ pc ∈ (kernelRun1_B c i arg2 harg2 arg3 harg3 arg4 harg4 arg5 harg5 hc0 x0 x1 xs0).1, y ∈ pc.1.set :=
  View.cover_of_tiledL (kernelRun1_B c i arg2 harg2 arg3 harg3 arg4 harg4 arg5 harg5 hc0 x0 x1 xs0).1 S1x2048x64.size (by sl_kernel_rfl) y

/-- What the first-head case leaves in the output buffer and in the scratch; what any other head leaves in the
    output buffer: the pieces read back. -/
def out1_A (c : Dev nD) (i : grid1.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond1_0 i)
    (x0 : Vec F S1x2048x1024 .f32) (x1 : Vec F S64x1024 .bf16) : Vec F S1x2048x64 .bf16 :=
  VO1.read (Elt F) (VO1.writes (Elt F) VO1.junk (kernelRun1_A c i arg2 harg2 arg3 harg3 arg4 harg4 arg5 harg5 hc0 x0 x1).1)
def sout1_A (c : Dev nD) (i : grid1.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond1_0 i)
    (x0 : Vec F S1x2048x1024 .f32) (x1 : Vec F S64x1024 .bf16) : Vec F S2048x1024 .bf16 :=
  VS1.read (Elt F) (VS1.writes (Elt F) VS1.junk (kernelRun1_A c i arg2 harg2 arg3 harg3 arg4 harg4 arg5 harg5 hc0 x0 x1).2.1)
def out1_B (c : Dev nD) (i : grid1.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : ¬cond1_0 i)
    (x0 : Vec F S1x2048x1024 .f32) (x1 : Vec F S64x1024 .bf16) (xs0 : Vec F S2048x1024 .bf16) : Vec F S1x2048x64 .bf16 :=
  VO1.read (Elt F) (VO1.writes (Elt F) VO1.junk (kernelRun1_B c i arg2 harg2 arg3 harg3 arg4 harg4 arg5 harg5 hc0 x0 x1 xs0).1)

section Region
variable (V : (c : Dev nD) → (b : Ref sig .tc) → Buf (Elt F) ((c : Thread nD τ).loc b))

/-- What the output buffer and the scratch hold after the body at position `n`. -/
def outsAt1 (c : Dev nD) : (n : ℕ) → n < cfg1.N → Vec F S1x2048x64 .bf16 × Vec F S2048x1024 .bf16
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (iblk1 V c 0 ⟨0, hn⟩) (iblk1 V c 1 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (iblk1 V c 0 ⟨0, hn⟩) (iblk1 V c 1 ⟨0, hn⟩))
  | n + 1, hn =>
    if h0 : (n + 1) % 16 = 0 then
      (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (iblk1 V c 0 ⟨n + 1, hn⟩) (iblk1 V c 1 ⟨n + 1, hn⟩),
        sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (iblk1 V c 0 ⟨n + 1, hn⟩) (iblk1 V c 1 ⟨n + 1, hn⟩))
    else
      (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (iblk1 V c 0 ⟨n + 1, hn⟩) (iblk1 V c 1 ⟨n + 1, hn⟩) (outsAt1 c n (Nat.lt_of_succ_lt hn)).2,
        (outsAt1 c n (Nat.lt_of_succ_lt hn)).2)

theorem outsAt1_A (c : Dev nD) (t : Fin cfg1.N) (h0 : t.val % 16 = 0) :
    outsAt1 V c t.val t.isLt = (out1_A c (grid1.coords t) (ms1_0 t) (hs1_0 t) (ms1_1 t) (hs1_1 t) (ms1_2 t) (hs1_2 t) scM1 (Memref.isWhole_whole _) ((hcond1_0 t).mpr h0) (iblk1 V c 0 t) (iblk1 V c 1 t),
      sout1_A c (grid1.coords t) (ms1_0 t) (hs1_0 t) (ms1_1 t) (hs1_1 t) (ms1_2 t) (hs1_2 t) scM1 (Memref.isWhole_whole _) ((hcond1_0 t).mpr h0) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 16 = 0) :
    outsAt1 V c t.val t.isLt = (out1_B c (grid1.coords t) (ms1_0 t) (hs1_0 t) (ms1_1 t) (hs1_1 t) (ms1_2 t) (hs1_2 t) scM1 (Memref.isWhole_whole _) (fun h => h0 ((hcond1_0 t).mp h)) (iblk1 V c 0 t) (iblk1 V c 1 t) (outsAt1 V c (t.val - 1) (Nat.lt_of_le_of_lt (Nat.sub_le _ _) t.isLt)).2,
      (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant: before the first point the scoped buffers at anything; afterwards the scratch at what the point
    before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The launch's invariant with the scratch split out of the scoped rest. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-- The proof data of the pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Region

end Cert.Kernel.Hand

end
-- ==== Proof.KR1Obl.lean ====
/-
  Call 1's body obligation: at every grid point the body, entered with the invariant, the input
  buffers at their blocks and the output buffer at anything, returns the invariant of the next
  point and the buffers at what the proof data name. Also: what the launch hands the region is the
  invariant before the first point, and the invariant after the last point gives it back.
-/
import proofs.«140923_j35270271435571_2_alg».proof.Proof.Gen.Kernel.Launch
import proofs.«140923_j35270271435571_2_alg».proof.Proof.Gen.Kernel.Skeleton
import proofs.«140923_j35270271435571_2_alg».proof.Proof.Gen.Kernel.Points
import proofs.«140923_j35270271435571_2_alg».proof.Proof.KR1Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2]
  by_cases h0 : t.val % 16 = 0
  · rw [outsAt1_A V c t h0]
    unfold out1_A sout1_A; (try dsimp only)
    by_cases hz : t.val = 0
    · rw [PhiS1_castSucc V c t, PhiS1_zero V c _ _ hz, PhiA1_eq]
      iintro ⟨⟨⟨HS0, Hrest⟩, Hg⟩, Ho, ⟨%d0, H0⟩, ⟨%d1, H1⟩, ⟨%d2, H2⟩⟩
      iapply ((kernelRun1_A c (grid1.coords t) _ _ _ _ _ _ _ _ ((hcond1_0 t).mpr h0) (iblk1 V c 0 t) (iblk1 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A c _ _ _ _ _ _ _ _ _ _ _ _)
    · rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_A c (grid1.coords t) _ _ _ _ _ _ _ _ ((hcond1_0 t).mpr h0) (iblk1 V c 0 t) (iblk1 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A c _ _ _ _ _ _ _ _ _ _ _ _)
  · rw [outsAt1_B V c t h0]
    unfold out1_B; (try dsimp only)
    have hz : t.val ≠ 0 := fun h => h0 (by rw [h])
    rw [PhiS1_castSucc V c t, PhiS1_pos V c _ _ hz]
    iintro ⟨⟨⟨HS0, Hrest⟩, Hg⟩, Ho, ⟨%d0, H0⟩, ⟨%d1, H1⟩, ⟨%d2, H2⟩⟩
    iapply ((kernelRun1_B c (grid1.coords t) _ _ _ _ _ _ _ _ (fun h => h0 ((hcond1_0 t).mp h)) (iblk1 V c 0 t) (iblk1 V c 1 t) _).2 Set.univ _)
    isplitl [H0]; · iexact H0
    isplitl [H1]; · iexact H1
    isplitl [H2]; · iexists _; iexact H2
    isplitl [HS0]; · iexact HS0
    iintro ⟨H0, H1, ⟨%e2, H2⟩, HS0⟩
    isplitl [HS0 Hrest Hg]
    · isplitl [HS0 Hrest]
      · isplitl [HS0]; · iexact HS0
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B c _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the scratch's named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

end Region

end Cert.Kernel.Hand

end
-- ==== Proof.KR2Run.lean ====
/-
  The projection kernel of call 2, run on whole staging buffers, in its two control cases:
  at the first head of a batch row (grid coordinate 1 is zero) the body rounds the activation
  block into the scratch buffer and then multiplies it by the head's weight block; at every
  other head it multiplies the scratch as the point before left it.
-/
import proofs.«140923_j35270271435571_2_alg».proof.Proof.Gen.Kernel.Launch
import proofs.«140923_j35270271435571_2_alg».proof.Proof.Gen.Kernel.Skeleton
import proofs.«140923_j35270271435571_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body: the head coordinate is zero. -/
abbrev cond2_0 (i : grid2.Coords) : Prop := (Scalar.cmpi .ne (Scalar.extui (Scalar.cmpi .eq (BitVec.ofNat 32 (i 1).val) 0#32)) 0#32) = 1#1
/-- It holds exactly at the points that are multiples of 16 (the head coordinate is the inner one, of extent 16). -/
theorem hcond2_0 : ∀ t : Fin cfg2.N, cond2_0 (grid2.coords t) ↔ t.val % 16 = 0 :=
  (by decide +kernel : ∀ t : Fin grid2.N, cond2_0 (grid2.coords t) ↔ t.val % 16 = 0)

/-- The scratch operand as a memref, and as a view. -/
abbrev scM2 : Memref sig .tc .vmem S2048x1024 .bf16 := Memref.whole cc2_scratch0
abbrev VS2 : View sig .tc .vmem S2048x1024 .bf16 := (scM2).view
/-- One staging buffer of the output window, through which its contents are stated. -/
abbrev VO2 : View sig .tc .vmem S1x2048x64 .bf16 := (Memref.whole cc2_stg2_0 : Memref sig .tc .vmem S1x2048x64 .bf16).view

set_option maxHeartbeats 4000000 in
/-- First head of a row: the pieces the body's stores leave in the output buffer and in the scratch, with the
    proof that the body runs to a continuation that holds them. -/
noncomputable def kernelRun2_A (c : Dev nD) (i : grid2.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond2_0 i)
    (x0 : Vec F S1x2048x1024 .f32) (x1 : Vec F S64x1024 .bf16) :
    Σ' (L2 : List (View.Piece (Elt F) S1x2048x64 .bf16)), { LS0 : List (View.Piece (Elt F) S2048x1024 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__proj_head_kernel i arg2 harg2 arg3 harg3 arg4 harg4 arg5 harg5) K } := by
  refine ⟨?_, ?_, fun E K => ?run⟩
  case run =>
    simp only [cc2__proj_head_kernel_eq_skeleton]; unfold cc2__proj_head_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 4000000 in
/-- Any other head: the scratch is read at the contents the point before left and handed back untouched;
    the pieces are the output buffer's. -/
noncomputable def kernelRun2_B (c : Dev nD) (i : grid2.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : ¬cond2_0 i)
    (x0 : Vec F S1x2048x1024 .f32) (x1 : Vec F S64x1024 .bf16) (xs0 : Vec F S2048x1024 .bf16) :
    { L2 : List (View.Piece (Elt F) S1x2048x64 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xs0) -∗ K ⟨⟩))
          ⊢ wp frame (wpE (defs₀ (F := F)) Variants.none c none) E (cc2__proj_head_kernel i arg2 harg2 arg3 harg3 arg4 harg4 arg5 harg5) K } := by
  refine ⟨?_, fun E K => ?run⟩
  case run =>
    simp only [cc2__proj_head_kernel_eq_skeleton]; unfold cc2__proj_head_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; isplitr; · ipureintro; exact harg5.read_unread _
    iexact HS0

end Cert.Kernel.Hand

end
-- ==== Proof.KR2Dat.lean ====
/-
  Call 2's proof data. After the body at a grid point the output buffer holds the point's
  product block and the scratch holds the rounded activation block of the point's batch row:
  both are stated by recursion on the point, a point that is not the first head of its row
  reading the scratch as the point before left it.
-/
import proofs.«140923_j35270271435571_2_alg».proof.Proof.Gen.Kernel.Launch
import proofs.«140923_j35270271435571_2_alg».proof.Proof.Gen.Kernel.Skeleton
import proofs.«140923_j35270271435571_2_alg».proof.Proof.Gen.Kernel.Points
import proofs.«140923_j35270271435571_2_alg».proof.Proof.KR2Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Each window's current staging memref at a point, as the pipeline passes it, and its wholeness. -/
abbrev ms2_0 (t : Fin cfg2.N) : Memref sig .tc .vmem S1x2048x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048x64 .bf16 := win2_2.stage (cfg2.slots t 2)
abbrev hs2_2 (t : Fin cfg2.N) : (ms2_2 t).IsWhole := hstage2_2 ((cfg2.slots t 2).cast nbuf2_2)

end Region

/-! ## The pieces cover the buffers -/

theorem cover2_A (c : Dev nD) (i : grid2.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond2_0 i)
    (x0 : Vec F S1x2048x1024 .f32) (x1 : Vec F S64x1024 .bf16) (y : S1x2048x64.Idx) :
    ∃ pc ∈ (kernelRun2_A c i arg2 harg2 arg3 harg3 arg4 harg4 arg5 harg5 hc0 x0 x1).1, y ∈ pc.1.set :=
  View.cover_of_tiledL (kernelRun2_A c i arg2 harg2 arg3 harg3 arg4 harg4 arg5 harg5 hc0 x0 x1).1 S1x2048x64.size (by sl_kernel_rfl) y

theorem scover2_A (c : Dev nD) (i : grid2.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond2_0 i)
    (x0 : Vec F S1x2048x1024 .f32) (x1 : Vec F S64x1024 .bf16) (y : S2048x1024.Idx) :
    ∃ pc ∈ (kernelRun2_A c i arg2 harg2 arg3 harg3 arg4 harg4 arg5 harg5 hc0 x0 x1).2.1, y ∈ pc.1.set :=
  View.cover_of_tiledL (kernelRun2_A c i arg2 harg2 arg3 harg3 arg4 harg4 arg5 harg5 hc0 x0 x1).2.1 S2048x1024.size (by sl_kernel_rfl) y

theorem cover2_B (c : Dev nD) (i : grid2.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : ¬cond2_0 i)
    (x0 : Vec F S1x2048x1024 .f32) (x1 : Vec F S64x1024 .bf16) (xs0 : Vec F S2048x1024 .bf16) (y : S1x2048x64.Idx) :
    ∃ pc ∈ (kernelRun2_B c i arg2 harg2 arg3 harg3 arg4 harg4 arg5 harg5 hc0 x0 x1 xs0).1, y ∈ pc.1.set :=
  View.cover_of_tiledL (kernelRun2_B c i arg2 harg2 arg3 harg3 arg4 harg4 arg5 harg5 hc0 x0 x1 xs0).1 S1x2048x64.size (by sl_kernel_rfl) y

/-- What the first-head case leaves in the output buffer and in the scratch; what any other head leaves in the
    output buffer: the pieces read back. -/
def out2_A (c : Dev nD) (i : grid2.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond2_0 i)
    (x0 : Vec F S1x2048x1024 .f32) (x1 : Vec F S64x1024 .bf16) : Vec F S1x2048x64 .bf16 :=
  VO2.read (Elt F) (VO2.writes (Elt F) VO2.junk (kernelRun2_A c i arg2 harg2 arg3 harg3 arg4 harg4 arg5 harg5 hc0 x0 x1).1)
def sout2_A (c : Dev nD) (i : grid2.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond2_0 i)
    (x0 : Vec F S1x2048x1024 .f32) (x1 : Vec F S64x1024 .bf16) : Vec F S2048x1024 .bf16 :=
  VS2.read (Elt F) (VS2.writes (Elt F) VS2.junk (kernelRun2_A c i arg2 harg2 arg3 harg3 arg4 harg4 arg5 harg5 hc0 x0 x1).2.1)
def out2_B (c : Dev nD) (i : grid2.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : ¬cond2_0 i)
    (x0 : Vec F S1x2048x1024 .f32) (x1 : Vec F S64x1024 .bf16) (xs0 : Vec F S2048x1024 .bf16) : Vec F S1x2048x64 .bf16 :=
  VO2.read (Elt F) (VO2.writes (Elt F) VO2.junk (kernelRun2_B c i arg2 harg2 arg3 harg3 arg4 harg4 arg5 harg5 hc0 x0 x1 xs0).1)

section Region
variable (V : (c : Dev nD) → (b : Ref sig .tc) → Buf (Elt F) ((c : Thread nD τ).loc b))

/-- What the output buffer and the scratch hold after the body at position `n`. -/
def outsAt2 (c : Dev nD) : (n : ℕ) → n < cfg2.N → Vec F S1x2048x64 .bf16 × Vec F S2048x1024 .bf16
  | 0, hn => (out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr (Nat.zero_mod _)) (iblk2 V c 0 ⟨0, hn⟩) (iblk2 V c 1 ⟨0, hn⟩),
      sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr (Nat.zero_mod _)) (iblk2 V c 0 ⟨0, hn⟩) (iblk2 V c 1 ⟨0, hn⟩))
  | n + 1, hn =>
    if h0 : (n + 1) % 16 = 0 then
      (out2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) ((hcond2_0 ⟨n + 1, hn⟩).mpr h0) (iblk2 V c 0 ⟨n + 1, hn⟩) (iblk2 V c 1 ⟨n + 1, hn⟩),
        sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) ((hcond2_0 ⟨n + 1, hn⟩).mpr h0) (iblk2 V c 0 ⟨n + 1, hn⟩) (iblk2 V c 1 ⟨n + 1, hn⟩))
    else
      (out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) (iblk2 V c 0 ⟨n + 1, hn⟩) (iblk2 V c 1 ⟨n + 1, hn⟩) (outsAt2 c n (Nat.lt_of_succ_lt hn)).2,
        (outsAt2 c n (Nat.lt_of_succ_lt hn)).2)

theorem outsAt2_A (c : Dev nD) (t : Fin cfg2.N) (h0 : t.val % 16 = 0) :
    outsAt2 V c t.val t.isLt = (out2_A c (grid2.coords t) (ms2_0 t) (hs2_0 t) (ms2_1 t) (hs2_1 t) (ms2_2 t) (hs2_2 t) scM2 (Memref.isWhole_whole _) ((hcond2_0 t).mpr h0) (iblk2 V c 0 t) (iblk2 V c 1 t),
      sout2_A c (grid2.coords t) (ms2_0 t) (hs2_0 t) (ms2_1 t) (hs2_1 t) (ms2_2 t) (hs2_2 t) scM2 (Memref.isWhole_whole _) ((hcond2_0 t).mpr h0) (iblk2 V c 0 t) (iblk2 V c 1 t)) := by
  obtain ⟨n, hn⟩ := t
  cases n with
  | zero => exact rfl
  | succ n => exact (dif_pos h0).trans rfl

theorem outsAt2_B (c : Dev nD) (t : Fin cfg2.N) (h0 : ¬t.val % 16 = 0) :
    outsAt2 V c t.val t.isLt = (out2_B c (grid2.coords t) (ms2_0 t) (hs2_0 t) (ms2_1 t) (hs2_1 t) (ms2_2 t) (hs2_2 t) scM2 (Memref.isWhole_whole _) (fun h => h0 ((hcond2_0 t).mp h)) (iblk2 V c 0 t) (iblk2 V c 1 t) (outsAt2 V c (t.val - 1) (Nat.lt_of_le_of_lt (Nat.sub_le _ _) t.isLt)).2,
      (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant: before the first point the scoped buffers at anything; afterwards the scratch at what the point
    before left, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The launch's invariant with the scratch split out of the scoped rest. -/
theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- The proof data of the pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

end Region

end Cert.Kernel.Hand

end
-- ==== Proof.KR2Obl.lean ====
/-
  Call 2's body obligation: at every grid point the body, entered with the invariant, the input
  buffers at their blocks and the output buffer at anything, returns the invariant of the next
  point and the buffers at what the proof data name. Also: what the launch hands the region is the
  invariant before the first point, and the invariant after the last point gives it back.
-/
import proofs.«140923_j35270271435571_2_alg».proof.Proof.Gen.Kernel.Launch
import proofs.«140923_j35270271435571_2_alg».proof.Proof.Gen.Kernel.Skeleton
import proofs.«140923_j35270271435571_2_alg».proof.Proof.Gen.Kernel.Points
import proofs.«140923_j35270271435571_2_alg».proof.Proof.KR2Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2]
  by_cases h0 : t.val % 16 = 0
  · rw [outsAt2_A V c t h0]
    unfold out2_A sout2_A; (try dsimp only)
    by_cases hz : t.val = 0
    · rw [PhiS2_castSucc V c t, PhiS2_zero V c _ _ hz, PhiA2_eq]
      iintro ⟨⟨⟨HS0, Hrest⟩, Hg⟩, Ho, ⟨%d0, H0⟩, ⟨%d1, H1⟩, ⟨%d2, H2⟩⟩
      iapply ((kernelRun2_A c (grid2.coords t) _ _ _ _ _ _ _ _ ((hcond2_0 t).mpr h0) (iblk2 V c 0 t) (iblk2 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_A c _ _ _ _ _ _ _ _ _ _ _ _)
    · rw [PhiS2_castSucc V c t, PhiS2_pos V c _ _ hz]
      iintro ⟨⟨⟨HS0, Hrest⟩, Hg⟩, Ho, ⟨%d0, H0⟩, ⟨%d1, H1⟩, ⟨%d2, H2⟩⟩
      iapply ((kernelRun2_A c (grid2.coords t) _ _ _ _ _ _ _ _ ((hcond2_0 t).mpr h0) (iblk2 V c 0 t) (iblk2 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_A c _ _ _ _ _ _ _ _ _ _ _ _)
  · rw [outsAt2_B V c t h0]
    unfold out2_B; (try dsimp only)
    have hz : t.val ≠ 0 := fun h => h0 (by rw [h])
    rw [PhiS2_castSucc V c t, PhiS2_pos V c _ _ hz]
    iintro ⟨⟨⟨HS0, Hrest⟩, Hg⟩, Ho, ⟨%d0, H0⟩, ⟨%d1, H1⟩, ⟨%d2, H2⟩⟩
    iapply ((kernelRun2_B c (grid2.coords t) _ _ _ _ _ _ _ _ (fun h => h0 ((hcond2_0 t).mp h)) (iblk2 V c 0 t) (iblk2 V c 1 t) _).2 Set.univ _)
    isplitl [H0]; · iexact H0
    isplitl [H1]; · iexact H1
    isplitl [H2]; · iexists _; iexact H2
    isplitl [HS0]; · iexact HS0
    iintro ⟨H0, H1, ⟨%e2, H2⟩, HS0⟩
    isplitl [HS0 Hrest Hg]
    · isplitl [HS0 Hrest]
      · isplitl [HS0]; · iexact HS0
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover2_B c _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives it back: the scratch's named contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 64 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

end Region

end Cert.Kernel.Hand

end
-- ==== Proof.KR3Run.lean ====
/-
  The attention kernel of call 3 run on whole staging buffers, in its three control cases over the
  head coordinate h: h = 0 (the accumulator is zeroed, then the head's contribution added),
  0 < h < 15 (the contribution is added to what the head before left) and h = 15 (added, and the
  accumulated block stored into the output buffer). Every case stores the head's attention weights.
-/
import proofs.«140923_j35270271435571_2_alg».proof.Proof.Gen.Kernel.Launch
import proofs.«140923_j35270271435571_2_alg».proof.Proof.Gen.Kernel.Skeleton
import proofs.«140923_j35270271435571_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's two branch conditions: the head coordinate is zero; it is the last one. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 16 = 0 :=
  (by decide +kernel : ∀ t : Fin grid3.N, cond3_0 (grid3.coords t) ↔ t.val % 16 = 0)
abbrev cond3_1 (i : grid3.Coords) : Prop := k3_cond2 i = 1#1
theorem hcond3_1 : ∀ t : Fin cfg3.N, cond3_1 (grid3.coords t) ↔ t.val % 16 = 15 :=
  (by decide +kernel : ∀ t : Fin grid3.N, cond3_1 (grid3.coords t) ↔ t.val % 16 = 15)

/-- The accumulator scratch as a memref and a view; one staging buffer of each output window as a view. -/
abbrev scM3 : Memref sig .tc .vmem S512x1024 .f32 := Memref.whole cc3_scratch0
abbrev VS3 : View sig .tc .vmem S512x1024 .f32 := (scM3).view
abbrev VO3_4 : View sig .tc .vmem S512x1024 .f32 := (Memref.whole cc3_stg4_0 : Memref sig .tc .vmem S512x1024 .f32).view
abbrev VO3_5 : View sig .tc .vmem S1x512x2048 .f32 := (Memref.whole cc3_stg5_0 : Memref sig .tc .vmem S1x512x2048 .f32).view

set_option maxHeartbeats 8000000 in
/-- h = 0. -/
noncomputable def kernelRun3_A (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : cond3_0 i) (hc1 : ¬cond3_1 i)
    (x0 : Vec F S1x512x64 .bf16) (x1 : Vec F S1x2048x64 .bf16) (x2 : Vec F S1x2048x64 .bf16) (x3 : Vec F S64x1024 .bf16) :
    Σ' (L5 : List (View.Piece (Elt F) S1x512x2048 .f32)), { LS0 : List (View.Piece (Elt F) S512x1024 .f32) //
      ∀ (xi4 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc3__attn_wo_kernel i arg3 harg3 arg4 harg4 arg5 harg5 arg6 harg6 arg7 harg7 arg8 harg8 arg9 harg9) K } := by
  refine ⟨?_, ?_, fun xi4 E K => ?run⟩
  case run =>
    simp only [cc3__attn_wo_kernel_eq_skeleton]; unfold cc3__attn_wo_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

set_option maxHeartbeats 8000000 in
/-- 0 < h < 15. -/
noncomputable def kernelRun3_B (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : ¬cond3_1 i)
    (x0 : Vec F S1x512x64 .bf16) (x1 : Vec F S1x2048x64 .bf16) (x2 : Vec F S1x2048x64 .bf16) (x3 : Vec F S64x1024 .bf16) (xs0 : Vec F S512x1024 .f32) :
    Σ' (L5 : List (View.Piece (Elt F) S1x512x2048 .f32)), { LS0 : List (View.Piece (Elt F) S512x1024 .f32) //
      ∀ (xi4 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc3__attn_wo_kernel i arg3 harg3 arg4 harg4 arg5 harg5 arg6 harg6 arg7 harg7 arg8 harg8 arg9 harg9) K } := by
  refine ⟨?_, ?_, fun xi4 E K => ?run⟩
  case run =>
    simp only [cc3__attn_wo_kernel_eq_skeleton]; unfold cc3__attn_wo_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

set_option maxHeartbeats 8000000 in
/-- h = 15. -/
noncomputable def kernelRun3_C (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : cond3_1 i)
    (x0 : Vec F S1x512x64 .bf16) (x1 : Vec F S1x2048x64 .bf16) (x2 : Vec F S1x2048x64 .bf16) (x3 : Vec F S64x1024 .bf16) (xs0 : Vec F S512x1024 .f32) :
    Σ' (L4 : List (View.Piece (Elt F) S512x1024 .f32)) (L5 : List (View.Piece (Elt F) S1x512x2048 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc3__attn_wo_kernel i arg3 harg3 arg4 harg4 arg5 harg5 arg6 harg6 arg7 harg7 arg8 harg8 arg9 harg9) K } := by
  refine ⟨?_, ?_, ?_, fun E K => ?run⟩
  case run =>
    simp only [cc3__attn_wo_kernel_eq_skeleton]; unfold cc3__attn_wo_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    iexists _; iexact HS0

end Cert.Kernel.Hand

end
-- ==== Proof.KR3Dat.lean ====
/-
  Call 3's proof data. After the body at a grid point the attention-weights buffer holds the head's
  softmax block, the accumulator scratch holds the sum of the contributions of the heads so far in
  the point's row tile, and at the last head the output buffer holds that sum: stated by recursion
  on the point.
-/
import proofs.«140923_j35270271435571_2_alg».proof.Proof.Gen.Kernel.Launch
import proofs.«140923_j35270271435571_2_alg».proof.Proof.Gen.Kernel.Skeleton
import proofs.«140923_j35270271435571_2_alg».proof.Proof.Gen.Kernel.Points
import proofs.«140923_j35270271435571_2_alg».proof.Proof.KR3Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

abbrev ms3_0 (t : Fin cfg3.N) : Memref sig .tc .vmem S1x512x64 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x2048x64 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x2048x64 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S64x1024 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S512x1024 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x512x2048 .f32 := win3_5.stage (cfg3.slots t 5)
abbrev hs3_5 (t : Fin cfg3.N) : (ms3_5 t).IsWhole := hstage3_5 ((cfg3.slots t 5).cast nbuf3_5)

end Region

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_5 : ∀ t : Fin cfg3.N, cfg3.idle 5 (grid3.coords t) = false := by decide +kernel
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem liveAt3_4 : ∀ t : Fin cfg3.N, cond3_1 (grid3.coords t) → cfg3.idle 4 (grid3.coords t) = false := by decide +kernel

/-! ## The pieces cover the buffers -/

theorem cover3_A_5 (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : cond3_0 i) (hc1 : ¬cond3_1 i) (x0 : Vec F S1x512x64 .bf16) (x1 : Vec F S1x2048x64 .bf16) (x2 : Vec F S1x2048x64 .bf16) (x3 : Vec F S64x1024 .bf16)  (y : S1x512x2048.Idx) :
    ∃ pc ∈ (kernelRun3_A c i arg3 harg3 arg4 harg4 arg5 harg5 arg6 harg6 arg7 harg7 arg8 harg8 arg9 harg9 hc0 hc1 x0 x1 x2 x3).1, y ∈ pc.1.set :=
  View.cover_of_tiledL (kernelRun3_A c i arg3 harg3 arg4 harg4 arg5 harg5 arg6 harg6 arg7 harg7 arg8 harg8 arg9 harg9 hc0 hc1 x0 x1 x2 x3).1 S1x512x2048.size (by sl_kernel_rfl) y
theorem scover3_A (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : cond3_0 i) (hc1 : ¬cond3_1 i) (x0 : Vec F S1x512x64 .bf16) (x1 : Vec F S1x2048x64 .bf16) (x2 : Vec F S1x2048x64 .bf16) (x3 : Vec F S64x1024 .bf16)  (y : S512x1024.Idx) :
    ∃ pc ∈ (kernelRun3_A c i arg3 harg3 arg4 harg4 arg5 harg5 arg6 harg6 arg7 harg7 arg8 harg8 arg9 harg9 hc0 hc1 x0 x1 x2 x3).2.1, y ∈ pc.1.set :=
  View.cover_of_tiledL (kernelRun3_A c i arg3 harg3 arg4 harg4 arg5 harg5 arg6 harg6 arg7 harg7 arg8 harg8 arg9 harg9 hc0 hc1 x0 x1 x2 x3).2.1 S512x1024.size (by sl_kernel_rfl) y
theorem cover3_B_5 (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : ¬cond3_1 i) (x0 : Vec F S1x512x64 .bf16) (x1 : Vec F S1x2048x64 .bf16) (x2 : Vec F S1x2048x64 .bf16) (x3 : Vec F S64x1024 .bf16) (xs0 : Vec F S512x1024 .f32) (y : S1x512x2048.Idx) :
    ∃ pc ∈ (kernelRun3_B c i arg3 harg3 arg4 harg4 arg5 harg5 arg6 harg6 arg7 harg7 arg8 harg8 arg9 harg9 hc0 hc1 x0 x1 x2 x3 xs0).1, y ∈ pc.1.set :=
  View.cover_of_tiledL (kernelRun3_B c i arg3 harg3 arg4 harg4 arg5 harg5 arg6 harg6 arg7 harg7 arg8 harg8 arg9 harg9 hc0 hc1 x0 x1 x2 x3 xs0).1 S1x512x2048.size (by sl_kernel_rfl) y
theorem scover3_B (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : ¬cond3_1 i) (x0 : Vec F S1x512x64 .bf16) (x1 : Vec F S1x2048x64 .bf16) (x2 : Vec F S1x2048x64 .bf16) (x3 : Vec F S64x1024 .bf16) (xs0 : Vec F S512x1024 .f32) (y : S512x1024.Idx) :
    ∃ pc ∈ (kernelRun3_B c i arg3 harg3 arg4 harg4 arg5 harg5 arg6 harg6 arg7 harg7 arg8 harg8 arg9 harg9 hc0 hc1 x0 x1 x2 x3 xs0).2.1, y ∈ pc.1.set :=
  View.cover_of_tiledL (kernelRun3_B c i arg3 harg3 arg4 harg4 arg5 harg5 arg6 harg6 arg7 harg7 arg8 harg8 arg9 harg9 hc0 hc1 x0 x1 x2 x3 xs0).2.1 S512x1024.size (by sl_kernel_rfl) y
theorem cover3_C_4 (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : cond3_1 i) (x0 : Vec F S1x512x64 .bf16) (x1 : Vec F S1x2048x64 .bf16) (x2 : Vec F S1x2048x64 .bf16) (x3 : Vec F S64x1024 .bf16) (xs0 : Vec F S512x1024 .f32) (y : S512x1024.Idx) :
    ∃ pc ∈ (kernelRun3_C c i arg3 harg3 arg4 harg4 arg5 harg5 arg6 harg6 arg7 harg7 arg8 harg8 arg9 harg9 hc0 hc1 x0 x1 x2 x3 xs0).1, y ∈ pc.1.set :=
  View.cover_of_tiledL (kernelRun3_C c i arg3 harg3 arg4 harg4 arg5 harg5 arg6 harg6 arg7 harg7 arg8 harg8 arg9 harg9 hc0 hc1 x0 x1 x2 x3 xs0).1 S512x1024.size (by sl_kernel_rfl) y
theorem cover3_C_5 (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : cond3_1 i) (x0 : Vec F S1x512x64 .bf16) (x1 : Vec F S1x2048x64 .bf16) (x2 : Vec F S1x2048x64 .bf16) (x3 : Vec F S64x1024 .bf16) (xs0 : Vec F S512x1024 .f32) (y : S1x512x2048.Idx) :
    ∃ pc ∈ (kernelRun3_C c i arg3 harg3 arg4 harg4 arg5 harg5 arg6 harg6 arg7 harg7 arg8 harg8 arg9 harg9 hc0 hc1 x0 x1 x2 x3 xs0).2.1, y ∈ pc.1.set :=
  View.cover_of_tiledL (kernelRun3_C c i arg3 harg3 arg4 harg4 arg5 harg5 arg6 harg6 arg7 harg7 arg8 harg8 arg9 harg9 hc0 hc1 x0 x1 x2 x3 xs0).2.1 S1x512x2048.size (by sl_kernel_rfl) y
theorem scover3_C (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : cond3_1 i) (x0 : Vec F S1x512x64 .bf16) (x1 : Vec F S1x2048x64 .bf16) (x2 : Vec F S1x2048x64 .bf16) (x3 : Vec F S64x1024 .bf16) (xs0 : Vec F S512x1024 .f32) (y : S512x1024.Idx) :
    ∃ pc ∈ (kernelRun3_C c i arg3 harg3 arg4 harg4 arg5 harg5 arg6 harg6 arg7 harg7 arg8 harg8 arg9 harg9 hc0 hc1 x0 x1 x2 x3 xs0).2.2.1, y ∈ pc.1.set :=
  View.cover_of_tiledL (kernelRun3_C c i arg3 harg3 arg4 harg4 arg5 harg5 arg6 harg6 arg7 harg7 arg8 harg8 arg9 harg9 hc0 hc1 x0 x1 x2 x3 xs0).2.2.1 S512x1024.size (by sl_kernel_rfl) y

/-- What each case leaves in each buffer: its pieces read back. -/
def out3_A_5 (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : cond3_0 i) (hc1 : ¬cond3_1 i) (x0 : Vec F S1x512x64 .bf16) (x1 : Vec F S1x2048x64 .bf16) (x2 : Vec F S1x2048x64 .bf16) (x3 : Vec F S64x1024 .bf16)  : Vec F S1x512x2048 .f32 :=
  VO3_5.read (Elt F) (VO3_5.writes (Elt F) VO3_5.junk (kernelRun3_A c i arg3 harg3 arg4 harg4 arg5 harg5 arg6 harg6 arg7 harg7 arg8 harg8 arg9 harg9 hc0 hc1 x0 x1 x2 x3).1)
def sout3_A (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : cond3_0 i) (hc1 : ¬cond3_1 i) (x0 : Vec F S1x512x64 .bf16) (x1 : Vec F S1x2048x64 .bf16) (x2 : Vec F S1x2048x64 .bf16) (x3 : Vec F S64x1024 .bf16)  : Vec F S512x1024 .f32 :=
  VS3.read (Elt F) (VS3.writes (Elt F) VS3.junk (kernelRun3_A c i arg3 harg3 arg4 harg4 arg5 harg5 arg6 harg6 arg7 harg7 arg8 harg8 arg9 harg9 hc0 hc1 x0 x1 x2 x3).2.1)
def out3_B_5 (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : ¬cond3_1 i) (x0 : Vec F S1x512x64 .bf16) (x1 : Vec F S1x2048x64 .bf16) (x2 : Vec F S1x2048x64 .bf16) (x3 : Vec F S64x1024 .bf16) (xs0 : Vec F S512x1024 .f32) : Vec F S1x512x2048 .f32 :=
  VO3_5.read (Elt F) (VO3_5.writes (Elt F) VO3_5.junk (kernelRun3_B c i arg3 harg3 arg4 harg4 arg5 harg5 arg6 harg6 arg7 harg7 arg8 harg8 arg9 harg9 hc0 hc1 x0 x1 x2 x3 xs0).1)
def sout3_B (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : ¬cond3_1 i) (x0 : Vec F S1x512x64 .bf16) (x1 : Vec F S1x2048x64 .bf16) (x2 : Vec F S1x2048x64 .bf16) (x3 : Vec F S64x1024 .bf16) (xs0 : Vec F S512x1024 .f32) : Vec F S512x1024 .f32 :=
  VS3.read (Elt F) (VS3.writes (Elt F) VS3.junk (kernelRun3_B c i arg3 harg3 arg4 harg4 arg5 harg5 arg6 harg6 arg7 harg7 arg8 harg8 arg9 harg9 hc0 hc1 x0 x1 x2 x3 xs0).2.1)
def out3_C_4 (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : cond3_1 i) (x0 : Vec F S1x512x64 .bf16) (x1 : Vec F S1x2048x64 .bf16) (x2 : Vec F S1x2048x64 .bf16) (x3 : Vec F S64x1024 .bf16) (xs0 : Vec F S512x1024 .f32) : Vec F S512x1024 .f32 :=
  VO3_4.read (Elt F) (VO3_4.writes (Elt F) VO3_4.junk (kernelRun3_C c i arg3 harg3 arg4 harg4 arg5 harg5 arg6 harg6 arg7 harg7 arg8 harg8 arg9 harg9 hc0 hc1 x0 x1 x2 x3 xs0).1)
def out3_C_5 (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : cond3_1 i) (x0 : Vec F S1x512x64 .bf16) (x1 : Vec F S1x2048x64 .bf16) (x2 : Vec F S1x2048x64 .bf16) (x3 : Vec F S64x1024 .bf16) (xs0 : Vec F S512x1024 .f32) : Vec F S1x512x2048 .f32 :=
  VO3_5.read (Elt F) (VO3_5.writes (Elt F) VO3_5.junk (kernelRun3_C c i arg3 harg3 arg4 harg4 arg5 harg5 arg6 harg6 arg7 harg7 arg8 harg8 arg9 harg9 hc0 hc1 x0 x1 x2 x3 xs0).2.1)
def sout3_C (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : cond3_1 i) (x0 : Vec F S1x512x64 .bf16) (x1 : Vec F S1x2048x64 .bf16) (x2 : Vec F S1x2048x64 .bf16) (x3 : Vec F S64x1024 .bf16) (xs0 : Vec F S512x1024 .f32) : Vec F S512x1024 .f32 :=
  VS3.read (Elt F) (VS3.writes (Elt F) VS3.junk (kernelRun3_C c i arg3 harg3 arg4 harg4 arg5 harg5 arg6 harg6 arg7 harg7 arg8 harg8 arg9 harg9 hc0 hc1 x0 x1 x2 x3 xs0).2.2.1)

/-- A placeholder for the output buffer at the points that store nothing into it: nothing reads it. -/
def ph3_4 : Vec F S512x1024 .f32 := VO3_4.read (Elt F) VO3_4.junk

section Region
variable (V : (c : Dev nD) → (b : Ref sig .tc) → Buf (Elt F) ((c : Thread nD τ).loc b))

/-- What the output buffer, the attention-weights buffer and the accumulator hold after the body at position `n`. -/
def outsAt3 (c : Dev nD) : (n : ℕ) → n < cfg3.N → Vec F S512x1024 .f32 × Vec F S1x512x2048 .f32 × Vec F S512x1024 .f32
  | 0, hn => (ph3_4, out3_A_5 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩), sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩))
  | n + 1, hn =>
    if h0 : (n + 1) % 16 = 0 then
      if h1 : (n + 1) % 16 = 15 then
        False.elim (by omega)
      else
        (ph3_4, out3_A_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩), sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩))
    else
      if h1 : (n + 1) % 16 = 15 then
        (out3_C_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2, out3_C_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2, sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2)
      else
        (ph3_4, out3_B_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2)

theorem outsAt3_A (c : Dev nD) (t : Fin cfg3.N) (h0 : t.val % 16 = 0) (h1 : ¬t.val % 16 = 15) :
    outsAt3 V c t.val t.isLt = (ph3_4, out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) ((hcond3_0 t).mpr h0) (fun h => h1 ((hcond3_1 t).mp h)) (iblk3 V c 0 t) (iblk3 V c 1 t) (iblk3 V c 2 t) (iblk3 V c 3 t), sout3_A c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) ((hcond3_0 t).mpr h0) (fun h => h1 ((hcond3_1 t).mp h)) (iblk3 V c 0 t) (iblk3 V c 1 t) (iblk3 V c 2 t) (iblk3 V c 3 t)) := by
  obtain ⟨n, hn⟩ := t
  cases n with
  | zero => exact rfl
  | succ n => exact (dif_pos h0).trans ((dif_neg h1).trans rfl)

theorem outsAt3_B (c : Dev nD) (t : Fin cfg3.N) (h0 : ¬t.val % 16 = 0) (h1 : ¬t.val % 16 = 15) :
    outsAt3 V c t.val t.isLt = (ph3_4, out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.2, sout3_B c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 16 = 0) (h1 : t.val % 16 = 15) :
    outsAt3 V c t.val t.isLt = (out3_C_4 c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.2, out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.2, sout3_C c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2.2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3 fullShare ((outsAt3 V c n hn).2.2) ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3 fullShare ((outsAt3 V c (n - 1) (by omega)).2.2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The scoped rest of call 3 with its own scratch split out (the other calls' buffers stay unopened). -/
theorem scopedRest3_split (c : Dev nD) :
    (Pipeline.scopedRest (Ix := Unit) (Name := ℕ) (U := UR sig nD τ) (Lvl := ℕ) (Val := Elt F) spec3 c : sProp 𝕄)
      = iprop(iprop((∃ f : Buf (Elt F) ((c : Thread nD τ).loc cc3_scratch0), ((c : Thread nD τ).loc cc3_scratch0) ↦{fullShare} f))
          ∗ Pipeline.scopedRestBut (Ix := Unit) (Name := ℕ) (U := UR sig nD τ) (Lvl := ℕ) (Val := Elt F) spec3 c [cc3_scratch0]) :=
  Pipeline.scopedRest_split_of_list spec3 c [cc3_scratch0] (by decide) (by decide)

theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
    | ⟨5, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]
theorem after3_5 (c : Dev nD) (t : Fin cfg3.N) : (dat3 V c).after 5 t = (outsAt3 V c t.val t.isLt).2.1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

end Region

end Cert.Kernel.Hand

end
-- ==== Proof.KR3Obl.lean ====
/-
  Call 3's body obligation, case by case over the head coordinate, and the invariant's two ends.
-/
import proofs.«140923_j35270271435571_2_alg».proof.Proof.Gen.Kernel.Launch
import proofs.«140923_j35270271435571_2_alg».proof.Proof.Gen.Kernel.Skeleton
import proofs.«140923_j35270271435571_2_alg».proof.Proof.Gen.Kernel.Points
import proofs.«140923_j35270271435571_2_alg».proof.Proof.KR3Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 8000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 5 t = owns (c : Thread nD τ) (ms3_5 t) fullShare ((dat3 V c).after 5 t) from by
    unfold Dat.leavesExact; rw [liveAt3_5 t], after3_5]
  by_cases h0 : t.val % 16 = 0
  · have h1 : ¬t.val % 16 = 15 := by omega
    have hC0 : cond3_0 (grid3.coords t) := (hcond3_0 t).mpr h0
    have hC1 : ¬cond3_1 (grid3.coords t) := fun h => h1 ((hcond3_1 t).mp h)
    rw [Dat.leavesExact_idle (dat3 V c) 4 t (idleAt3_4 t hC1) (noFlush3_4 t hC1)]
    rw [outsAt3_A V c t h0 h1]
    unfold out3_A_5 sout3_A; (try dsimp only)
    by_cases hz : t.val = 0
    · rw [PhiS3_castSucc V c t, PhiS3_zero V c _ _ hz, PhiA3_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun3_A c (grid3.coords t) _ _ _ _ _ _ _ _ _ _ _ _ _ _ hC0 hC1 (iblk3 V c 0 t) (iblk3 V c 1 t) (iblk3 V c 2 t) (iblk3 V c 3 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_A c _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      unfold owns; iexists _; isplitr
      swap; · iexact H5
      ipureintro; exact View.read_writes_of_cover _ _ _ _ _ (cover3_A_5 c _ _ _ _ _ _ _ _ _ _ _ _ _ _ _ _ _ _ _ _ _)
    · rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun3_A c (grid3.coords t) _ _ _ _ _ _ _ _ _ _ _ _ _ _ hC0 hC1 (iblk3 V c 0 t) (iblk3 V c 1 t) (iblk3 V c 2 t) (iblk3 V c 3 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_A c _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      unfold owns; iexists _; isplitr
      swap; · iexact H5
      ipureintro; exact View.read_writes_of_cover _ _ _ _ _ (cover3_A_5 c _ _ _ _ _ _ _ _ _ _ _ _ _ _ _ _ _ _ _ _ _)
  · have hz : t.val ≠ 0 := fun h => h0 (by rw [h])
    have hC0 : ¬cond3_0 (grid3.coords t) := fun h => h0 ((hcond3_0 t).mp h)
    by_cases h1 : t.val % 16 = 15
    · have hC1 : cond3_1 (grid3.coords t) := (hcond3_1 t).mpr h1
      rw [show (dat3 V c).leavesExact 4 t = owns (c : Thread nD τ) (ms3_4 t) fullShare ((dat3 V c).after 4 t) from by
        unfold Dat.leavesExact; rw [liveAt3_4 t hC1], after3_4]
      rw [outsAt3_C V c t h0 h1]
      unfold out3_C_4 out3_C_5 sout3_C; (try dsimp only)
      rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun3_C c (grid3.coords t) _ _ _ _ _ _ _ _ _ _ _ _ _ _ hC0 hC1 (iblk3 V c 0 t) (iblk3 V c 1 t) (iblk3 V c 2 t) (iblk3 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_C c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover3_C_4 c _ _ _ _ _ _ _ _ _ _ _ _ _ _ _ _ _ _ _ _ _ _)
      unfold owns; iexists _; isplitr
      swap; · iexact H5
      ipureintro; exact View.read_writes_of_cover _ _ _ _ _ (cover3_C_5 c _ _ _ _ _ _ _ _ _ _ _ _ _ _ _ _ _ _ _ _ _ _)
    · have hC1 : ¬cond3_1 (grid3.coords t) := fun h => h1 ((hcond3_1 t).mp h)
      rw [Dat.leavesExact_idle (dat3 V c) 4 t (idleAt3_4 t hC1) (noFlush3_4 t hC1)]
      rw [outsAt3_B V c t h0 h1]
      unfold out3_B_5 sout3_B; (try dsimp only)
      rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun3_B c (grid3.coords t) _ _ _ _ _ _ _ _ _ _ _ _ _ _ hC0 hC1 (iblk3 V c 0 t) (iblk3 V c 1 t) (iblk3 V c 2 t) (iblk3 V c 3 t) _).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_B c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      unfold owns; iexists _; isplitr
      swap; · iexact H5
      ipureintro; exact View.read_writes_of_cover _ _ _ _ _ (cover3_B_5 c _ _ _ _ _ _ _ _ _ _ _ _ _ _ _ _ _ _ _ _ _ _)

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives the launch's back: the accumulator's named contents are forgotten. -/
theorem Phi_out3 (c : Dev nD) : ∀ (n : ℕ) (h : n ≤ cfg3.N), n ≠ 0 → PhiS3 V c n h ⊢ Pipeline.ΦA spec3 c
  | 0, _, hz => absurd rfl hz
  | n + 1, h, _ => by
    rw [PhiS3_succ, PhiA3_eq]
    iintro ⟨⟨HS0, Hrest⟩, Hg⟩
    isplitl [HS0 Hrest]
    · isplitl [HS0]
      · iexists _; iexact HS0
      iexact Hrest
    iexact Hg

theorem hout3 (c : Dev nD) : (dat3 V c).Φ (Fin.last cfg3.N) ⊢ Pipeline.ΦA spec3 c := by
  have key : ∀ (t : Fin (cfg3.N + 1)), t.val ≠ 0 → (dat3 V c).Φ t ⊢ Pipeline.ΦA spec3 c := fun t ht => by
    rw [show (dat3 V c).Φ t = PhiS3 V c t.val (Nat.le_of_lt_succ t.isLt) from by dsimp only [dat3]]
    exact Phi_out3 V c t.val _ ht
  exact key _ (by rw [Fin.val_last]; have : cfg3.N = 256 := N_3; omega)

end Region

end Cert.Kernel.Hand

end
-- ==== Proof.KMain.lean ====
/-
  The whole program as six segments — the host operations before the calls, the four calls, the two
  reshapes after them — with the unscoped buffers' contents named at every boundary: a host stretch
  applies its operations, a call replaces its arrays by what its write-backs leave. Every weakly
  fair execution ends with every unscoped buffer at the last boundary's contents; read at the
  arguments (which no segment writes) this is the frame claim, and read at the two results it is
  what the value claim starts from.
-/
import proofs.«140923_j35270271435571_2_alg».proof.Proof.Gen.Kernel.Launch
import proofs.«140923_j35270271435571_2_alg».proof.Proof.Gen.Kernel.Skeleton
import proofs.«140923_j35270271435571_2_alg».proof.Proof.Gen.Kernel.Points
import proofs.«140923_j35270271435571_2_alg».proof.Proof.KR0Obl
import proofs.«140923_j35270271435571_2_alg».proof.Proof.KR1Obl
import proofs.«140923_j35270271435571_2_alg».proof.Proof.KR2Obl
import proofs.«140923_j35270271435571_2_alg».proof.Proof.KR3Obl
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- After call 0: its arrays at what its write-backs leave, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After call 1: its arrays at what its write-backs leave, every other buffer as entered. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-- After call 2: its arrays at what its write-backs leave, every other buffer as entered. -/
def W4 (c : Dev nD) : Valuation τ sig (Elt F) :=
  Pipeline.withArrays spec2 c (W3 m ρ c) fun w => (dat2 (U3 m ρ) c).arrAt w cfg2.N
theorem W4_arr (c : Dev nD) (w : Fin cfg2.W) :
    W4 m ρ c (Proc.devRef .tc (Pipeline.arrRef spec2 w)) = (dat2 (U3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev U4 : (c : Dev nD) → (b : Ref sig .tc) → Buf (Elt F) ((c : Thread nD τ).loc b) := fun c b => W4 m ρ c b
theorem hF2 (c : Dev nD) (w : Fin cfg2.W) : (dat2 (U3 m ρ) c).arrAt w cfg2.N = U4 m ρ c (Pipeline.arrRef spec2 w) :=
  (W4_arr m ρ c w).symm
theorem hrest2 (c : Dev nD) : ∀ b, b ∉ Finset.univ.image (Pipeline.arrRef spec2) → U4 m ρ c b = U3 m ρ c b :=
  fun b hb => W4_of_ne m ρ c b fun w e => hb (Finset.mem_image.mpr ⟨w, Finset.mem_univ _, e⟩)

/-- After call 3: its arrays at what its write-backs leave, every other buffer as entered. -/
def W5 (c : Dev nD) : Valuation τ sig (Elt F) :=
  Pipeline.withArrays spec3 c (W4 m ρ c) fun w => (dat3 (U4 m ρ) c).arrAt w cfg3.N
theorem W5_arr (c : Dev nD) (w : Fin cfg3.W) :
    W5 m ρ c (Proc.devRef .tc (Pipeline.arrRef spec3 w)) = (dat3 (U4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
abbrev U5 : (c : Dev nD) → (b : Ref sig .tc) → Buf (Elt F) ((c : Thread nD τ).loc b) := fun c b => W5 m ρ c b
theorem hF3 (c : Dev nD) (w : Fin cfg3.W) : (dat3 (U4 m ρ) c).arrAt w cfg3.N = U5 m ρ c (Pipeline.arrRef spec3 w) :=
  (W5_arr m ρ c w).symm
theorem hrest3 (c : Dev nD) : ∀ b, b ∉ Finset.univ.image (Pipeline.arrRef spec3) → U5 m ρ c b = U4 m ρ c b :=
  fun b hb => W5_of_ne m ρ c b fun w e => hb (Finset.mem_image.mpr ⟨w, Finset.mem_univ _, e⟩)

abbrev W6 : Dev nD → Valuation τ sig (Elt F) := fun c => StableHlo.after hostOps4 (W5 m ρ c)

/-! ## The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_forall_not_mem (b := Proc.devRef .tc main_arg0) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (U1 m ρ) c).arrAt_in 0 rfl _).trans (A_eq0 (U1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_forall_not_mem (b := Proc.devRef .tc main_arg1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := (W3_arr m ρ c 0).trans (((dat1 (U2 m ρ) c).arrAt_in 0 rfl _).trans (A_eq1 (U2 m ρ) c 0))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg2) := W5_of_ne m ρ c main_arg2 (by decide)
    _ = W3 m ρ c (Proc.devRef .tc main_arg2) := (W4_arr m ρ c 0).trans (((dat2 (U3 m ρ) c).arrAt_in 0 rfl _).trans (A_eq2 (U3 m ρ) c 0))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := StableHlo.after_of_forall_not_mem (b := Proc.devRef .tc main_arg3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := StableHlo.after_of_forall_not_mem (b := Proc.devRef .tc main_arg4) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := StableHlo.after_of_forall_not_mem (b := Proc.devRef .tc main_arg5) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := StableHlo.after_of_forall_not_mem (b := Proc.devRef .tc main_arg6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family and the thread state -/

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U2 m ρ) c
  | ⟨2, _⟩ => fun c => dat2 (U3 m ρ) c
  | ⟨3, _⟩ => fun c => dat3 (U4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_noalloc : (hostOps0 : List (HloOp τ sig (Elt F))).Forall fun op => op.fresh = ∅ := by
  simp only [List.Forall]; repeat' constructor
theorem hostOps4_noalloc : (hostOps4 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The calls as segments -/

set_option backward.isDefEq.respectTransparency.types false in
/-- Call 0 over the thread state: its arrays split out of the unscoped buffers and put back at the exit contents; the
    generator register into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h := hout0 (U1 m ρ) c
    unfold Pipeline.ΦA at h
    change (pdats m ρ 0 c).Φ (Fin.last (Pipeline.pin (pcfgs (F := F)) adm 0).N) ⊢ _ at h
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: its arrays split out of the unscoped buffers and put back at the exit contents; the
    generator register into the invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h := hout1 (U2 m ρ) c
    unfold Pipeline.ΦA at h
    change (pdats m ρ 1 c).Φ (Fin.last (Pipeline.pin (pcfgs (F := F)) adm 1).N) ⊢ _ at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: its arrays split out of the unscoped buffers and put back at the exit contents; the
    generator register into the invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (U3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    have h := hout2 (U3 m ρ) c
    unfold Pipeline.ΦA at h
    change (pdats m ρ 2 c).Φ (Fin.last (Pipeline.pin (pcfgs (F := F)) adm 2).N) ⊢ _ at h
    iintro HP
    ihave H := h $$ HP
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U3 m ρ c) (U4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 over the thread state: its arrays split out of the unscoped buffers and put back at the exit contents; the
    generator register into the invariant and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (U4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    have h := hout3 (U4 m ρ) c
    unfold Pipeline.ΦA at h
    change (pdats m ρ 3 c).Φ (Fin.last (Pipeline.pin (pcfgs (F := F)) adm 3).N) ⊢ _ at h
    iintro HP
    ihave H := h $$ HP
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U4 m ρ c) (U5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_noalloc (W0 m ρ)),
    .region (reg0 m ρ), .region (reg1 m ρ), .region (reg2 m ρ), .region (reg3 m ρ),
    .host (hseg hostOps4 hostOps4_sub hostOps4_noalloc (W5 m ρ)) ]
theorem main_run (c : Dev nD) : main (F := F) c = Pipeline.Seg.run (segs m ρ) := (main_chain c).trans (by chain_rfl)

set_option backward.isDefEq.respectTransparency.types false in
/-- Every weakly fair execution terminates, and every final memory holds every unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => show iprop(StableHlo.held (c : Thread nD τ) (Pipeline.ucRefs τ sig) (W6 m ρ c) ∗ R c) ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The frame claim, at any instance of the floats: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c)⟩) (run_all m ρ)

end Cert.Kernel.Hand

end
-- ==== Proof.KiR0Run.lean ====
/-
  The projection kernel of call 0, run on whole staging buffers, in its two control cases:
  at the first head of a batch row (grid coordinate 1 is zero) the body rounds the activation
  block into the scratch buffer and then multiplies it by the head's weight block; at every
  other head it multiplies the scratch as the point before left it.
-/
import proofs.«140923_j35270271435571_2_alg».proof.Proof.Gen.KernelIdeal.Launch
import proofs.«140923_j35270271435571_2_alg».proof.Proof.Gen.KernelIdeal.Skeleton
import proofs.«140923_j35270271435571_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body: the head coordinate is zero. -/
abbrev cond0_0 (i : grid0.Coords) : Prop := (Scalar.cmpi .ne (Scalar.extui (Scalar.cmpi .eq (BitVec.ofNat 32 (i 1).val) 0#32)) 0#32) = 1#1
/-- It holds exactly at the points that are multiples of 16 (the head coordinate is the inner one, of extent 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The scratch operand as a memref, and as a view. -/
abbrev scM0 : Memref sig .tc .vmem S2048x1024 .bf16 := Memref.whole cc0_scratch0
abbrev VS0 : View sig .tc .vmem S2048x1024 .bf16 := (scM0).view
/-- One staging buffer of the output window, through which its contents are stated. -/
abbrev VO0 : View sig .tc .vmem S1x2048x64 .bf16 := (Memref.whole cc0_stg2_0 : Memref sig .tc .vmem S1x2048x64 .bf16).view

set_option maxHeartbeats 4000000 in
/-- First head of a row: the pieces the body's stores leave in the output buffer and in the scratch, with the
    proof that the body runs to a continuation that holds them. -/
noncomputable def kernelRun0_A (c : Dev nD) (i : grid0.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond0_0 i)
    (x0 : Vec F S1x2048x1024 .f32) (x1 : Vec F S64x1024 .bf16) :
    Σ' (L2 : List (View.Piece (Elt F) S1x2048x64 .bf16)), { LS0 : List (View.Piece (Elt F) S2048x1024 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__proj_head_kernel i arg2 harg2 arg3 harg3 arg4 harg4 arg5 harg5) K } := by
  refine ⟨?_, ?_, fun E K => ?run⟩
  case run =>
    simp only [cc0__proj_head_kernel_eq_skeleton]; unfold cc0__proj_head_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 4000000 in
/-- Any other head: the scratch is read at the contents the point before left and handed back untouched;
    the pieces are the output buffer's. -/
noncomputable def kernelRun0_B (c : Dev nD) (i : grid0.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : ¬cond0_0 i)
    (x0 : Vec F S1x2048x1024 .f32) (x1 : Vec F S64x1024 .bf16) (xs0 : Vec F S2048x1024 .bf16) :
    { L2 : List (View.Piece (Elt F) S1x2048x64 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xs0) -∗ K ⟨⟩))
          ⊢ wp frame (wpE (defs₀ (F := F)) Variants.none c none) E (cc0__proj_head_kernel i arg2 harg2 arg3 harg3 arg4 harg4 arg5 harg5) K } := by
  refine ⟨?_, fun E K => ?run⟩
  case run =>
    simp only [cc0__proj_head_kernel_eq_skeleton]; unfold cc0__proj_head_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; isplitr; · ipureintro; exact harg5.read_unread _
    iexact HS0

end Cert.KernelIdeal.Hand

end
-- ==== Proof.KiR0Dat.lean ====
/-
  Call 0's proof data. After the body at a grid point the output buffer holds the point's
  product block and the scratch holds the rounded activation block of the point's batch row:
  both are stated by recursion on the point, a point that is not the first head of its row
  reading the scratch as the point before left it.
-/
import proofs.«140923_j35270271435571_2_alg».proof.Proof.Gen.KernelIdeal.Launch
import proofs.«140923_j35270271435571_2_alg».proof.Proof.Gen.KernelIdeal.Skeleton
import proofs.«140923_j35270271435571_2_alg».proof.Proof.Gen.KernelIdeal.Points
import proofs.«140923_j35270271435571_2_alg».proof.Proof.KiR0Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at a point, as the pipeline passes it, and its wholeness. -/
abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x64 .bf16 := win0_2.stage (cfg0.slots t 2)
abbrev hs0_2 (t : Fin cfg0.N) : (ms0_2 t).IsWhole := hstage0_2 ((cfg0.slots t 2).cast nbuf0_2)

end Region

/-! ## The pieces cover the buffers -/

theorem cover0_A (c : Dev nD) (i : grid0.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond0_0 i)
    (x0 : Vec F S1x2048x1024 .f32) (x1 : Vec F S64x1024 .bf16) (y : S1x2048x64.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x2048x64.size (by sl_kernel_rfl) y

theorem scover0_A (c : Dev nD) (i : grid0.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond0_0 i)
    (x0 : Vec F S1x2048x1024 .f32) (x1 : Vec F S64x1024 .bf16) (y : S2048x1024.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S2048x1024.size (by sl_kernel_rfl) y

theorem cover0_B (c : Dev nD) (i : grid0.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : ¬cond0_0 i)
    (x0 : Vec F S1x2048x1024 .f32) (x1 : Vec F S64x1024 .bf16) (xs0 : Vec F S2048x1024 .bf16) (y : S1x2048x64.Idx) :
    ∃ pc ∈ (kernelRun0_B c i arg2 harg2 arg3 harg3 arg4 harg4 arg5 harg5 hc0 x0 x1 xs0).1, y ∈ pc.1.set :=
  View.cover_of_tiledL (kernelRun0_B c i arg2 harg2 arg3 harg3 arg4 harg4 arg5 harg5 hc0 x0 x1 xs0).1 S1x2048x64.size (by sl_kernel_rfl) y

/-- What the first-head case leaves in the output buffer and in the scratch; what any other head leaves in the
    output buffer: the pieces read back. -/
def out0_A (c : Dev nD) (i : grid0.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond0_0 i)
    (x0 : Vec F S1x2048x1024 .f32) (x1 : Vec F S64x1024 .bf16) : Vec F S1x2048x64 .bf16 :=
  VO0.read (Elt F) (VO0.writes (Elt F) VO0.junk (kernelRun0_A c i arg2 harg2 arg3 harg3 arg4 harg4 arg5 harg5 hc0 x0 x1).1)
def sout0_A (c : Dev nD) (i : grid0.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond0_0 i)
    (x0 : Vec F S1x2048x1024 .f32) (x1 : Vec F S64x1024 .bf16) : Vec F S2048x1024 .bf16 :=
  VS0.read (Elt F) (VS0.writes (Elt F) VS0.junk (kernelRun0_A c i arg2 harg2 arg3 harg3 arg4 harg4 arg5 harg5 hc0 x0 x1).2.1)
def out0_B (c : Dev nD) (i : grid0.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : ¬cond0_0 i)
    (x0 : Vec F S1x2048x1024 .f32) (x1 : Vec F S64x1024 .bf16) (xs0 : Vec F S2048x1024 .bf16) : Vec F S1x2048x64 .bf16 :=
  VO0.read (Elt F) (VO0.writes (Elt F) VO0.junk (kernelRun0_B c i arg2 harg2 arg3 harg3 arg4 harg4 arg5 harg5 hc0 x0 x1 xs0).1)

section Region
variable (V : (c : Dev nD) → (b : Ref sig .tc) → Buf (Elt F) ((c : Thread nD τ).loc b))

/-- What the output buffer and the scratch hold after the body at position `n`. -/
def outsAt0 (c : Dev nD) : (n : ℕ) → n < cfg0.N → Vec F S1x2048x64 .bf16 × Vec F S2048x1024 .bf16
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (iblk0 V c 0 ⟨0, hn⟩) (iblk0 V c 1 ⟨0, hn⟩),
      sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (iblk0 V c 0 ⟨0, hn⟩) (iblk0 V c 1 ⟨0, hn⟩))
  | n + 1, hn =>
    if h0 : (n + 1) % 16 = 0 then
      (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (iblk0 V c 0 ⟨n + 1, hn⟩) (iblk0 V c 1 ⟨n + 1, hn⟩),
        sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (iblk0 V c 0 ⟨n + 1, hn⟩) (iblk0 V c 1 ⟨n + 1, hn⟩))
    else
      (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (iblk0 V c 0 ⟨n + 1, hn⟩) (iblk0 V c 1 ⟨n + 1, hn⟩) (outsAt0 c n (Nat.lt_of_succ_lt hn)).2,
        (outsAt0 c n (Nat.lt_of_succ_lt hn)).2)

theorem outsAt0_A (c : Dev nD) (t : Fin cfg0.N) (h0 : t.val % 16 = 0) :
    outsAt0 V c t.val t.isLt = (out0_A c (grid0.coords t) (ms0_0 t) (hs0_0 t) (ms0_1 t) (hs0_1 t) (ms0_2 t) (hs0_2 t) scM0 (Memref.isWhole_whole _) ((hcond0_0 t).mpr h0) (iblk0 V c 0 t) (iblk0 V c 1 t),
      sout0_A c (grid0.coords t) (ms0_0 t) (hs0_0 t) (ms0_1 t) (hs0_1 t) (ms0_2 t) (hs0_2 t) scM0 (Memref.isWhole_whole _) ((hcond0_0 t).mpr h0) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 16 = 0) :
    outsAt0 V c t.val t.isLt = (out0_B c (grid0.coords t) (ms0_0 t) (hs0_0 t) (ms0_1 t) (hs0_1 t) (ms0_2 t) (hs0_2 t) scM0 (Memref.isWhole_whole _) (fun h => h0 ((hcond0_0 t).mp h)) (iblk0 V c 0 t) (iblk0 V c 1 t) (outsAt0 V c (t.val - 1) (Nat.lt_of_le_of_lt (Nat.sub_le _ _) t.isLt)).2,
      (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant: before the first point the scoped buffers at anything; afterwards the scratch at what the point
    before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The launch's invariant with the scratch split out of the scoped rest. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- The proof data of the pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Region

end Cert.KernelIdeal.Hand

end
-- ==== Proof.KiR0Obl.lean ====
/-
  Call 0's body obligation: at every grid point the body, entered with the invariant, the input
  buffers at their blocks and the output buffer at anything, returns the invariant of the next
  point and the buffers at what the proof data name. Also: what the launch hands the region is the
  invariant before the first point, and the invariant after the last point gives it back.
-/
import proofs.«140923_j35270271435571_2_alg».proof.Proof.Gen.KernelIdeal.Launch
import proofs.«140923_j35270271435571_2_alg».proof.Proof.Gen.KernelIdeal.Skeleton
import proofs.«140923_j35270271435571_2_alg».proof.Proof.Gen.KernelIdeal.Points
import proofs.«140923_j35270271435571_2_alg».proof.Proof.KiR0Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2]
  by_cases h0 : t.val % 16 = 0
  · rw [outsAt0_A V c t h0]
    unfold out0_A sout0_A; (try dsimp only)
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (iblk0 V c 0 t) (iblk0 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A c _ _ _ _ _ _ _ _ _ _ _ _)
    · rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (iblk0 V c 0 t) (iblk0 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A c _ _ _ _ _ _ _ _ _ _ _ _)
  · rw [outsAt0_B V c t h0]
    unfold out0_B; (try dsimp only)
    have hz : t.val ≠ 0 := fun h => h0 (by rw [h])
    rw [PhiS0_castSucc V c t, PhiS0_pos V c _ _ hz]
    iintro ⟨⟨⟨HS0, Hrest⟩, Hg⟩, Ho, ⟨%d0, H0⟩, ⟨%d1, H1⟩, ⟨%d2, H2⟩⟩
    iapply ((kernelRun0_B c (grid0.coords t) _ _ _ _ _ _ _ _ (fun h => h0 ((hcond0_0 t).mp h)) (iblk0 V c 0 t) (iblk0 V c 1 t) _).2 Set.univ _)
    isplitl [H0]; · iexact H0
    isplitl [H1]; · iexact H1
    isplitl [H2]; · iexists _; iexact H2
    isplitl [HS0]; · iexact HS0
    iintro ⟨H0, H1, ⟨%e2, H2⟩, HS0⟩
    isplitl [HS0 Hrest Hg]
    · isplitl [HS0 Hrest]
      · isplitl [HS0]; · iexact HS0
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back: the scratch's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

end Region

end Cert.KernelIdeal.Hand

end
-- ==== Proof.KiR1Run.lean ====
/-
  The projection kernel of call 1, run on whole staging buffers, in its two control cases:
  at the first head of a batch row (grid coordinate 1 is zero) the body rounds the activation
  block into the scratch buffer and then multiplies it by the head's weight block; at every
  other head it multiplies the scratch as the point before left it.
-/
import proofs.«140923_j35270271435571_2_alg».proof.Proof.Gen.KernelIdeal.Launch
import proofs.«140923_j35270271435571_2_alg».proof.Proof.Gen.KernelIdeal.Skeleton
import proofs.«140923_j35270271435571_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body: the head coordinate is zero. -/
abbrev cond1_0 (i : grid1.Coords) : Prop := (Scalar.cmpi .ne (Scalar.extui (Scalar.cmpi .eq (BitVec.ofNat 32 (i 1).val) 0#32)) 0#32) = 1#1
/-- It holds exactly at the points that are multiples of 16 (the head coordinate is the inner one, of extent 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- The scratch operand as a memref, and as a view. -/
abbrev scM1 : Memref sig .tc .vmem S2048x1024 .bf16 := Memref.whole cc1_scratch0
abbrev VS1 : View sig .tc .vmem S2048x1024 .bf16 := (scM1).view
/-- One staging buffer of the output window, through which its contents are stated. -/
abbrev VO1 : View sig .tc .vmem S1x2048x64 .bf16 := (Memref.whole cc1_stg2_0 : Memref sig .tc .vmem S1x2048x64 .bf16).view

set_option maxHeartbeats 4000000 in
/-- First head of a row: the pieces the body's stores leave in the output buffer and in the scratch, with the
    proof that the body runs to a continuation that holds them. -/
noncomputable def kernelRun1_A (c : Dev nD) (i : grid1.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond1_0 i)
    (x0 : Vec F S1x2048x1024 .f32) (x1 : Vec F S64x1024 .bf16) :
    Σ' (L2 : List (View.Piece (Elt F) S1x2048x64 .bf16)), { LS0 : List (View.Piece (Elt F) S2048x1024 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__proj_head_kernel i arg2 harg2 arg3 harg3 arg4 harg4 arg5 harg5) K } := by
  refine ⟨?_, ?_, fun E K => ?run⟩
  case run =>
    simp only [cc1__proj_head_kernel_eq_skeleton]; unfold cc1__proj_head_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 4000000 in
/-- Any other head: the scratch is read at the contents the point before left and handed back untouched;
    the pieces are the output buffer's. -/
noncomputable def kernelRun1_B (c : Dev nD) (i : grid1.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : ¬cond1_0 i)
    (x0 : Vec F S1x2048x1024 .f32) (x1 : Vec F S64x1024 .bf16) (xs0 : Vec F S2048x1024 .bf16) :
    { L2 : List (View.Piece (Elt F) S1x2048x64 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xs0) -∗ K ⟨⟩))
          ⊢ wp frame (wpE (defs₀ (F := F)) Variants.none c none) E (cc1__proj_head_kernel i arg2 harg2 arg3 harg3 arg4 harg4 arg5 harg5) K } := by
  refine ⟨?_, fun E K => ?run⟩
  case run =>
    simp only [cc1__proj_head_kernel_eq_skeleton]; unfold cc1__proj_head_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; isplitr; · ipureintro; exact harg5.read_unread _
    iexact HS0

end Cert.KernelIdeal.Hand

end
-- ==== Proof.KiR1Dat.lean ====
/-
  Call 1's proof data. After the body at a grid point the output buffer holds the point's
  product block and the scratch holds the rounded activation block of the point's batch row:
  both are stated by recursion on the point, a point that is not the first head of its row
  reading the scratch as the point before left it.
-/
import proofs.«140923_j35270271435571_2_alg».proof.Proof.Gen.KernelIdeal.Launch
import proofs.«140923_j35270271435571_2_alg».proof.Proof.Gen.KernelIdeal.Skeleton
import proofs.«140923_j35270271435571_2_alg».proof.Proof.Gen.KernelIdeal.Points
import proofs.«140923_j35270271435571_2_alg».proof.Proof.KiR1Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at a point, as the pipeline passes it, and its wholeness. -/
abbrev ms1_0 (t : Fin cfg1.N) : Memref sig .tc .vmem S1x2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x64 .bf16 := win1_2.stage (cfg1.slots t 2)
abbrev hs1_2 (t : Fin cfg1.N) : (ms1_2 t).IsWhole := hstage1_2 ((cfg1.slots t 2).cast nbuf1_2)

end Region

/-! ## The pieces cover the buffers -/

theorem cover1_A (c : Dev nD) (i : grid1.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond1_0 i)
    (x0 : Vec F S1x2048x1024 .f32) (x1 : Vec F S64x1024 .bf16) (y : S1x2048x64.Idx) :
    ∃ pc ∈ (kernelRun1_A c i arg2 harg2 arg3 harg3 arg4 harg4 arg5 harg5 hc0 x0 x1).1, y ∈ pc.1.set :=
  View.cover_of_tiledL (kernelRun1_A c i arg2 harg2 arg3 harg3 arg4 harg4 arg5 harg5 hc0 x0 x1).1 S1x2048x64.size (by sl_kernel_rfl) y

theorem scover1_A (c : Dev nD) (i : grid1.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond1_0 i)
    (x0 : Vec F S1x2048x1024 .f32) (x1 : Vec F S64x1024 .bf16) (y : S2048x1024.Idx) :
    ∃ pc ∈ (kernelRun1_A c i arg2 harg2 arg3 harg3 arg4 harg4 arg5 harg5 hc0 x0 x1).2.1, y ∈ pc.1.set :=
  View.cover_of_tiledL (kernelRun1_A c i arg2 harg2 arg3 harg3 arg4 harg4 arg5 harg5 hc0 x0 x1).2.1 S2048x1024.size (by sl_kernel_rfl) y

theorem cover1_B (c : Dev nD) (i : grid1.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : ¬cond1_0 i)
    (x0 : Vec F S1x2048x1024 .f32) (x1 : Vec F S64x1024 .bf16) (xs0 : Vec F S2048x1024 .bf16) (y : S1x2048x64.Idx) :
    ∃ pc ∈ (kernelRun1_B c i arg2 harg2 arg3 harg3 arg4 harg4 arg5 harg5 hc0 x0 x1 xs0).1, y ∈ pc.1.set :=
  View.cover_of_tiledL (kernelRun1_B c i arg2 harg2 arg3 harg3 arg4 harg4 arg5 harg5 hc0 x0 x1 xs0).1 S1x2048x64.size (by sl_kernel_rfl) y

/-- What the first-head case leaves in the output buffer and in the scratch; what any other head leaves in the
    output buffer: the pieces read back. -/
def out1_A (c : Dev nD) (i : grid1.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond1_0 i)
    (x0 : Vec F S1x2048x1024 .f32) (x1 : Vec F S64x1024 .bf16) : Vec F S1x2048x64 .bf16 :=
  VO1.read (Elt F) (VO1.writes (Elt F) VO1.junk (kernelRun1_A c i arg2 harg2 arg3 harg3 arg4 harg4 arg5 harg5 hc0 x0 x1).1)
def sout1_A (c : Dev nD) (i : grid1.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond1_0 i)
    (x0 : Vec F S1x2048x1024 .f32) (x1 : Vec F S64x1024 .bf16) : Vec F S2048x1024 .bf16 :=
  VS1.read (Elt F) (VS1.writes (Elt F) VS1.junk (kernelRun1_A c i arg2 harg2 arg3 harg3 arg4 harg4 arg5 harg5 hc0 x0 x1).2.1)
def out1_B (c : Dev nD) (i : grid1.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : ¬cond1_0 i)
    (x0 : Vec F S1x2048x1024 .f32) (x1 : Vec F S64x1024 .bf16) (xs0 : Vec F S2048x1024 .bf16) : Vec F S1x2048x64 .bf16 :=
  VO1.read (Elt F) (VO1.writes (Elt F) VO1.junk (kernelRun1_B c i arg2 harg2 arg3 harg3 arg4 harg4 arg5 harg5 hc0 x0 x1 xs0).1)

section Region
variable (V : (c : Dev nD) → (b : Ref sig .tc) → Buf (Elt F) ((c : Thread nD τ).loc b))

/-- What the output buffer and the scratch hold after the body at position `n`. -/
def outsAt1 (c : Dev nD) : (n : ℕ) → n < cfg1.N → Vec F S1x2048x64 .bf16 × Vec F S2048x1024 .bf16
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (iblk1 V c 0 ⟨0, hn⟩) (iblk1 V c 1 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (iblk1 V c 0 ⟨0, hn⟩) (iblk1 V c 1 ⟨0, hn⟩))
  | n + 1, hn =>
    if h0 : (n + 1) % 16 = 0 then
      (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (iblk1 V c 0 ⟨n + 1, hn⟩) (iblk1 V c 1 ⟨n + 1, hn⟩),
        sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (iblk1 V c 0 ⟨n + 1, hn⟩) (iblk1 V c 1 ⟨n + 1, hn⟩))
    else
      (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (iblk1 V c 0 ⟨n + 1, hn⟩) (iblk1 V c 1 ⟨n + 1, hn⟩) (outsAt1 c n (Nat.lt_of_succ_lt hn)).2,
        (outsAt1 c n (Nat.lt_of_succ_lt hn)).2)

theorem outsAt1_A (c : Dev nD) (t : Fin cfg1.N) (h0 : t.val % 16 = 0) :
    outsAt1 V c t.val t.isLt = (out1_A c (grid1.coords t) (ms1_0 t) (hs1_0 t) (ms1_1 t) (hs1_1 t) (ms1_2 t) (hs1_2 t) scM1 (Memref.isWhole_whole _) ((hcond1_0 t).mpr h0) (iblk1 V c 0 t) (iblk1 V c 1 t),
      sout1_A c (grid1.coords t) (ms1_0 t) (hs1_0 t) (ms1_1 t) (hs1_1 t) (ms1_2 t) (hs1_2 t) scM1 (Memref.isWhole_whole _) ((hcond1_0 t).mpr h0) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 16 = 0) :
    outsAt1 V c t.val t.isLt = (out1_B c (grid1.coords t) (ms1_0 t) (hs1_0 t) (ms1_1 t) (hs1_1 t) (ms1_2 t) (hs1_2 t) scM1 (Memref.isWhole_whole _) (fun h => h0 ((hcond1_0 t).mp h)) (iblk1 V c 0 t) (iblk1 V c 1 t) (outsAt1 V c (t.val - 1) (Nat.lt_of_le_of_lt (Nat.sub_le _ _) t.isLt)).2,
      (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant: before the first point the scoped buffers at anything; afterwards the scratch at what the point
    before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The launch's invariant with the scratch split out of the scoped rest. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-- The proof data of the pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Region

end Cert.KernelIdeal.Hand

end
-- ==== Proof.KiR1Obl.lean ====
/-
  Call 1's body obligation: at every grid point the body, entered with the invariant, the input
  buffers at their blocks and the output buffer at anything, returns the invariant of the next
  point and the buffers at what the proof data name. Also: what the launch hands the region is the
  invariant before the first point, and the invariant after the last point gives it back.
-/
import proofs.«140923_j35270271435571_2_alg».proof.Proof.Gen.KernelIdeal.Launch
import proofs.«140923_j35270271435571_2_alg».proof.Proof.Gen.KernelIdeal.Skeleton
import proofs.«140923_j35270271435571_2_alg».proof.Proof.Gen.KernelIdeal.Points
import proofs.«140923_j35270271435571_2_alg».proof.Proof.KiR1Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2]
  by_cases h0 : t.val % 16 = 0
  · rw [outsAt1_A V c t h0]
    unfold out1_A sout1_A; (try dsimp only)
    by_cases hz : t.val = 0
    · rw [PhiS1_castSucc V c t, PhiS1_zero V c _ _ hz, PhiA1_eq]
      iintro ⟨⟨⟨HS0, Hrest⟩, Hg⟩, Ho, ⟨%d0, H0⟩, ⟨%d1, H1⟩, ⟨%d2, H2⟩⟩
      iapply ((kernelRun1_A c (grid1.coords t) _ _ _ _ _ _ _ _ ((hcond1_0 t).mpr h0) (iblk1 V c 0 t) (iblk1 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A c _ _ _ _ _ _ _ _ _ _ _ _)
    · rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_A c (grid1.coords t) _ _ _ _ _ _ _ _ ((hcond1_0 t).mpr h0) (iblk1 V c 0 t) (iblk1 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A c _ _ _ _ _ _ _ _ _ _ _ _)
  · rw [outsAt1_B V c t h0]
    unfold out1_B; (try dsimp only)
    have hz : t.val ≠ 0 := fun h => h0 (by rw [h])
    rw [PhiS1_castSucc V c t, PhiS1_pos V c _ _ hz]
    iintro ⟨⟨⟨HS0, Hrest⟩, Hg⟩, Ho, ⟨%d0, H0⟩, ⟨%d1, H1⟩, ⟨%d2, H2⟩⟩
    iapply ((kernelRun1_B c (grid1.coords t) _ _ _ _ _ _ _ _ (fun h => h0 ((hcond1_0 t).mp h)) (iblk1 V c 0 t) (iblk1 V c 1 t) _).2 Set.univ _)
    isplitl [H0]; · iexact H0
    isplitl [H1]; · iexact H1
    isplitl [H2]; · iexists _; iexact H2
    isplitl [HS0]; · iexact HS0
    iintro ⟨H0, H1, ⟨%e2, H2⟩, HS0⟩
    isplitl [HS0 Hrest Hg]
    · isplitl [HS0 Hrest]
      · isplitl [HS0]; · iexact HS0
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B c _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the scratch's named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

end Region

end Cert.KernelIdeal.Hand

end
-- ==== Proof.KiR2Run.lean ====
/-
  The projection kernel of call 2, run on whole staging buffers, in its two control cases:
  at the first head of a batch row (grid coordinate 1 is zero) the body rounds the activation
  block into the scratch buffer and then multiplies it by the head's weight block; at every
  other head it multiplies the scratch as the point before left it.
-/
import proofs.«140923_j35270271435571_2_alg».proof.Proof.Gen.KernelIdeal.Launch
import proofs.«140923_j35270271435571_2_alg».proof.Proof.Gen.KernelIdeal.Skeleton
import proofs.«140923_j35270271435571_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body: the head coordinate is zero. -/
abbrev cond2_0 (i : grid2.Coords) : Prop := (Scalar.cmpi .ne (Scalar.extui (Scalar.cmpi .eq (BitVec.ofNat 32 (i 1).val) 0#32)) 0#32) = 1#1
/-- It holds exactly at the points that are multiples of 16 (the head coordinate is the inner one, of extent 16). -/
theorem hcond2_0 : ∀ t : Fin cfg2.N, cond2_0 (grid2.coords t) ↔ t.val % 16 = 0 :=
  (by decide +kernel : ∀ t : Fin grid2.N, cond2_0 (grid2.coords t) ↔ t.val % 16 = 0)

/-- The scratch operand as a memref, and as a view. -/
abbrev scM2 : Memref sig .tc .vmem S2048x1024 .bf16 := Memref.whole cc2_scratch0
abbrev VS2 : View sig .tc .vmem S2048x1024 .bf16 := (scM2).view
/-- One staging buffer of the output window, through which its contents are stated. -/
abbrev VO2 : View sig .tc .vmem S1x2048x64 .bf16 := (Memref.whole cc2_stg2_0 : Memref sig .tc .vmem S1x2048x64 .bf16).view

set_option maxHeartbeats 4000000 in
/-- First head of a row: the pieces the body's stores leave in the output buffer and in the scratch, with the
    proof that the body runs to a continuation that holds them. -/
noncomputable def kernelRun2_A (c : Dev nD) (i : grid2.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond2_0 i)
    (x0 : Vec F S1x2048x1024 .f32) (x1 : Vec F S64x1024 .bf16) :
    Σ' (L2 : List (View.Piece (Elt F) S1x2048x64 .bf16)), { LS0 : List (View.Piece (Elt F) S2048x1024 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__proj_head_kernel i arg2 harg2 arg3 harg3 arg4 harg4 arg5 harg5) K } := by
  refine ⟨?_, ?_, fun E K => ?run⟩
  case run =>
    simp only [cc2__proj_head_kernel_eq_skeleton]; unfold cc2__proj_head_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 4000000 in
/-- Any other head: the scratch is read at the contents the point before left and handed back untouched;
    the pieces are the output buffer's. -/
noncomputable def kernelRun2_B (c : Dev nD) (i : grid2.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : ¬cond2_0 i)
    (x0 : Vec F S1x2048x1024 .f32) (x1 : Vec F S64x1024 .bf16) (xs0 : Vec F S2048x1024 .bf16) :
    { L2 : List (View.Piece (Elt F) S1x2048x64 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xs0) -∗ K ⟨⟩))
          ⊢ wp frame (wpE (defs₀ (F := F)) Variants.none c none) E (cc2__proj_head_kernel i arg2 harg2 arg3 harg3 arg4 harg4 arg5 harg5) K } := by
  refine ⟨?_, fun E K => ?run⟩
  case run =>
    simp only [cc2__proj_head_kernel_eq_skeleton]; unfold cc2__proj_head_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; isplitr; · ipureintro; exact harg5.read_unread _
    iexact HS0

end Cert.KernelIdeal.Hand

end
-- ==== Proof.KiR2Dat.lean ====
/-
  Call 2's proof data. After the body at a grid point the output buffer holds the point's
  product block and the scratch holds the rounded activation block of the point's batch row:
  both are stated by recursion on the point, a point that is not the first head of its row
  reading the scratch as the point before left it.
-/
import proofs.«140923_j35270271435571_2_alg».proof.Proof.Gen.KernelIdeal.Launch
import proofs.«140923_j35270271435571_2_alg».proof.Proof.Gen.KernelIdeal.Skeleton
import proofs.«140923_j35270271435571_2_alg».proof.Proof.Gen.KernelIdeal.Points
import proofs.«140923_j35270271435571_2_alg».proof.Proof.KiR2Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Each window's current staging memref at a point, as the pipeline passes it, and its wholeness. -/
abbrev ms2_0 (t : Fin cfg2.N) : Memref sig .tc .vmem S1x2048x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048x64 .bf16 := win2_2.stage (cfg2.slots t 2)
abbrev hs2_2 (t : Fin cfg2.N) : (ms2_2 t).IsWhole := hstage2_2 ((cfg2.slots t 2).cast nbuf2_2)

end Region

/-! ## The pieces cover the buffers -/

theorem cover2_A (c : Dev nD) (i : grid2.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond2_0 i)
    (x0 : Vec F S1x2048x1024 .f32) (x1 : Vec F S64x1024 .bf16) (y : S1x2048x64.Idx) :
    ∃ pc ∈ (kernelRun2_A c i arg2 harg2 arg3 harg3 arg4 harg4 arg5 harg5 hc0 x0 x1).1, y ∈ pc.1.set :=
  View.cover_of_tiledL (kernelRun2_A c i arg2 harg2 arg3 harg3 arg4 harg4 arg5 harg5 hc0 x0 x1).1 S1x2048x64.size (by sl_kernel_rfl) y

theorem scover2_A (c : Dev nD) (i : grid2.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond2_0 i)
    (x0 : Vec F S1x2048x1024 .f32) (x1 : Vec F S64x1024 .bf16) (y : S2048x1024.Idx) :
    ∃ pc ∈ (kernelRun2_A c i arg2 harg2 arg3 harg3 arg4 harg4 arg5 harg5 hc0 x0 x1).2.1, y ∈ pc.1.set :=
  View.cover_of_tiledL (kernelRun2_A c i arg2 harg2 arg3 harg3 arg4 harg4 arg5 harg5 hc0 x0 x1).2.1 S2048x1024.size (by sl_kernel_rfl) y

theorem cover2_B (c : Dev nD) (i : grid2.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : ¬cond2_0 i)
    (x0 : Vec F S1x2048x1024 .f32) (x1 : Vec F S64x1024 .bf16) (xs0 : Vec F S2048x1024 .bf16) (y : S1x2048x64.Idx) :
    ∃ pc ∈ (kernelRun2_B c i arg2 harg2 arg3 harg3 arg4 harg4 arg5 harg5 hc0 x0 x1 xs0).1, y ∈ pc.1.set :=
  View.cover_of_tiledL (kernelRun2_B c i arg2 harg2 arg3 harg3 arg4 harg4 arg5 harg5 hc0 x0 x1 xs0).1 S1x2048x64.size (by sl_kernel_rfl) y

/-- What the first-head case leaves in the output buffer and in the scratch; what any other head leaves in the
    output buffer: the pieces read back. -/
def out2_A (c : Dev nD) (i : grid2.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond2_0 i)
    (x0 : Vec F S1x2048x1024 .f32) (x1 : Vec F S64x1024 .bf16) : Vec F S1x2048x64 .bf16 :=
  VO2.read (Elt F) (VO2.writes (Elt F) VO2.junk (kernelRun2_A c i arg2 harg2 arg3 harg3 arg4 harg4 arg5 harg5 hc0 x0 x1).1)
def sout2_A (c : Dev nD) (i : grid2.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond2_0 i)
    (x0 : Vec F S1x2048x1024 .f32) (x1 : Vec F S64x1024 .bf16) : Vec F S2048x1024 .bf16 :=
  VS2.read (Elt F) (VS2.writes (Elt F) VS2.junk (kernelRun2_A c i arg2 harg2 arg3 harg3 arg4 harg4 arg5 harg5 hc0 x0 x1).2.1)
def out2_B (c : Dev nD) (i : grid2.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : ¬cond2_0 i)
    (x0 : Vec F S1x2048x1024 .f32) (x1 : Vec F S64x1024 .bf16) (xs0 : Vec F S2048x1024 .bf16) : Vec F S1x2048x64 .bf16 :=
  VO2.read (Elt F) (VO2.writes (Elt F) VO2.junk (kernelRun2_B c i arg2 harg2 arg3 harg3 arg4 harg4 arg5 harg5 hc0 x0 x1 xs0).1)

section Region
variable (V : (c : Dev nD) → (b : Ref sig .tc) → Buf (Elt F) ((c : Thread nD τ).loc b))

/-- What the output buffer and the scratch hold after the body at position `n`. -/
def outsAt2 (c : Dev nD) : (n : ℕ) → n < cfg2.N → Vec F S1x2048x64 .bf16 × Vec F S2048x1024 .bf16
  | 0, hn => (out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr (Nat.zero_mod _)) (iblk2 V c 0 ⟨0, hn⟩) (iblk2 V c 1 ⟨0, hn⟩),
      sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr (Nat.zero_mod _)) (iblk2 V c 0 ⟨0, hn⟩) (iblk2 V c 1 ⟨0, hn⟩))
  | n + 1, hn =>
    if h0 : (n + 1) % 16 = 0 then
      (out2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) ((hcond2_0 ⟨n + 1, hn⟩).mpr h0) (iblk2 V c 0 ⟨n + 1, hn⟩) (iblk2 V c 1 ⟨n + 1, hn⟩),
        sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) ((hcond2_0 ⟨n + 1, hn⟩).mpr h0) (iblk2 V c 0 ⟨n + 1, hn⟩) (iblk2 V c 1 ⟨n + 1, hn⟩))
    else
      (out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) (iblk2 V c 0 ⟨n + 1, hn⟩) (iblk2 V c 1 ⟨n + 1, hn⟩) (outsAt2 c n (Nat.lt_of_succ_lt hn)).2,
        (outsAt2 c n (Nat.lt_of_succ_lt hn)).2)

theorem outsAt2_A (c : Dev nD) (t : Fin cfg2.N) (h0 : t.val % 16 = 0) :
    outsAt2 V c t.val t.isLt = (out2_A c (grid2.coords t) (ms2_0 t) (hs2_0 t) (ms2_1 t) (hs2_1 t) (ms2_2 t) (hs2_2 t) scM2 (Memref.isWhole_whole _) ((hcond2_0 t).mpr h0) (iblk2 V c 0 t) (iblk2 V c 1 t),
      sout2_A c (grid2.coords t) (ms2_0 t) (hs2_0 t) (ms2_1 t) (hs2_1 t) (ms2_2 t) (hs2_2 t) scM2 (Memref.isWhole_whole _) ((hcond2_0 t).mpr h0) (iblk2 V c 0 t) (iblk2 V c 1 t)) := by
  obtain ⟨n, hn⟩ := t
  cases n with
  | zero => exact rfl
  | succ n => exact (dif_pos h0).trans rfl

theorem outsAt2_B (c : Dev nD) (t : Fin cfg2.N) (h0 : ¬t.val % 16 = 0) :
    outsAt2 V c t.val t.isLt = (out2_B c (grid2.coords t) (ms2_0 t) (hs2_0 t) (ms2_1 t) (hs2_1 t) (ms2_2 t) (hs2_2 t) scM2 (Memref.isWhole_whole _) (fun h => h0 ((hcond2_0 t).mp h)) (iblk2 V c 0 t) (iblk2 V c 1 t) (outsAt2 V c (t.val - 1) (Nat.lt_of_le_of_lt (Nat.sub_le _ _) t.isLt)).2,
      (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant: before the first point the scoped buffers at anything; afterwards the scratch at what the point
    before left, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The launch's invariant with the scratch split out of the scoped rest. -/
theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- The proof data of the pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

end Region

end Cert.KernelIdeal.Hand

end
-- ==== Proof.KiR2Obl.lean ====
/-
  Call 2's body obligation: at every grid point the body, entered with the invariant, the input
  buffers at their blocks and the output buffer at anything, returns the invariant of the next
  point and the buffers at what the proof data name. Also: what the launch hands the region is the
  invariant before the first point, and the invariant after the last point gives it back.
-/
import proofs.«140923_j35270271435571_2_alg».proof.Proof.Gen.KernelIdeal.Launch
import proofs.«140923_j35270271435571_2_alg».proof.Proof.Gen.KernelIdeal.Skeleton
import proofs.«140923_j35270271435571_2_alg».proof.Proof.Gen.KernelIdeal.Points
import proofs.«140923_j35270271435571_2_alg».proof.Proof.KiR2Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2]
  by_cases h0 : t.val % 16 = 0
  · rw [outsAt2_A V c t h0]
    unfold out2_A sout2_A; (try dsimp only)
    by_cases hz : t.val = 0
    · rw [PhiS2_castSucc V c t, PhiS2_zero V c _ _ hz, PhiA2_eq]
      iintro ⟨⟨⟨HS0, Hrest⟩, Hg⟩, Ho, ⟨%d0, H0⟩, ⟨%d1, H1⟩, ⟨%d2, H2⟩⟩
      iapply ((kernelRun2_A c (grid2.coords t) _ _ _ _ _ _ _ _ ((hcond2_0 t).mpr h0) (iblk2 V c 0 t) (iblk2 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_A c _ _ _ _ _ _ _ _ _ _ _ _)
    · rw [PhiS2_castSucc V c t, PhiS2_pos V c _ _ hz]
      iintro ⟨⟨⟨HS0, Hrest⟩, Hg⟩, Ho, ⟨%d0, H0⟩, ⟨%d1, H1⟩, ⟨%d2, H2⟩⟩
      iapply ((kernelRun2_A c (grid2.coords t) _ _ _ _ _ _ _ _ ((hcond2_0 t).mpr h0) (iblk2 V c 0 t) (iblk2 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_A c _ _ _ _ _ _ _ _ _ _ _ _)
  · rw [outsAt2_B V c t h0]
    unfold out2_B; (try dsimp only)
    have hz : t.val ≠ 0 := fun h => h0 (by rw [h])
    rw [PhiS2_castSucc V c t, PhiS2_pos V c _ _ hz]
    iintro ⟨⟨⟨HS0, Hrest⟩, Hg⟩, Ho, ⟨%d0, H0⟩, ⟨%d1, H1⟩, ⟨%d2, H2⟩⟩
    iapply ((kernelRun2_B c (grid2.coords t) _ _ _ _ _ _ _ _ (fun h => h0 ((hcond2_0 t).mp h)) (iblk2 V c 0 t) (iblk2 V c 1 t) _).2 Set.univ _)
    isplitl [H0]; · iexact H0
    isplitl [H1]; · iexact H1
    isplitl [H2]; · iexists _; iexact H2
    isplitl [HS0]; · iexact HS0
    iintro ⟨H0, H1, ⟨%e2, H2⟩, HS0⟩
    isplitl [HS0 Hrest Hg]
    · isplitl [HS0 Hrest]
      · isplitl [HS0]; · iexact HS0
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover2_B c _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives it back: the scratch's named contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 64 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

end Region

end Cert.KernelIdeal.Hand

end
-- ==== Proof.KiR3Run.lean ====
/-
  The attention kernel of call 3 run on whole staging buffers, in its three control cases over the
  head coordinate h: h = 0 (the accumulator is zeroed, then the head's contribution added),
  0 < h < 15 (the contribution is added to what the head before left) and h = 15 (added, and the
  accumulated block stored into the output buffer). Every case stores the head's attention weights.
-/
import proofs.«140923_j35270271435571_2_alg».proof.Proof.Gen.KernelIdeal.Launch
import proofs.«140923_j35270271435571_2_alg».proof.Proof.Gen.KernelIdeal.Skeleton
import proofs.«140923_j35270271435571_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's two branch conditions: the head coordinate is zero; it is the last one. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 16 = 0 :=
  (by decide +kernel : ∀ t : Fin grid3.N, cond3_0 (grid3.coords t) ↔ t.val % 16 = 0)
abbrev cond3_1 (i : grid3.Coords) : Prop := k3_cond2 i = 1#1
theorem hcond3_1 : ∀ t : Fin cfg3.N, cond3_1 (grid3.coords t) ↔ t.val % 16 = 15 :=
  (by decide +kernel : ∀ t : Fin grid3.N, cond3_1 (grid3.coords t) ↔ t.val % 16 = 15)

/-- The accumulator scratch as a memref and a view; one staging buffer of each output window as a view. -/
abbrev scM3 : Memref sig .tc .vmem S512x1024 .f32 := Memref.whole cc3_scratch0
abbrev VS3 : View sig .tc .vmem S512x1024 .f32 := (scM3).view
abbrev VO3_4 : View sig .tc .vmem S512x1024 .f32 := (Memref.whole cc3_stg4_0 : Memref sig .tc .vmem S512x1024 .f32).view
abbrev VO3_5 : View sig .tc .vmem S1x512x2048 .f32 := (Memref.whole cc3_stg5_0 : Memref sig .tc .vmem S1x512x2048 .f32).view

set_option maxHeartbeats 8000000 in
/-- h = 0. -/
noncomputable def kernelRun3_A (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : cond3_0 i) (hc1 : ¬cond3_1 i)
    (x0 : Vec F S1x512x64 .bf16) (x1 : Vec F S1x2048x64 .bf16) (x2 : Vec F S1x2048x64 .bf16) (x3 : Vec F S64x1024 .bf16) :
    Σ' (L5 : List (View.Piece (Elt F) S1x512x2048 .f32)), { LS0 : List (View.Piece (Elt F) S512x1024 .f32) //
      ∀ (xi4 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc3__attn_wo_kernel i arg3 harg3 arg4 harg4 arg5 harg5 arg6 harg6 arg7 harg7 arg8 harg8 arg9 harg9) K } := by
  refine ⟨?_, ?_, fun xi4 E K => ?run⟩
  case run =>
    simp only [cc3__attn_wo_kernel_eq_skeleton]; unfold cc3__attn_wo_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

set_option maxHeartbeats 8000000 in
/-- 0 < h < 15. -/
noncomputable def kernelRun3_B (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : ¬cond3_1 i)
    (x0 : Vec F S1x512x64 .bf16) (x1 : Vec F S1x2048x64 .bf16) (x2 : Vec F S1x2048x64 .bf16) (x3 : Vec F S64x1024 .bf16) (xs0 : Vec F S512x1024 .f32) :
    Σ' (L5 : List (View.Piece (Elt F) S1x512x2048 .f32)), { LS0 : List (View.Piece (Elt F) S512x1024 .f32) //
      ∀ (xi4 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc3__attn_wo_kernel i arg3 harg3 arg4 harg4 arg5 harg5 arg6 harg6 arg7 harg7 arg8 harg8 arg9 harg9) K } := by
  refine ⟨?_, ?_, fun xi4 E K => ?run⟩
  case run =>
    simp only [cc3__attn_wo_kernel_eq_skeleton]; unfold cc3__attn_wo_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

set_option maxHeartbeats 8000000 in
/-- h = 15. -/
noncomputable def kernelRun3_C (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : cond3_1 i)
    (x0 : Vec F S1x512x64 .bf16) (x1 : Vec F S1x2048x64 .bf16) (x2 : Vec F S1x2048x64 .bf16) (x3 : Vec F S64x1024 .bf16) (xs0 : Vec F S512x1024 .f32) :
    Σ' (L4 : List (View.Piece (Elt F) S512x1024 .f32)) (L5 : List (View.Piece (Elt F) S1x512x2048 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc3__attn_wo_kernel i arg3 harg3 arg4 harg4 arg5 harg5 arg6 harg6 arg7 harg7 arg8 harg8 arg9 harg9) K } := by
  refine ⟨?_, ?_, ?_, fun E K => ?run⟩
  case run =>
    simp only [cc3__attn_wo_kernel_eq_skeleton]; unfold cc3__attn_wo_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    iexists _; iexact HS0

end Cert.KernelIdeal.Hand

end
-- ==== Proof.KiR3Dat.lean ====
/-
  Call 3's proof data. After the body at a grid point the attention-weights buffer holds the head's
  softmax block, the accumulator scratch holds the sum of the contributions of the heads so far in
  the point's row tile, and at the last head the output buffer holds that sum: stated by recursion
  on the point.
-/
import proofs.«140923_j35270271435571_2_alg».proof.Proof.Gen.KernelIdeal.Launch
import proofs.«140923_j35270271435571_2_alg».proof.Proof.Gen.KernelIdeal.Skeleton
import proofs.«140923_j35270271435571_2_alg».proof.Proof.Gen.KernelIdeal.Points
import proofs.«140923_j35270271435571_2_alg».proof.Proof.KiR3Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

abbrev ms3_0 (t : Fin cfg3.N) : Memref sig .tc .vmem S1x512x64 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x2048x64 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x2048x64 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S64x1024 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S512x1024 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x512x2048 .f32 := win3_5.stage (cfg3.slots t 5)
abbrev hs3_5 (t : Fin cfg3.N) : (ms3_5 t).IsWhole := hstage3_5 ((cfg3.slots t 5).cast nbuf3_5)

end Region

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_5 : ∀ t : Fin cfg3.N, cfg3.idle 5 (grid3.coords t) = false := by decide +kernel
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem liveAt3_4 : ∀ t : Fin cfg3.N, cond3_1 (grid3.coords t) → cfg3.idle 4 (grid3.coords t) = false := by decide +kernel

/-! ## The pieces cover the buffers -/

theorem cover3_A_5 (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : cond3_0 i) (hc1 : ¬cond3_1 i) (x0 : Vec F S1x512x64 .bf16) (x1 : Vec F S1x2048x64 .bf16) (x2 : Vec F S1x2048x64 .bf16) (x3 : Vec F S64x1024 .bf16)  (y : S1x512x2048.Idx) :
    ∃ pc ∈ (kernelRun3_A c i arg3 harg3 arg4 harg4 arg5 harg5 arg6 harg6 arg7 harg7 arg8 harg8 arg9 harg9 hc0 hc1 x0 x1 x2 x3).1, y ∈ pc.1.set :=
  View.cover_of_tiledL (kernelRun3_A c i arg3 harg3 arg4 harg4 arg5 harg5 arg6 harg6 arg7 harg7 arg8 harg8 arg9 harg9 hc0 hc1 x0 x1 x2 x3).1 S1x512x2048.size (by sl_kernel_rfl) y
theorem scover3_A (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : cond3_0 i) (hc1 : ¬cond3_1 i) (x0 : Vec F S1x512x64 .bf16) (x1 : Vec F S1x2048x64 .bf16) (x2 : Vec F S1x2048x64 .bf16) (x3 : Vec F S64x1024 .bf16)  (y : S512x1024.Idx) :
    ∃ pc ∈ (kernelRun3_A c i arg3 harg3 arg4 harg4 arg5 harg5 arg6 harg6 arg7 harg7 arg8 harg8 arg9 harg9 hc0 hc1 x0 x1 x2 x3).2.1, y ∈ pc.1.set :=
  View.cover_of_tiledL (kernelRun3_A c i arg3 harg3 arg4 harg4 arg5 harg5 arg6 harg6 arg7 harg7 arg8 harg8 arg9 harg9 hc0 hc1 x0 x1 x2 x3).2.1 S512x1024.size (by sl_kernel_rfl) y
theorem cover3_B_5 (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : ¬cond3_1 i) (x0 : Vec F S1x512x64 .bf16) (x1 : Vec F S1x2048x64 .bf16) (x2 : Vec F S1x2048x64 .bf16) (x3 : Vec F S64x1024 .bf16) (xs0 : Vec F S512x1024 .f32) (y : S1x512x2048.Idx) :
    ∃ pc ∈ (kernelRun3_B c i arg3 harg3 arg4 harg4 arg5 harg5 arg6 harg6 arg7 harg7 arg8 harg8 arg9 harg9 hc0 hc1 x0 x1 x2 x3 xs0).1, y ∈ pc.1.set :=
  View.cover_of_tiledL (kernelRun3_B c i arg3 harg3 arg4 harg4 arg5 harg5 arg6 harg6 arg7 harg7 arg8 harg8 arg9 harg9 hc0 hc1 x0 x1 x2 x3 xs0).1 S1x512x2048.size (by sl_kernel_rfl) y
theorem scover3_B (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : ¬cond3_1 i) (x0 : Vec F S1x512x64 .bf16) (x1 : Vec F S1x2048x64 .bf16) (x2 : Vec F S1x2048x64 .bf16) (x3 : Vec F S64x1024 .bf16) (xs0 : Vec F S512x1024 .f32) (y : S512x1024.Idx) :
    ∃ pc ∈ (kernelRun3_B c i arg3 harg3 arg4 harg4 arg5 harg5 arg6 harg6 arg7 harg7 arg8 harg8 arg9 harg9 hc0 hc1 x0 x1 x2 x3 xs0).2.1, y ∈ pc.1.set :=
  View.cover_of_tiledL (kernelRun3_B c i arg3 harg3 arg4 harg4 arg5 harg5 arg6 harg6 arg7 harg7 arg8 harg8 arg9 harg9 hc0 hc1 x0 x1 x2 x3 xs0).2.1 S512x1024.size (by sl_kernel_rfl) y
theorem cover3_C_4 (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : cond3_1 i) (x0 : Vec F S1x512x64 .bf16) (x1 : Vec F S1x2048x64 .bf16) (x2 : Vec F S1x2048x64 .bf16) (x3 : Vec F S64x1024 .bf16) (xs0 : Vec F S512x1024 .f32) (y : S512x1024.Idx) :
    ∃ pc ∈ (kernelRun3_C c i arg3 harg3 arg4 harg4 arg5 harg5 arg6 harg6 arg7 harg7 arg8 harg8 arg9 harg9 hc0 hc1 x0 x1 x2 x3 xs0).1, y ∈ pc.1.set :=
  View.cover_of_tiledL (kernelRun3_C c i arg3 harg3 arg4 harg4 arg5 harg5 arg6 harg6 arg7 harg7 arg8 harg8 arg9 harg9 hc0 hc1 x0 x1 x2 x3 xs0).1 S512x1024.size (by sl_kernel_rfl) y
theorem cover3_C_5 (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : cond3_1 i) (x0 : Vec F S1x512x64 .bf16) (x1 : Vec F S1x2048x64 .bf16) (x2 : Vec F S1x2048x64 .bf16) (x3 : Vec F S64x1024 .bf16) (xs0 : Vec F S512x1024 .f32) (y : S1x512x2048.Idx) :
    ∃ pc ∈ (kernelRun3_C c i arg3 harg3 arg4 harg4 arg5 harg5 arg6 harg6 arg7 harg7 arg8 harg8 arg9 harg9 hc0 hc1 x0 x1 x2 x3 xs0).2.1, y ∈ pc.1.set :=
  View.cover_of_tiledL (kernelRun3_C c i arg3 harg3 arg4 harg4 arg5 harg5 arg6 harg6 arg7 harg7 arg8 harg8 arg9 harg9 hc0 hc1 x0 x1 x2 x3 xs0).2.1 S1x512x2048.size (by sl_kernel_rfl) y
theorem scover3_C (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : cond3_1 i) (x0 : Vec F S1x512x64 .bf16) (x1 : Vec F S1x2048x64 .bf16) (x2 : Vec F S1x2048x64 .bf16) (x3 : Vec F S64x1024 .bf16) (xs0 : Vec F S512x1024 .f32) (y : S512x1024.Idx) :
    ∃ pc ∈ (kernelRun3_C c i arg3 harg3 arg4 harg4 arg5 harg5 arg6 harg6 arg7 harg7 arg8 harg8 arg9 harg9 hc0 hc1 x0 x1 x2 x3 xs0).2.2.1, y ∈ pc.1.set :=
  View.cover_of_tiledL (kernelRun3_C c i arg3 harg3 arg4 harg4 arg5 harg5 arg6 harg6 arg7 harg7 arg8 harg8 arg9 harg9 hc0 hc1 x0 x1 x2 x3 xs0).2.2.1 S512x1024.size (by sl_kernel_rfl) y

/-- What each case leaves in each buffer: its pieces read back. -/
def out3_A_5 (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : cond3_0 i) (hc1 : ¬cond3_1 i) (x0 : Vec F S1x512x64 .bf16) (x1 : Vec F S1x2048x64 .bf16) (x2 : Vec F S1x2048x64 .bf16) (x3 : Vec F S64x1024 .bf16)  : Vec F S1x512x2048 .f32 :=
  VO3_5.read (Elt F) (VO3_5.writes (Elt F) VO3_5.junk (kernelRun3_A c i arg3 harg3 arg4 harg4 arg5 harg5 arg6 harg6 arg7 harg7 arg8 harg8 arg9 harg9 hc0 hc1 x0 x1 x2 x3).1)
def sout3_A (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : cond3_0 i) (hc1 : ¬cond3_1 i) (x0 : Vec F S1x512x64 .bf16) (x1 : Vec F S1x2048x64 .bf16) (x2 : Vec F S1x2048x64 .bf16) (x3 : Vec F S64x1024 .bf16)  : Vec F S512x1024 .f32 :=
  VS3.read (Elt F) (VS3.writes (Elt F) VS3.junk (kernelRun3_A c i arg3 harg3 arg4 harg4 arg5 harg5 arg6 harg6 arg7 harg7 arg8 harg8 arg9 harg9 hc0 hc1 x0 x1 x2 x3).2.1)
def out3_B_5 (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : ¬cond3_1 i) (x0 : Vec F S1x512x64 .bf16) (x1 : Vec F S1x2048x64 .bf16) (x2 : Vec F S1x2048x64 .bf16) (x3 : Vec F S64x1024 .bf16) (xs0 : Vec F S512x1024 .f32) : Vec F S1x512x2048 .f32 :=
  VO3_5.read (Elt F) (VO3_5.writes (Elt F) VO3_5.junk (kernelRun3_B c i arg3 harg3 arg4 harg4 arg5 harg5 arg6 harg6 arg7 harg7 arg8 harg8 arg9 harg9 hc0 hc1 x0 x1 x2 x3 xs0).1)
def sout3_B (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : ¬cond3_1 i) (x0 : Vec F S1x512x64 .bf16) (x1 : Vec F S1x2048x64 .bf16) (x2 : Vec F S1x2048x64 .bf16) (x3 : Vec F S64x1024 .bf16) (xs0 : Vec F S512x1024 .f32) : Vec F S512x1024 .f32 :=
  VS3.read (Elt F) (VS3.writes (Elt F) VS3.junk (kernelRun3_B c i arg3 harg3 arg4 harg4 arg5 harg5 arg6 harg6 arg7 harg7 arg8 harg8 arg9 harg9 hc0 hc1 x0 x1 x2 x3 xs0).2.1)
def out3_C_4 (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : cond3_1 i) (x0 : Vec F S1x512x64 .bf16) (x1 : Vec F S1x2048x64 .bf16) (x2 : Vec F S1x2048x64 .bf16) (x3 : Vec F S64x1024 .bf16) (xs0 : Vec F S512x1024 .f32) : Vec F S512x1024 .f32 :=
  VO3_4.read (Elt F) (VO3_4.writes (Elt F) VO3_4.junk (kernelRun3_C c i arg3 harg3 arg4 harg4 arg5 harg5 arg6 harg6 arg7 harg7 arg8 harg8 arg9 harg9 hc0 hc1 x0 x1 x2 x3 xs0).1)
def out3_C_5 (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : cond3_1 i) (x0 : Vec F S1x512x64 .bf16) (x1 : Vec F S1x2048x64 .bf16) (x2 : Vec F S1x2048x64 .bf16) (x3 : Vec F S64x1024 .bf16) (xs0 : Vec F S512x1024 .f32) : Vec F S1x512x2048 .f32 :=
  VO3_5.read (Elt F) (VO3_5.writes (Elt F) VO3_5.junk (kernelRun3_C c i arg3 harg3 arg4 harg4 arg5 harg5 arg6 harg6 arg7 harg7 arg8 harg8 arg9 harg9 hc0 hc1 x0 x1 x2 x3 xs0).2.1)
def sout3_C (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : cond3_1 i) (x0 : Vec F S1x512x64 .bf16) (x1 : Vec F S1x2048x64 .bf16) (x2 : Vec F S1x2048x64 .bf16) (x3 : Vec F S64x1024 .bf16) (xs0 : Vec F S512x1024 .f32) : Vec F S512x1024 .f32 :=
  VS3.read (Elt F) (VS3.writes (Elt F) VS3.junk (kernelRun3_C c i arg3 harg3 arg4 harg4 arg5 harg5 arg6 harg6 arg7 harg7 arg8 harg8 arg9 harg9 hc0 hc1 x0 x1 x2 x3 xs0).2.2.1)

/-- A placeholder for the output buffer at the points that store nothing into it: nothing reads it. -/
def ph3_4 : Vec F S512x1024 .f32 := VO3_4.read (Elt F) VO3_4.junk

section Region
variable (V : (c : Dev nD) → (b : Ref sig .tc) → Buf (Elt F) ((c : Thread nD τ).loc b))

/-- What the output buffer, the attention-weights buffer and the accumulator hold after the body at position `n`. -/
def outsAt3 (c : Dev nD) : (n : ℕ) → n < cfg3.N → Vec F S512x1024 .f32 × Vec F S1x512x2048 .f32 × Vec F S512x1024 .f32
  | 0, hn => (ph3_4, out3_A_5 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩), sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩))
  | n + 1, hn =>
    if h0 : (n + 1) % 16 = 0 then
      if h1 : (n + 1) % 16 = 15 then
        False.elim (by omega)
      else
        (ph3_4, out3_A_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩), sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩))
    else
      if h1 : (n + 1) % 16 = 15 then
        (out3_C_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2, out3_C_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2, sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2)
      else
        (ph3_4, out3_B_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2.2)

theorem outsAt3_A (c : Dev nD) (t : Fin cfg3.N) (h0 : t.val % 16 = 0) (h1 : ¬t.val % 16 = 15) :
    outsAt3 V c t.val t.isLt = (ph3_4, out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) ((hcond3_0 t).mpr h0) (fun h => h1 ((hcond3_1 t).mp h)) (iblk3 V c 0 t) (iblk3 V c 1 t) (iblk3 V c 2 t) (iblk3 V c 3 t), sout3_A c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) ((hcond3_0 t).mpr h0) (fun h => h1 ((hcond3_1 t).mp h)) (iblk3 V c 0 t) (iblk3 V c 1 t) (iblk3 V c 2 t) (iblk3 V c 3 t)) := by
  obtain ⟨n, hn⟩ := t
  cases n with
  | zero => exact rfl
  | succ n => exact (dif_pos h0).trans ((dif_neg h1).trans rfl)

theorem outsAt3_B (c : Dev nD) (t : Fin cfg3.N) (h0 : ¬t.val % 16 = 0) (h1 : ¬t.val % 16 = 15) :
    outsAt3 V c t.val t.isLt = (ph3_4, out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.2, sout3_B c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 16 = 0) (h1 : t.val % 16 = 15) :
    outsAt3 V c t.val t.isLt = (out3_C_4 c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.2, out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.2, sout3_C c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2.2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3 fullShare ((outsAt3 V c n hn).2.2) ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3 fullShare ((outsAt3 V c (n - 1) (by omega)).2.2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The scoped rest of call 3 with its own scratch split out (the other calls' buffers stay unopened). -/
theorem scopedRest3_split (c : Dev nD) :
    (Pipeline.scopedRest (Ix := Unit) (Name := ℕ) (U := UR sig nD τ) (Lvl := ℕ) (Val := Elt F) spec3 c : sProp 𝕄)
      = iprop(iprop((∃ f : Buf (Elt F) ((c : Thread nD τ).loc cc3_scratch0), ((c : Thread nD τ).loc cc3_scratch0) ↦{fullShare} f))
          ∗ Pipeline.scopedRestBut (Ix := Unit) (Name := ℕ) (U := UR sig nD τ) (Lvl := ℕ) (Val := Elt F) spec3 c [cc3_scratch0]) :=
  Pipeline.scopedRest_split_of_list spec3 c [cc3_scratch0] (by decide) (by decide)

theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
    | ⟨5, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]
theorem after3_5 (c : Dev nD) (t : Fin cfg3.N) : (dat3 V c).after 5 t = (outsAt3 V c t.val t.isLt).2.1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

end Region

end Cert.KernelIdeal.Hand

end
-- ==== Proof.KiR3Obl.lean ====
/-
  Call 3's body obligation, case by case over the head coordinate, and the invariant's two ends.
-/
import proofs.«140923_j35270271435571_2_alg».proof.Proof.Gen.KernelIdeal.Launch
import proofs.«140923_j35270271435571_2_alg».proof.Proof.Gen.KernelIdeal.Skeleton
import proofs.«140923_j35270271435571_2_alg».proof.Proof.Gen.KernelIdeal.Points
import proofs.«140923_j35270271435571_2_alg».proof.Proof.KiR3Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 8000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 5 t = owns (c : Thread nD τ) (ms3_5 t) fullShare ((dat3 V c).after 5 t) from by
    unfold Dat.leavesExact; rw [liveAt3_5 t], after3_5]
  by_cases h0 : t.val % 16 = 0
  · have h1 : ¬t.val % 16 = 15 := by omega
    have hC0 : cond3_0 (grid3.coords t) := (hcond3_0 t).mpr h0
    have hC1 : ¬cond3_1 (grid3.coords t) := fun h => h1 ((hcond3_1 t).mp h)
    rw [Dat.leavesExact_idle (dat3 V c) 4 t (idleAt3_4 t hC1) (noFlush3_4 t hC1)]
    rw [outsAt3_A V c t h0 h1]
    unfold out3_A_5 sout3_A; (try dsimp only)
    by_cases hz : t.val = 0
    · rw [PhiS3_castSucc V c t, PhiS3_zero V c _ _ hz, PhiA3_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun3_A c (grid3.coords t) _ _ _ _ _ _ _ _ _ _ _ _ _ _ hC0 hC1 (iblk3 V c 0 t) (iblk3 V c 1 t) (iblk3 V c 2 t) (iblk3 V c 3 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_A c _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      unfold owns; iexists _; isplitr
      swap; · iexact H5
      ipureintro; exact View.read_writes_of_cover _ _ _ _ _ (cover3_A_5 c _ _ _ _ _ _ _ _ _ _ _ _ _ _ _ _ _ _ _ _ _)
    · rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun3_A c (grid3.coords t) _ _ _ _ _ _ _ _ _ _ _ _ _ _ hC0 hC1 (iblk3 V c 0 t) (iblk3 V c 1 t) (iblk3 V c 2 t) (iblk3 V c 3 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_A c _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      unfold owns; iexists _; isplitr
      swap; · iexact H5
      ipureintro; exact View.read_writes_of_cover _ _ _ _ _ (cover3_A_5 c _ _ _ _ _ _ _ _ _ _ _ _ _ _ _ _ _ _ _ _ _)
  · have hz : t.val ≠ 0 := fun h => h0 (by rw [h])
    have hC0 : ¬cond3_0 (grid3.coords t) := fun h => h0 ((hcond3_0 t).mp h)
    by_cases h1 : t.val % 16 = 15
    · have hC1 : cond3_1 (grid3.coords t) := (hcond3_1 t).mpr h1
      rw [show (dat3 V c).leavesExact 4 t = owns (c : Thread nD τ) (ms3_4 t) fullShare ((dat3 V c).after 4 t) from by
        unfold Dat.leavesExact; rw [liveAt3_4 t hC1], after3_4]
      rw [outsAt3_C V c t h0 h1]
      unfold out3_C_4 out3_C_5 sout3_C; (try dsimp only)
      rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun3_C c (grid3.coords t) _ _ _ _ _ _ _ _ _ _ _ _ _ _ hC0 hC1 (iblk3 V c 0 t) (iblk3 V c 1 t) (iblk3 V c 2 t) (iblk3 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_C c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover3_C_4 c _ _ _ _ _ _ _ _ _ _ _ _ _ _ _ _ _ _ _ _ _ _)
      unfold owns; iexists _; isplitr
      swap; · iexact H5
      ipureintro; exact View.read_writes_of_cover _ _ _ _ _ (cover3_C_5 c _ _ _ _ _ _ _ _ _ _ _ _ _ _ _ _ _ _ _ _ _ _)
    · have hC1 : ¬cond3_1 (grid3.coords t) := fun h => h1 ((hcond3_1 t).mp h)
      rw [Dat.leavesExact_idle (dat3 V c) 4 t (idleAt3_4 t hC1) (noFlush3_4 t hC1)]
      rw [outsAt3_B V c t h0 h1]
      unfold out3_B_5 sout3_B; (try dsimp only)
      rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun3_B c (grid3.coords t) _ _ _ _ _ _ _ _ _ _ _ _ _ _ hC0 hC1 (iblk3 V c 0 t) (iblk3 V c 1 t) (iblk3 V c 2 t) (iblk3 V c 3 t) _).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_B c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      unfold owns; iexists _; isplitr
      swap; · iexact H5
      ipureintro; exact View.read_writes_of_cover _ _ _ _ _ (cover3_B_5 c _ _ _ _ _ _ _ _ _ _ _ _ _ _ _ _ _ _ _ _ _ _)

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives the launch's back: the accumulator's named contents are forgotten. -/
theorem Phi_out3 (c : Dev nD) : ∀ (n : ℕ) (h : n ≤ cfg3.N), n ≠ 0 → PhiS3 V c n h ⊢ Pipeline.ΦA spec3 c
  | 0, _, hz => absurd rfl hz
  | n + 1, h, _ => by
    rw [PhiS3_succ, PhiA3_eq]
    iintro ⟨⟨HS0, Hrest⟩, Hg⟩
    isplitl [HS0 Hrest]
    · isplitl [HS0]
      · iexists _; iexact HS0
      iexact Hrest
    iexact Hg

theorem hout3 (c : Dev nD) : (dat3 V c).Φ (Fin.last cfg3.N) ⊢ Pipeline.ΦA spec3 c := by
  have key : ∀ (t : Fin (cfg3.N + 1)), t.val ≠ 0 → (dat3 V c).Φ t ⊢ Pipeline.ΦA spec3 c := fun t ht => by
    rw [show (dat3 V c).Φ t = PhiS3 V c t.val (Nat.le_of_lt_succ t.isLt) from by dsimp only [dat3]]
    exact Phi_out3 V c t.val _ ht
  exact key _ (by rw [Fin.val_last]; have : cfg3.N = 256 := N_3; omega)

end Region

end Cert.KernelIdeal.Hand

end
-- ==== Proof.KiMain.lean ====
/-
  The whole program as six segments — the host operations before the calls, the four calls, the two
  reshapes after them — with the unscoped buffers' contents named at every boundary: a host stretch
  applies its operations, a call replaces its arrays by what its write-backs leave. Every weakly
  fair execution ends with every unscoped buffer at the last boundary's contents; read at the
  arguments (which no segment writes) this is the frame claim, and read at the two results it is
  what the value claim starts from.
-/
import proofs.«140923_j35270271435571_2_alg».proof.Proof.Gen.KernelIdeal.Launch
import proofs.«140923_j35270271435571_2_alg».proof.Proof.Gen.KernelIdeal.Skeleton
import proofs.«140923_j35270271435571_2_alg».proof.Proof.Gen.KernelIdeal.Points
import proofs.«140923_j35270271435571_2_alg».proof.Proof.KiR0Obl
import proofs.«140923_j35270271435571_2_alg».proof.Proof.KiR1Obl
import proofs.«140923_j35270271435571_2_alg».proof.Proof.KiR2Obl
import proofs.«140923_j35270271435571_2_alg».proof.Proof.KiR3Obl
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- After call 0: its arrays at what its write-backs leave, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After call 1: its arrays at what its write-backs leave, every other buffer as entered. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-- After call 2: its arrays at what its write-backs leave, every other buffer as entered. -/
def W4 (c : Dev nD) : Valuation τ sig (Elt F) :=
  Pipeline.withArrays spec2 c (W3 m ρ c) fun w => (dat2 (U3 m ρ) c).arrAt w cfg2.N
theorem W4_arr (c : Dev nD) (w : Fin cfg2.W) :
    W4 m ρ c (Proc.devRef .tc (Pipeline.arrRef spec2 w)) = (dat2 (U3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev U4 : (c : Dev nD) → (b : Ref sig .tc) → Buf (Elt F) ((c : Thread nD τ).loc b) := fun c b => W4 m ρ c b
theorem hF2 (c : Dev nD) (w : Fin cfg2.W) : (dat2 (U3 m ρ) c).arrAt w cfg2.N = U4 m ρ c (Pipeline.arrRef spec2 w) :=
  (W4_arr m ρ c w).symm
theorem hrest2 (c : Dev nD) : ∀ b, b ∉ Finset.univ.image (Pipeline.arrRef spec2) → U4 m ρ c b = U3 m ρ c b :=
  fun b hb => W4_of_ne m ρ c b fun w e => hb (Finset.mem_image.mpr ⟨w, Finset.mem_univ _, e⟩)

/-- After call 3: its arrays at what its write-backs leave, every other buffer as entered. -/
def W5 (c : Dev nD) : Valuation τ sig (Elt F) :=
  Pipeline.withArrays spec3 c (W4 m ρ c) fun w => (dat3 (U4 m ρ) c).arrAt w cfg3.N
theorem W5_arr (c : Dev nD) (w : Fin cfg3.W) :
    W5 m ρ c (Proc.devRef .tc (Pipeline.arrRef spec3 w)) = (dat3 (U4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
abbrev U5 : (c : Dev nD) → (b : Ref sig .tc) → Buf (Elt F) ((c : Thread nD τ).loc b) := fun c b => W5 m ρ c b
theorem hF3 (c : Dev nD) (w : Fin cfg3.W) : (dat3 (U4 m ρ) c).arrAt w cfg3.N = U5 m ρ c (Pipeline.arrRef spec3 w) :=
  (W5_arr m ρ c w).symm
theorem hrest3 (c : Dev nD) : ∀ b, b ∉ Finset.univ.image (Pipeline.arrRef spec3) → U5 m ρ c b = U4 m ρ c b :=
  fun b hb => W5_of_ne m ρ c b fun w e => hb (Finset.mem_image.mpr ⟨w, Finset.mem_univ _, e⟩)

abbrev W6 : Dev nD → Valuation τ sig (Elt F) := fun c => StableHlo.after hostOps4 (W5 m ρ c)

/-! ## The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_forall_not_mem (b := Proc.devRef .tc main_arg0) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (U1 m ρ) c).arrAt_in 0 rfl _).trans (A_eq0 (U1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_forall_not_mem (b := Proc.devRef .tc main_arg1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := (W3_arr m ρ c 0).trans (((dat1 (U2 m ρ) c).arrAt_in 0 rfl _).trans (A_eq1 (U2 m ρ) c 0))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg2) := W5_of_ne m ρ c main_arg2 (by decide)
    _ = W3 m ρ c (Proc.devRef .tc main_arg2) := (W4_arr m ρ c 0).trans (((dat2 (U3 m ρ) c).arrAt_in 0 rfl _).trans (A_eq2 (U3 m ρ) c 0))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := StableHlo.after_of_forall_not_mem (b := Proc.devRef .tc main_arg3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := StableHlo.after_of_forall_not_mem (b := Proc.devRef .tc main_arg4) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := StableHlo.after_of_forall_not_mem (b := Proc.devRef .tc main_arg5) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := StableHlo.after_of_forall_not_mem (b := Proc.devRef .tc main_arg6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family and the thread state -/

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U2 m ρ) c
  | ⟨2, _⟩ => fun c => dat2 (U3 m ρ) c
  | ⟨3, _⟩ => fun c => dat3 (U4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_noalloc : (hostOps0 : List (HloOp τ sig (Elt F))).Forall fun op => op.fresh = ∅ := by
  simp only [List.Forall]; repeat' constructor
theorem hostOps4_noalloc : (hostOps4 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The calls as segments -/

set_option backward.isDefEq.respectTransparency.types false in
/-- Call 0 over the thread state: its arrays split out of the unscoped buffers and put back at the exit contents; the
    generator register into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h := hout0 (U1 m ρ) c
    unfold Pipeline.ΦA at h
    change (pdats m ρ 0 c).Φ (Fin.last (Pipeline.pin (pcfgs (F := F)) adm 0).N) ⊢ _ at h
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: its arrays split out of the unscoped buffers and put back at the exit contents; the
    generator register into the invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h := hout1 (U2 m ρ) c
    unfold Pipeline.ΦA at h
    change (pdats m ρ 1 c).Φ (Fin.last (Pipeline.pin (pcfgs (F := F)) adm 1).N) ⊢ _ at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: its arrays split out of the unscoped buffers and put back at the exit contents; the
    generator register into the invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (U3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    have h := hout2 (U3 m ρ) c
    unfold Pipeline.ΦA at h
    change (pdats m ρ 2 c).Φ (Fin.last (Pipeline.pin (pcfgs (F := F)) adm 2).N) ⊢ _ at h
    iintro HP
    ihave H := h $$ HP
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U3 m ρ c) (U4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 over the thread state: its arrays split out of the unscoped buffers and put back at the exit contents; the
    generator register into the invariant and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (U4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    have h := hout3 (U4 m ρ) c
    unfold Pipeline.ΦA at h
    change (pdats m ρ 3 c).Φ (Fin.last (Pipeline.pin (pcfgs (F := F)) adm 3).N) ⊢ _ at h
    iintro HP
    ihave H := h $$ HP
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U4 m ρ c) (U5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_noalloc (W0 m ρ)),
    .region (reg0 m ρ), .region (reg1 m ρ), .region (reg2 m ρ), .region (reg3 m ρ),
    .host (hseg hostOps4 hostOps4_sub hostOps4_noalloc (W5 m ρ)) ]
theorem main_run (c : Dev nD) : main (F := F) c = Pipeline.Seg.run (segs m ρ) := (main_chain c).trans (by chain_rfl)

set_option backward.isDefEq.respectTransparency.types false in
/-- Every weakly fair execution terminates, and every final memory holds every unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => show iprop(StableHlo.held (c : Thread nD τ) (Pipeline.ucRefs τ sig) (W6 m ρ c) ∗ R c) ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The frame claim, at any instance of the floats: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c)⟩) (run_all m ρ)

end Cert.KernelIdeal.Hand

end
-- ==== Proof.KiR0Val.lean ====
/-
  Call 0's result array as one function of the arrays it is entered with. After the body at point
  t (batch row t / 16, head t % 16) the output buffer holds the product of the rounded activation
  block of the row with the head's weight block; point t writes back block t of the result array,
  and the 64 blocks tile it.
-/
import proofs.«140923_j35270271435571_2_alg».proof.Proof.Gen.KernelIdeal.Launch
import proofs.«140923_j35270271435571_2_alg».proof.Proof.Gen.KernelIdeal.Skeleton
import proofs.«140923_j35270271435571_2_alg».proof.Proof.Gen.KernelIdeal.Points
import proofs.«140923_j35270271435571_2_alg».proof.Proof.KiR0Obl
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz3_0 : (![0, 0, 0] : Fin 3 → Nat) = fun _ => 0 := funext fun a => by fin_cases a <;> rfl
theorem hz2_0 : (![0, 0] : Fin 2 → Nat) = fun _ => 0 := funext fun a => by fin_cases a <;> rfl

/-- Any head but the first: the output buffer is left at the product of the scratch contents and the weight block. -/
theorem out0_B_eq (c : Dev nD) (i : grid0.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : ¬cond0_0 i)
    (x0 : Vec F S1x2048x1024 .f32) (x1 : Vec F S64x1024 .bf16) (xs0 : Vec F S2048x1024 .bf16) :
    out0_B c i arg2 harg2 arg3 harg3 arg4 harg4 arg5 harg5 hc0 x0 x1 xs0 = k0_pay2 xs0 x1 := by
  unfold out0_B
  rw [View.read_writes_eq_canon _ _ _ (cover0_B c i arg2 harg2 arg3 harg3 arg4 harg4 arg5 harg5 hc0 x0 x1 xs0)]
  unfold kernelRun0_B
  dsimp only
  rw [View.canon_unit_zero hz3_0]
  simp only [View.readAt_eq_ld, harg5.read_unread, harg3.read_unread, View.ld_unit_zero (S := S2048x1024) hz2_0, View.ld_unit_zero (S := S64x1024) hz2_0]

/-- The first head: the scratch is left at the rounded activation block, -/
theorem sout0_A_eq (c : Dev nD) (i : grid0.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond0_0 i)
    (x0 : Vec F S1x2048x1024 .f32) (x1 : Vec F S64x1024 .bf16) :
    sout0_A c i arg2 harg2 arg3 harg3 arg4 harg4 arg5 harg5 hc0 x0 x1 = k0_pay1 x0 := by
  unfold sout0_A
  rw [View.read_writes_eq_canon _ _ _ (scover0_A c i arg2 harg2 arg3 harg3 arg4 harg4 arg5 harg5 hc0 x0 x1)]
  unfold kernelRun0_A
  dsimp only
  sl_unfold_words
  rw [View.canon_unit_zero hz2_0]
  simp only [View.readAt_eq_ld, harg2.read_unread, View.ld_unit_zero (S := S1x2048x1024) hz3_0]

/-- and the output buffer at its product with the weight block. -/
theorem out0_A_eq (c : Dev nD) (i : grid0.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond0_0 i)
    (x0 : Vec F S1x2048x1024 .f32) (x1 : Vec F S64x1024 .bf16) :
    out0_A c i arg2 harg2 arg3 harg3 arg4 harg4 arg5 harg5 hc0 x0 x1 = k0_pay2 (k0_pay1 x0) x1 := by
  unfold out0_A
  rw [View.read_writes_eq_canon _ _ _ (cover0_A c i arg2 harg2 arg3 harg3 arg4 harg4 arg5 harg5 hc0 x0 x1)]
  unfold kernelRun0_A
  dsimp only
  sl_unfold_words
  rw [View.canon_unit_zero hz3_0]
  simp only [View.readAt_eq_ld, harg2.read_unread, harg3.read_unread, View.readCov_unit_zero (S := S2048x1024) _ hz2_0, View.ld_unit_zero (S := S1x2048x1024) hz3_0, View.ld_unit_zero (S := S64x1024) hz2_0]

section Region
variable (V : (c : Dev nD) → (b : Ref sig .tc) → Buf (Elt F) ((c : Thread nD τ).loc b))

/-- The first point of the batch row of position `n`. -/
def row0 (n : ℕ) (h : n < cfg0.N) : Fin cfg0.N := ⟨16 * (n / 16), by have hN : cfg0.N = 64 := N_0; omega⟩

/-- What the buffers hold after position `n`, in closed form. -/
theorem outsAt0_eq (c : Dev nD) : ∀ (n : ℕ) (h : n < cfg0.N),
    outsAt0 V c n h = (k0_pay2 (k0_pay1 (iblk0 V c 0 (row0 n h))) (iblk0 V c 1 ⟨n, h⟩), k0_pay1 (iblk0 V c 0 (row0 n h)))
  | 0, h => by
    have e : row0 0 h = ⟨0, h⟩ := Fin.ext (by show 16 * (0 / 16) = 0; omega)
    rw [outsAt0_A V c ⟨0, h⟩ rfl, out0_A_eq, sout0_A_eq, e]
  | n + 1, h => by
    by_cases h0 : (n + 1) % 16 = 0
    · have e : row0 (n + 1) h = ⟨n + 1, h⟩ := Fin.ext (by show 16 * ((n + 1) / 16) = n + 1; omega)
      rw [outsAt0_A V c ⟨n + 1, h⟩ h0, out0_A_eq, sout0_A_eq, e]
    · have e : row0 (n + 1) h = row0 n (Nat.lt_of_succ_lt h) := Fin.ext (by show 16 * ((n + 1) / 16) = 16 * (n / 16); omega)
      rw [outsAt0_B V c ⟨n + 1, h⟩ h0, out0_B_eq]
      show (k0_pay2 (outsAt0 V c n _).2 _, (outsAt0 V c n _).2) = _
      rw [outsAt0_eq c n, e]

/-- The result array, index by index: block `j 0` is what point `j 0` left in the output buffer. -/
def G0 (c : Dev nD) : S64x2048x64.Idx → Elt F .bf16 :=
  fun j => (outsAt0 V c (j 0).val (lt_of_lt_of_eq (j 0).isLt N_0.symm)).1 (ix3 (0 : Fin 1) (j 1) (j 2))

theorem G0_apply (c : Dev nD) (j : S64x2048x64.Idx) (n : ℕ) (hn : n < cfg0.N) (e : (j 0).val = n) :
    G0 V c j = (outsAt0 V c n hn).1 (ix3 (0 : Fin 1) (j 1) (j 2)) := by subst e; rfl

/-- The output window's block index at point `t` is `(t, 0, 0)`. -/
theorem idx0_2 : ∀ t : Fin cfg0.N, win0_2.index t (0 : Fin 3) = t.val ∧ win0_2.index t (1 : Fin 3) = 0 ∧ win0_2.index t (2 : Fin 3) = 0 :=
  (by decide +kernel : ∀ t : Fin grid0.N, win0_2.index t (0 : Fin 3) = t.val ∧ win0_2.index t (1 : Fin 3) = 0 ∧ win0_2.index t (2 : Fin 3) = 0)

/-- What point `t` writes back is block `t` of the result array. -/
theorem flushed0_eq (c : Dev nD) (t : Fin cfg0.N) :
    (dat0 V c).flushed 2 t = ((cfg0.win 2).blk t).view.read (Elt F) (G0 V c) := by
  show (cfg0.win 2).cut (grid0.coords t) ((dat0 V c).after 2 t) = _
  rw [after0_2]
  obtain ⟨e0, e1, e2⟩ := idx0_2 t
  funext y
  show (outsAt0 V c t.val t.isLt).1 y = G0 V c (((cfg0.win 2).blk t).view.emb y)
  have hy0 : (y 0).val < 1 := (y 0).isLt
  have hy1 : (y 1).val < 2048 := (y 1).isLt
  have hy2 : (y 2).val < 64 := (y 2).isLt
  have i0 : ((((cfg0.win 2).blk t).view.emb y) 0).val = t.val := by
    show win0_2.index t (0 : Fin 3) * 1 + 1 * (y 0).val = t.val; omega
  rw [G0_apply V c _ t.val t.isLt i0]
  refine congrArg (outsAt0 V c t.val t.isLt).1 ?_
  funext a; apply Fin.ext
  match a with
  | ⟨0, _⟩ => show (y 0).val = 0; omega
  | ⟨1, _⟩ => show (y 1).val = win0_2.index t (1 : Fin 3) * 2048 + 1 * (y 1).val; omega
  | ⟨2, _⟩ => show (y 2).val = win0_2.index t (2 : Fin 3) * 64 + 1 * (y 2).val; omega

theorem mem_blk0_2 (t : Fin cfg0.N) (i : S64x2048x64.Idx) :
    i ∈ ((cfg0.win 2).blk t).view.set ↔ ∀ a : Fin 3, win0_2.index t a * S1x2048x64.size a ≤ (i a).val ∧ (i a).val < win0_2.index t a * S1x2048x64.size a + S1x2048x64.size a := by
  show i ∈ ((View.whole main_v5).slice (win0_2.rect t)).set ↔ _
  rw [View.set_slice_whole, Rect.mem_set_unit]
  exact Iff.rfl

/-- The result array after the run. -/
theorem final0 (c : Dev nD) : (dat0 V c).arrAt 2 cfg0.N = G0 V c :=
  (dat0 V c).arrAt_eq_of_cover 2 (G0 V c) (fun t _ => flushed0_eq V c t) fun i => by
    have hi0 : (i 0).val < 64 := (i 0).isLt
    have hi1 : (i 1).val < 2048 := (i 1).isLt
    have hi2 : (i 2).val < 64 := (i 2).isLt
    refine ⟨⟨(i 0).val, lt_of_lt_of_eq (i 0).isLt N_0.symm⟩, flush0_2 _, ?_⟩
    rw [mem_blk0_2]
    obtain ⟨e0', e1, e2⟩ := idx0_2 ⟨(i 0).val, lt_of_lt_of_eq (i 0).isLt N_0.symm⟩
    have e0 : win0_2.index ⟨(i 0).val, lt_of_lt_of_eq (i 0).isLt N_0.symm⟩ (0 : Fin 3) = (i 0).val := e0'
    intro a
    match a with
    | ⟨0, _⟩ => show win0_2.index _ (0 : Fin 3) * 1 ≤ (i 0).val ∧ (i 0).val < win0_2.index _ (0 : Fin 3) * 1 + 1; rw [e0]; omega
    | ⟨1, _⟩ => show win0_2.index _ (1 : Fin 3) * 2048 ≤ (i 1).val ∧ (i 1).val < win0_2.index _ (1 : Fin 3) * 2048 + 2048; rw [e1]; omega
    | ⟨2, _⟩ => show win0_2.index _ (2 : Fin 3) * 64 ≤ (i 2).val ∧ (i 2).val < win0_2.index _ (2 : Fin 3) * 64 + 64; rw [e2]; omega

end Region

end Cert.KernelIdeal.Hand

end
-- ==== Proof.KiR0Idx.lean ====
/-
  Call 0's result array, entry by entry, at the ideal instance: entry (16 b + h, l, k) is the dot
  product over the model dimension of row l of batch b of the activation array with row 64 h + k of
  the weight array (rounding to bf16 is the identity on extended reals; the reshapes drop or add a
  unit axis).
-/
import proofs.«140923_j35270271435571_2_alg».proof.Proof.KiR0Val
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem mm_proj0_l0 (i : S2048x64.Idx) (q : dot_S2048x1024_S64x1024_S2048x64_1_1_0_0_n_n.contr.Idx) :
    (dot_S2048x1024_S64x1024_S2048x64_1_1_0_0_n_n.lhsIdx i q 0).val = (i 0).val := by
  unfold DotDims.lhsIdx
  rw [dif_neg (show ¬(0 : Fin S2048x1024.rank) ∈ dot_S2048x1024_S64x1024_S2048x64_1_1_0_0_n_n.lhsBatch by decide), dif_pos (show (0 : Fin S2048x1024.rank) ∈ dot_S2048x1024_S64x1024_S2048x64_1_1_0_0_n_n.lhsNonContracting by decide)]
  rfl
theorem mm_proj0_l1 (i : S2048x64.Idx) (q : dot_S2048x1024_S64x1024_S2048x64_1_1_0_0_n_n.contr.Idx) :
    (dot_S2048x1024_S64x1024_S2048x64_1_1_0_0_n_n.lhsIdx i q 1).val = (q ⟨0, by decide⟩).val :=
  dot_S2048x1024_S64x1024_S2048x64_1_1_0_0_n_n.lhsIdx_val_of_single rfl i q
theorem mm_proj0_r0 (i : S2048x64.Idx) (q : dot_S2048x1024_S64x1024_S2048x64_1_1_0_0_n_n.contr.Idx) :
    (dot_S2048x1024_S64x1024_S2048x64_1_1_0_0_n_n.rhsIdx i q 0).val = (i 1).val := by
  unfold DotDims.rhsIdx
  rw [dif_neg (show ¬(0 : Fin S64x1024.rank) ∈ dot_S2048x1024_S64x1024_S2048x64_1_1_0_0_n_n.rhsBatch by decide), dif_pos (show (0 : Fin S64x1024.rank) ∈ dot_S2048x1024_S64x1024_S2048x64_1_1_0_0_n_n.rhsNonContracting by decide)]
  rfl
theorem mm_proj0_r1 (i : S2048x64.Idx) (q : dot_S2048x1024_S64x1024_S2048x64_1_1_0_0_n_n.contr.Idx) :
    (dot_S2048x1024_S64x1024_S2048x64_1_1_0_0_n_n.rhsIdx i q 1).val = (q ⟨0, by decide⟩).val :=
  dot_S2048x1024_S64x1024_S2048x64_1_1_0_0_n_n.rhsIdx_val_of_single rfl i q
theorem mm_proj0 (Lh : FVec Ideal S2048x1024 .bf16) (Rh : FVec Ideal S64x1024 .bf16) (p : Fin 2048) (q : Fin 64) :
    matmul dot_S2048x1024_S64x1024_S2048x64_1_1_0_0_n_n none Lh Rh (constant (F := Ideal) S2048x64 .f32 0x00000000#32) (ix2 p q)
      = ∑ k : Fin 1024, Lh (ix2 p k) * Rh (ix2 q k) := by
  simp only [matmul]
  rw [Ideal.matmul_constant_zero_apply, ← Equiv.sum_comp (contrEquiv1 dot_S2048x1024_S64x1024_S2048x64_1_1_0_0_n_n 1024 rfl rfl).symm]
  refine Finset.sum_congr rfl fun k _ => ?_
  have hk := contrEquiv1_symm_val dot_S2048x1024_S64x1024_S2048x64_1_1_0_0_n_n 1024 rfl rfl k
  have el : dot_S2048x1024_S64x1024_S2048x64_1_1_0_0_n_n.lhsIdx (ix2 p q) ((contrEquiv1 dot_S2048x1024_S64x1024_S2048x64_1_1_0_0_n_n 1024 rfl rfl).symm k) = ix2 p k := funext fun a => Fin.ext (by
    match a with
    | ⟨0, _⟩ => exact mm_proj0_l0 _ _
    | ⟨1, _⟩ => exact (mm_proj0_l1 _ _).trans hk)
  have er : dot_S2048x1024_S64x1024_S2048x64_1_1_0_0_n_n.rhsIdx (ix2 p q) ((contrEquiv1 dot_S2048x1024_S64x1024_S2048x64_1_1_0_0_n_n 1024 rfl rfl).symm k) = ix2 q k := funext fun a => Fin.ext (by
    match a with
    | ⟨0, _⟩ => exact mm_proj0_r0 _ _
    | ⟨1, _⟩ => exact (mm_proj0_r1 _ _).trans hk)
  rw [el, er]

/-- The rounded activation block at an entry. -/
theorem pay1_0_apply (x : FVec Ideal S1x2048x1024 .f32) (l : Fin 2048) (d : Fin 1024) :
    k0_pay1 (F := Ideal) x (ix2 l d) = x (ix3 (0 : Fin 1) l d) := by
  unfold k0_pay1
  rw [shapeCast_self]
  rw [truncf_apply]
  exact shapeCast_1ab_ab_apply x _ l d

/-- The product block at an entry. -/
theorem pay2_0_apply (xs : FVec Ideal S2048x1024 .bf16) (w : FVec Ideal S64x1024 .bf16) (u : Fin 1) (l : Fin 2048) (k : Fin 64) :
    k0_pay2 (F := Ideal) xs w (ix3 u l k) = ∑ d : Fin 1024, xs (ix2 l d) * w (ix2 k d) := by
  unfold k0_pay2
  rw [shapeCast_ab_1ab_apply, truncf_apply, shapeCast_self]
  exact mm_proj0 xs w l k

/-- An array of the batch shape, and a weight matrix, as extended-real-valued functions. -/
abbrev arr3_0 (x : S4x2048x1024.Idx → EReal) : S4x2048x1024.Idx → EReal := x
abbrev mat_0 (x : S1024x1024.Idx → EReal) : S1024x1024.Idx → EReal := x

section Region
variable (V : (c : Dev nD) → (b : Ref sig .tc) → Buf (Elt Ideal) ((c : Thread nD τ).loc b))

/-- The two input windows' block indices at a point: the batch row; the head. -/
theorem idx0_0 : ∀ t : Fin cfg0.N, win0_0.index t (0 : Fin 3) = t.val / 16 ∧ win0_0.index t (1 : Fin 3) = 0 ∧ win0_0.index t (2 : Fin 3) = 0 :=
  (by decide +kernel : ∀ t : Fin grid0.N, win0_0.index t (0 : Fin 3) = t.val / 16 ∧ win0_0.index t (1 : Fin 3) = 0 ∧ win0_0.index t (2 : Fin 3) = 0)
theorem idx0_1 : ∀ t : Fin cfg0.N, win0_1.index t (0 : Fin 2) = t.val % 16 ∧ win0_1.index t (1 : Fin 2) = 0 :=
  (by decide +kernel : ∀ t : Fin grid0.N, win0_1.index t (0 : Fin 2) = t.val % 16 ∧ win0_1.index t (1 : Fin 2) = 0)

/-- The activation block of a point, at an entry: the array at the point's batch row. -/
theorem iblk0_0_apply (c : Dev nD) (t : Fin cfg0.N) (b : Fin 4) (hb : b.val = t.val / 16) (l : Fin 2048) (d : Fin 1024) :
    (iblk0 V c 0 t : Vec Ideal S1x2048x1024 .f32) (ix3 (0 : Fin 1) l d) = V c main_arg0 (ix3 b l d) := by
  obtain ⟨e0, e1, e2⟩ := idx0_0 t
  unfold iblk0
  rw [View.read_apply]
  show V c main_arg0 _ = V c main_arg0 _
  congr 1
  funext a; apply Fin.ext
  match a with
  | ⟨0, _⟩ => show win0_0.index t (0 : Fin 3) * 1 + 1 * 0 = b.val; omega
  | ⟨1, _⟩ => show win0_0.index t (1 : Fin 3) * 2048 + 1 * l.val = l.val; omega
  | ⟨2, _⟩ => show win0_0.index t (2 : Fin 3) * 1024 + 1 * d.val = d.val; omega

/-- The weight block of a point, at an entry: the head's 64 rows of the weight array. -/
theorem iblk0_1_apply (c : Dev nD) (t : Fin cfg0.N) (r : Fin 1024) (k : Fin 64) (hr : r.val = (t.val % 16) * 64 + k.val) (d : Fin 1024) :
    (iblk0 V c 1 t : Vec Ideal S64x1024 .bf16) (ix2 k d) = V c main_v0 (ix2 r d) := by
  obtain ⟨e0, e1⟩ := idx0_1 t
  unfold iblk0
  rw [View.read_apply]
  show V c main_v0 _ = V c main_v0 _
  congr 1
  funext a; apply Fin.ext
  match a with
  | ⟨0, _⟩ => show win0_1.index t (0 : Fin 2) * 64 + 1 * k.val = r.val; omega
  | ⟨1, _⟩ => show win0_1.index t (1 : Fin 2) * 1024 + 1 * d.val = d.val; omega

/-- THE PROJECTION, entry by entry. -/
theorem G0_sum (c : Dev nD) (j : S64x2048x64.Idx) (b : Fin 4) (hb : b.val = (j 0).val / 16) (r : Fin 1024) (hr : r.val = ((j 0).val % 16) * 64 + (j 2).val) :
    G0 V c j = ∑ d : Fin 1024, arr3_0 (V c main_arg0) (ix3 b (j 1) d) * mat_0 (V c main_v0) (ix2 r d) := by
  have hN : cfg0.N = 64 := N_0
  unfold G0
  rw [outsAt0_eq]
  dsimp only
  refine (pay2_0_apply _ _ (0 : Fin 1) (j 1) (j 2)).trans ?_
  refine Finset.sum_congr rfl fun d _ => ?_
  refine congrArg₂ (· * ·) ((pay1_0_apply _ (j 1) d).trans (iblk0_0_apply V c _ b (by show b.val = (16 * ((j 0).val / 16)) / 16; omega) (j 1) d))
    (iblk0_1_apply V c _ r (j 2) (by show r.val = ((j 0).val % 16) * 64 + (j 2).val; exact hr) d)

end Region

end Cert.KernelIdeal.Hand

end
-- ==== Proof.KiR1Val.lean ====
/-
  Call 1's result array as one function of the arrays it is entered with. After the body at point
  t (batch row t / 16, head t % 16) the output buffer holds the product of the rounded activation
  block of the row with the head's weight block; point t writes back block t of the result array,
  and the 64 blocks tile it.
-/
import proofs.«140923_j35270271435571_2_alg».proof.Proof.Gen.KernelIdeal.Launch
import proofs.«140923_j35270271435571_2_alg».proof.Proof.Gen.KernelIdeal.Skeleton
import proofs.«140923_j35270271435571_2_alg».proof.Proof.Gen.KernelIdeal.Points
import proofs.«140923_j35270271435571_2_alg».proof.Proof.KiR1Obl
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz3_1 : (![0, 0, 0] : Fin 3 → Nat) = fun _ => 0 := funext fun a => by fin_cases a <;> rfl
theorem hz2_1 : (![0, 0] : Fin 2 → Nat) = fun _ => 0 := funext fun a => by fin_cases a <;> rfl

/-- Any head but the first: the output buffer is left at the product of the scratch contents and the weight block. -/
theorem out1_B_eq (c : Dev nD) (i : grid1.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : ¬cond1_0 i)
    (x0 : Vec F S1x2048x1024 .f32) (x1 : Vec F S64x1024 .bf16) (xs0 : Vec F S2048x1024 .bf16) :
    out1_B c i arg2 harg2 arg3 harg3 arg4 harg4 arg5 harg5 hc0 x0 x1 xs0 = k1_pay2 xs0 x1 := by
  unfold out1_B
  rw [View.read_writes_eq_canon _ _ _ (cover1_B c i arg2 harg2 arg3 harg3 arg4 harg4 arg5 harg5 hc0 x0 x1 xs0)]
  unfold kernelRun1_B
  dsimp only
  rw [View.canon_unit_zero hz3_1]
  simp only [View.readAt_eq_ld, harg5.read_unread, harg3.read_unread, View.ld_unit_zero (S := S2048x1024) hz2_1, View.ld_unit_zero (S := S64x1024) hz2_1]

/-- The first head: the scratch is left at the rounded activation block, -/
theorem sout1_A_eq (c : Dev nD) (i : grid1.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond1_0 i)
    (x0 : Vec F S1x2048x1024 .f32) (x1 : Vec F S64x1024 .bf16) :
    sout1_A c i arg2 harg2 arg3 harg3 arg4 harg4 arg5 harg5 hc0 x0 x1 = k1_pay1 x0 := by
  unfold sout1_A
  rw [View.read_writes_eq_canon _ _ _ (scover1_A c i arg2 harg2 arg3 harg3 arg4 harg4 arg5 harg5 hc0 x0 x1)]
  unfold kernelRun1_A
  dsimp only
  sl_unfold_words
  rw [View.canon_unit_zero hz2_1]
  simp only [View.readAt_eq_ld, harg2.read_unread, View.ld_unit_zero (S := S1x2048x1024) hz3_1]

/-- and the output buffer at its product with the weight block. -/
theorem out1_A_eq (c : Dev nD) (i : grid1.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond1_0 i)
    (x0 : Vec F S1x2048x1024 .f32) (x1 : Vec F S64x1024 .bf16) :
    out1_A c i arg2 harg2 arg3 harg3 arg4 harg4 arg5 harg5 hc0 x0 x1 = k1_pay2 (k1_pay1 x0) x1 := by
  unfold out1_A
  rw [View.read_writes_eq_canon _ _ _ (cover1_A c i arg2 harg2 arg3 harg3 arg4 harg4 arg5 harg5 hc0 x0 x1)]
  unfold kernelRun1_A
  dsimp only
  sl_unfold_words
  rw [View.canon_unit_zero hz3_1]
  simp only [View.readAt_eq_ld, harg2.read_unread, harg3.read_unread, View.readCov_unit_zero (S := S2048x1024) _ hz2_1, View.ld_unit_zero (S := S1x2048x1024) hz3_1, View.ld_unit_zero (S := S64x1024) hz2_1]

section Region
variable (V : (c : Dev nD) → (b : Ref sig .tc) → Buf (Elt F) ((c : Thread nD τ).loc b))

/-- The first point of the batch row of position `n`. -/
def row1 (n : ℕ) (h : n < cfg1.N) : Fin cfg1.N := ⟨16 * (n / 16), by have hN : cfg1.N = 64 := N_1; omega⟩

/-- What the buffers hold after position `n`, in closed form. -/
theorem outsAt1_eq (c : Dev nD) : ∀ (n : ℕ) (h : n < cfg1.N),
    outsAt1 V c n h = (k1_pay2 (k1_pay1 (iblk1 V c 0 (row1 n h))) (iblk1 V c 1 ⟨n, h⟩), k1_pay1 (iblk1 V c 0 (row1 n h)))
  | 0, h => by
    have e : row1 0 h = ⟨0, h⟩ := Fin.ext (by show 16 * (0 / 16) = 0; omega)
    rw [outsAt1_A V c ⟨0, h⟩ rfl, out1_A_eq, sout1_A_eq, e]
  | n + 1, h => by
    by_cases h0 : (n + 1) % 16 = 0
    · have e : row1 (n + 1) h = ⟨n + 1, h⟩ := Fin.ext (by show 16 * ((n + 1) / 16) = n + 1; omega)
      rw [outsAt1_A V c ⟨n + 1, h⟩ h0, out1_A_eq, sout1_A_eq, e]
    · have e : row1 (n + 1) h = row1 n (Nat.lt_of_succ_lt h) := Fin.ext (by show 16 * ((n + 1) / 16) = 16 * (n / 16); omega)
      rw [outsAt1_B V c ⟨n + 1, h⟩ h0, out1_B_eq]
      show (k1_pay2 (outsAt1 V c n _).2 _, (outsAt1 V c n _).2) = _
      rw [outsAt1_eq c n, e]

/-- The result array, index by index: block `j 0` is what point `j 0` left in the output buffer. -/
def G1 (c : Dev nD) : S64x2048x64.Idx → Elt F .bf16 :=
  fun j => (outsAt1 V c (j 0).val (lt_of_lt_of_eq (j 0).isLt N_1.symm)).1 (ix3 (0 : Fin 1) (j 1) (j 2))

theorem G1_apply (c : Dev nD) (j : S64x2048x64.Idx) (n : ℕ) (hn : n < cfg1.N) (e : (j 0).val = n) :
    G1 V c j = (outsAt1 V c n hn).1 (ix3 (0 : Fin 1) (j 1) (j 2)) := by subst e; rfl

/-- The output window's block index at point `t` is `(t, 0, 0)`. -/
theorem idx1_2 : ∀ t : Fin cfg1.N, win1_2.index t (0 : Fin 3) = t.val ∧ win1_2.index t (1 : Fin 3) = 0 ∧ win1_2.index t (2 : Fin 3) = 0 :=
  (by decide +kernel : ∀ t : Fin grid1.N, win1_2.index t (0 : Fin 3) = t.val ∧ win1_2.index t (1 : Fin 3) = 0 ∧ win1_2.index t (2 : Fin 3) = 0)

/-- What point `t` writes back is block `t` of the result array. -/
theorem flushed1_eq (c : Dev nD) (t : Fin cfg1.N) :
    (dat1 V c).flushed 2 t = ((cfg1.win 2).blk t).view.read (Elt F) (G1 V c) := by
  show (cfg1.win 2).cut (grid1.coords t) ((dat1 V c).after 2 t) = _
  rw [after1_2]
  obtain ⟨e0, e1, e2⟩ := idx1_2 t
  funext y
  show (outsAt1 V c t.val t.isLt).1 y = G1 V c (((cfg1.win 2).blk t).view.emb y)
  have hy0 : (y 0).val < 1 := (y 0).isLt
  have hy1 : (y 1).val < 2048 := (y 1).isLt
  have hy2 : (y 2).val < 64 := (y 2).isLt
  have i0 : ((((cfg1.win 2).blk t).view.emb y) 0).val = t.val := by
    show win1_2.index t (0 : Fin 3) * 1 + 1 * (y 0).val = t.val; omega
  rw [G1_apply V c _ t.val t.isLt i0]
  refine congrArg (outsAt1 V c t.val t.isLt).1 ?_
  funext a; apply Fin.ext
  match a with
  | ⟨0, _⟩ => show (y 0).val = 0; omega
  | ⟨1, _⟩ => show (y 1).val = win1_2.index t (1 : Fin 3) * 2048 + 1 * (y 1).val; omega
  | ⟨2, _⟩ => show (y 2).val = win1_2.index t (2 : Fin 3) * 64 + 1 * (y 2).val; omega

theorem mem_blk1_2 (t : Fin cfg1.N) (i : S64x2048x64.Idx) :
    i ∈ ((cfg1.win 2).blk t).view.set ↔ ∀ a : Fin 3, win1_2.index t a * S1x2048x64.size a ≤ (i a).val ∧ (i a).val < win1_2.index t a * S1x2048x64.size a + S1x2048x64.size a := by
  show i ∈ ((View.whole main_v6).slice (win1_2.rect t)).set ↔ _
  rw [View.set_slice_whole, Rect.mem_set_unit]
  exact Iff.rfl

/-- The result array after the run. -/
theorem final1 (c : Dev nD) : (dat1 V c).arrAt 2 cfg1.N = G1 V c :=
  (dat1 V c).arrAt_eq_of_cover 2 (G1 V c) (fun t _ => flushed1_eq V c t) fun i => by
    have hi0 : (i 0).val < 64 := (i 0).isLt
    have hi1 : (i 1).val < 2048 := (i 1).isLt
    have hi2 : (i 2).val < 64 := (i 2).isLt
    refine ⟨⟨(i 0).val, lt_of_lt_of_eq (i 0).isLt N_1.symm⟩, flush1_2 _, ?_⟩
    rw [mem_blk1_2]
    obtain ⟨e0', e1, e2⟩ := idx1_2 ⟨(i 0).val, lt_of_lt_of_eq (i 0).isLt N_1.symm⟩
    have e0 : win1_2.index ⟨(i 0).val, lt_of_lt_of_eq (i 0).isLt N_1.symm⟩ (0 : Fin 3) = (i 0).val := e0'
    intro a
    match a with
    | ⟨0, _⟩ => show win1_2.index _ (0 : Fin 3) * 1 ≤ (i 0).val ∧ (i 0).val < win1_2.index _ (0 : Fin 3) * 1 + 1; rw [e0]; omega
    | ⟨1, _⟩ => show win1_2.index _ (1 : Fin 3) * 2048 ≤ (i 1).val ∧ (i 1).val < win1_2.index _ (1 : Fin 3) * 2048 + 2048; rw [e1]; omega
    | ⟨2, _⟩ => show win1_2.index _ (2 : Fin 3) * 64 ≤ (i 2).val ∧ (i 2).val < win1_2.index _ (2 : Fin 3) * 64 + 64; rw [e2]; omega

end Region

end Cert.KernelIdeal.Hand

end
-- ==== Proof.KiR1Idx.lean ====
/-
  Call 1's result array, entry by entry, at the ideal instance: entry (16 b + h, l, k) is the dot
  product over the model dimension of row l of batch b of the activation array with row 64 h + k of
  the weight array (rounding to bf16 is the identity on extended reals; the reshapes drop or add a
  unit axis).
-/
import proofs.«140923_j35270271435571_2_alg».proof.Proof.KiR1Val
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem mm_proj1_l0 (i : S2048x64.Idx) (q : dot_S2048x1024_S64x1024_S2048x64_1_1_0_0_n_n.contr.Idx) :
    (dot_S2048x1024_S64x1024_S2048x64_1_1_0_0_n_n.lhsIdx i q 0).val = (i 0).val := by
  unfold DotDims.lhsIdx
  rw [dif_neg (show ¬(0 : Fin S2048x1024.rank) ∈ dot_S2048x1024_S64x1024_S2048x64_1_1_0_0_n_n.lhsBatch by decide), dif_pos (show (0 : Fin S2048x1024.rank) ∈ dot_S2048x1024_S64x1024_S2048x64_1_1_0_0_n_n.lhsNonContracting by decide)]
  rfl
theorem mm_proj1_l1 (i : S2048x64.Idx) (q : dot_S2048x1024_S64x1024_S2048x64_1_1_0_0_n_n.contr.Idx) :
    (dot_S2048x1024_S64x1024_S2048x64_1_1_0_0_n_n.lhsIdx i q 1).val = (q ⟨0, by decide⟩).val :=
  dot_S2048x1024_S64x1024_S2048x64_1_1_0_0_n_n.lhsIdx_val_of_single rfl i q
theorem mm_proj1_r0 (i : S2048x64.Idx) (q : dot_S2048x1024_S64x1024_S2048x64_1_1_0_0_n_n.contr.Idx) :
    (dot_S2048x1024_S64x1024_S2048x64_1_1_0_0_n_n.rhsIdx i q 0).val = (i 1).val := by
  unfold DotDims.rhsIdx
  rw [dif_neg (show ¬(0 : Fin S64x1024.rank) ∈ dot_S2048x1024_S64x1024_S2048x64_1_1_0_0_n_n.rhsBatch by decide), dif_pos (show (0 : Fin S64x1024.rank) ∈ dot_S2048x1024_S64x1024_S2048x64_1_1_0_0_n_n.rhsNonContracting by decide)]
  rfl
theorem mm_proj1_r1 (i : S2048x64.Idx) (q : dot_S2048x1024_S64x1024_S2048x64_1_1_0_0_n_n.contr.Idx) :
    (dot_S2048x1024_S64x1024_S2048x64_1_1_0_0_n_n.rhsIdx i q 1).val = (q ⟨0, by decide⟩).val :=
  dot_S2048x1024_S64x1024_S2048x64_1_1_0_0_n_n.rhsIdx_val_of_single rfl i q
theorem mm_proj1 (Lh : FVec Ideal S2048x1024 .bf16) (Rh : FVec Ideal S64x1024 .bf16) (p : Fin 2048) (q : Fin 64) :
    matmul dot_S2048x1024_S64x1024_S2048x64_1_1_0_0_n_n none Lh Rh (constant (F := Ideal) S2048x64 .f32 0x00000000#32) (ix2 p q)
      = ∑ k : Fin 1024, Lh (ix2 p k) * Rh (ix2 q k) := by
  simp only [matmul]
  rw [Ideal.matmul_constant_zero_apply, ← Equiv.sum_comp (contrEquiv1 dot_S2048x1024_S64x1024_S2048x64_1_1_0_0_n_n 1024 rfl rfl).symm]
  refine Finset.sum_congr rfl fun k _ => ?_
  have hk := contrEquiv1_symm_val dot_S2048x1024_S64x1024_S2048x64_1_1_0_0_n_n 1024 rfl rfl k
  have el : dot_S2048x1024_S64x1024_S2048x64_1_1_0_0_n_n.lhsIdx (ix2 p q) ((contrEquiv1 dot_S2048x1024_S64x1024_S2048x64_1_1_0_0_n_n 1024 rfl rfl).symm k) = ix2 p k := funext fun a => Fin.ext (by
    match a with
    | ⟨0, _⟩ => exact mm_proj1_l0 _ _
    | ⟨1, _⟩ => exact (mm_proj1_l1 _ _).trans hk)
  have er : dot_S2048x1024_S64x1024_S2048x64_1_1_0_0_n_n.rhsIdx (ix2 p q) ((contrEquiv1 dot_S2048x1024_S64x1024_S2048x64_1_1_0_0_n_n 1024 rfl rfl).symm k) = ix2 q k := funext fun a => Fin.ext (by
    match a with
    | ⟨0, _⟩ => exact mm_proj1_r0 _ _
    | ⟨1, _⟩ => exact (mm_proj1_r1 _ _).trans hk)
  rw [el, er]

/-- The rounded activation block at an entry. -/
theorem pay1_1_apply (x : FVec Ideal S1x2048x1024 .f32) (l : Fin 2048) (d : Fin 1024) :
    k1_pay1 (F := Ideal) x (ix2 l d) = x (ix3 (0 : Fin 1) l d) := by
  unfold k1_pay1
  rw [shapeCast_self]
  rw [truncf_apply]
  exact shapeCast_1ab_ab_apply x _ l d

/-- The product block at an entry. -/
theorem pay2_1_apply (xs : FVec Ideal S2048x1024 .bf16) (w : FVec Ideal S64x1024 .bf16) (u : Fin 1) (l : Fin 2048) (k : Fin 64) :
    k1_pay2 (F := Ideal) xs w (ix3 u l k) = ∑ d : Fin 1024, xs (ix2 l d) * w (ix2 k d) := by
  unfold k1_pay2
  rw [shapeCast_ab_1ab_apply, truncf_apply, shapeCast_self]
  exact mm_proj1 xs w l k

/-- An array of the batch shape, and a weight matrix, as extended-real-valued functions. -/
abbrev arr3_1 (x : S4x2048x1024.Idx → EReal) : S4x2048x1024.Idx → EReal := x
abbrev mat_1 (x : S1024x1024.Idx → EReal) : S1024x1024.Idx → EReal := x

section Region
variable (V : (c : Dev nD) → (b : Ref sig .tc) → Buf (Elt Ideal) ((c : Thread nD τ).loc b))

/-- The two input windows' block indices at a point: the batch row; the head. -/
theorem idx1_0 : ∀ t : Fin cfg1.N, win1_0.index t (0 : Fin 3) = t.val / 16 ∧ win1_0.index t (1 : Fin 3) = 0 ∧ win1_0.index t (2 : Fin 3) = 0 :=
  (by decide +kernel : ∀ t : Fin grid1.N, win1_0.index t (0 : Fin 3) = t.val / 16 ∧ win1_0.index t (1 : Fin 3) = 0 ∧ win1_0.index t (2 : Fin 3) = 0)
theorem idx1_1 : ∀ t : Fin cfg1.N, win1_1.index t (0 : Fin 2) = t.val % 16 ∧ win1_1.index t (1 : Fin 2) = 0 :=
  (by decide +kernel : ∀ t : Fin grid1.N, win1_1.index t (0 : Fin 2) = t.val % 16 ∧ win1_1.index t (1 : Fin 2) = 0)

/-- The activation block of a point, at an entry: the array at the point's batch row. -/
theorem iblk1_0_apply (c : Dev nD) (t : Fin cfg1.N) (b : Fin 4) (hb : b.val = t.val / 16) (l : Fin 2048) (d : Fin 1024) :
    (iblk1 V c 0 t : Vec Ideal S1x2048x1024 .f32) (ix3 (0 : Fin 1) l d) = V c main_arg1 (ix3 b l d) := by
  obtain ⟨e0, e1, e2⟩ := idx1_0 t
  unfold iblk1
  rw [View.read_apply]
  show V c main_arg1 _ = V c main_arg1 _
  congr 1
  funext a; apply Fin.ext
  match a with
  | ⟨0, _⟩ => show win1_0.index t (0 : Fin 3) * 1 + 1 * 0 = b.val; omega
  | ⟨1, _⟩ => show win1_0.index t (1 : Fin 3) * 2048 + 1 * l.val = l.val; omega
  | ⟨2, _⟩ => show win1_0.index t (2 : Fin 3) * 1024 + 1 * d.val = d.val; omega

/-- The weight block of a point, at an entry: the head's 64 rows of the weight array. -/
theorem iblk1_1_apply (c : Dev nD) (t : Fin cfg1.N) (r : Fin 1024) (k : Fin 64) (hr : r.val = (t.val % 16) * 64 + k.val) (d : Fin 1024) :
    (iblk1 V c 1 t : Vec Ideal S64x1024 .bf16) (ix2 k d) = V c main_v1 (ix2 r d) := by
  obtain ⟨e0, e1⟩ := idx1_1 t
  unfold iblk1
  rw [View.read_apply]
  show V c main_v1 _ = V c main_v1 _
  congr 1
  funext a; apply Fin.ext
  match a with
  | ⟨0, _⟩ => show win1_1.index t (0 : Fin 2) * 64 + 1 * k.val = r.val; omega
  | ⟨1, _⟩ => show win1_1.index t (1 : Fin 2) * 1024 + 1 * d.val = d.val; omega

/-- THE PROJECTION, entry by entry. -/
theorem G1_sum (c : Dev nD) (j : S64x2048x64.Idx) (b : Fin 4) (hb : b.val = (j 0).val / 16) (r : Fin 1024) (hr : r.val = ((j 0).val % 16) * 64 + (j 2).val) :
    G1 V c j = ∑ d : Fin 1024, arr3_1 (V c main_arg1) (ix3 b (j 1) d) * mat_1 (V c main_v1) (ix2 r d) := by
  have hN : cfg1.N = 64 := N_1
  unfold G1
  rw [outsAt1_eq]
  dsimp only
  refine (pay2_1_apply _ _ (0 : Fin 1) (j 1) (j 2)).trans ?_
  refine Finset.sum_congr rfl fun d _ => ?_
  refine congrArg₂ (· * ·) ((pay1_1_apply _ (j 1) d).trans (iblk1_0_apply V c _ b (by show b.val = (16 * ((j 0).val / 16)) / 16; omega) (j 1) d))
    (iblk1_1_apply V c _ r (j 2) (by show r.val = ((j 0).val % 16) * 64 + (j 2).val; exact hr) d)

end Region

end Cert.KernelIdeal.Hand

end
-- ==== Proof.KiR2Val.lean ====
/-
  Call 2's result array as one function of the arrays it is entered with. After the body at point
  t (batch row t / 16, head t % 16) the output buffer holds the product of the rounded activation
  block of the row with the head's weight block; point t writes back block t of the result array,
  and the 64 blocks tile it.
-/
import proofs.«140923_j35270271435571_2_alg».proof.Proof.Gen.KernelIdeal.Launch
import proofs.«140923_j35270271435571_2_alg».proof.Proof.Gen.KernelIdeal.Skeleton
import proofs.«140923_j35270271435571_2_alg».proof.Proof.Gen.KernelIdeal.Points
import proofs.«140923_j35270271435571_2_alg».proof.Proof.KiR2Obl
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz3_2 : (![0, 0, 0] : Fin 3 → Nat) = fun _ => 0 := funext fun a => by fin_cases a <;> rfl
theorem hz2_2 : (![0, 0] : Fin 2 → Nat) = fun _ => 0 := funext fun a => by fin_cases a <;> rfl

/-- Any head but the first: the output buffer is left at the product of the scratch contents and the weight block. -/
theorem out2_B_eq (c : Dev nD) (i : grid2.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : ¬cond2_0 i)
    (x0 : Vec F S1x2048x1024 .f32) (x1 : Vec F S64x1024 .bf16) (xs0 : Vec F S2048x1024 .bf16) :
    out2_B c i arg2 harg2 arg3 harg3 arg4 harg4 arg5 harg5 hc0 x0 x1 xs0 = k2_pay2 xs0 x1 := by
  unfold out2_B
  rw [View.read_writes_eq_canon _ _ _ (cover2_B c i arg2 harg2 arg3 harg3 arg4 harg4 arg5 harg5 hc0 x0 x1 xs0)]
  unfold kernelRun2_B
  dsimp only
  rw [View.canon_unit_zero hz3_2]
  simp only [View.readAt_eq_ld, harg5.read_unread, harg3.read_unread, View.ld_unit_zero (S := S2048x1024) hz2_2, View.ld_unit_zero (S := S64x1024) hz2_2]

/-- The first head: the scratch is left at the rounded activation block, -/
theorem sout2_A_eq (c : Dev nD) (i : grid2.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond2_0 i)
    (x0 : Vec F S1x2048x1024 .f32) (x1 : Vec F S64x1024 .bf16) :
    sout2_A c i arg2 harg2 arg3 harg3 arg4 harg4 arg5 harg5 hc0 x0 x1 = k2_pay1 x0 := by
  unfold sout2_A
  rw [View.read_writes_eq_canon _ _ _ (scover2_A c i arg2 harg2 arg3 harg3 arg4 harg4 arg5 harg5 hc0 x0 x1)]
  unfold kernelRun2_A
  dsimp only
  sl_unfold_words
  rw [View.canon_unit_zero hz2_2]
  simp only [View.readAt_eq_ld, harg2.read_unread, View.ld_unit_zero (S := S1x2048x1024) hz3_2]

/-- and the output buffer at its product with the weight block. -/
theorem out2_A_eq (c : Dev nD) (i : grid2.Coords) (arg2 : Memref sig .tc .vmem S1x2048x1024 .f32) (harg2 : arg2.IsWhole) (arg3 : Memref sig .tc .vmem S64x1024 .bf16) (harg3 : arg3.IsWhole) (arg4 : Memref sig .tc .vmem S1x2048x64 .bf16) (harg4 : arg4.IsWhole) (arg5 : Memref sig .tc .vmem S2048x1024 .bf16) (harg5 : arg5.IsWhole) (hc0 : cond2_0 i)
    (x0 : Vec F S1x2048x1024 .f32) (x1 : Vec F S64x1024 .bf16) :
    out2_A c i arg2 harg2 arg3 harg3 arg4 harg4 arg5 harg5 hc0 x0 x1 = k2_pay2 (k2_pay1 x0) x1 := by
  unfold out2_A
  rw [View.read_writes_eq_canon _ _ _ (cover2_A c i arg2 harg2 arg3 harg3 arg4 harg4 arg5 harg5 hc0 x0 x1)]
  unfold kernelRun2_A
  dsimp only
  sl_unfold_words
  rw [View.canon_unit_zero hz3_2]
  simp only [View.readAt_eq_ld, harg2.read_unread, harg3.read_unread, View.readCov_unit_zero (S := S2048x1024) _ hz2_2, View.ld_unit_zero (S := S1x2048x1024) hz3_2, View.ld_unit_zero (S := S64x1024) hz2_2]

section Region
variable (V : (c : Dev nD) → (b : Ref sig .tc) → Buf (Elt F) ((c : Thread nD τ).loc b))

/-- The first point of the batch row of position `n`. -/
def row2 (n : ℕ) (h : n < cfg2.N) : Fin cfg2.N := ⟨16 * (n / 16), by have hN : cfg2.N = 64 := N_2; omega⟩

/-- What the buffers hold after position `n`, in closed form. -/
theorem outsAt2_eq (c : Dev nD) : ∀ (n : ℕ) (h : n < cfg2.N),
    outsAt2 V c n h = (k2_pay2 (k2_pay1 (iblk2 V c 0 (row2 n h))) (iblk2 V c 1 ⟨n, h⟩), k2_pay1 (iblk2 V c 0 (row2 n h)))
  | 0, h => by
    have e : row2 0 h = ⟨0, h⟩ := Fin.ext (by show 16 * (0 / 16) = 0; omega)
    rw [outsAt2_A V c ⟨0, h⟩ rfl, out2_A_eq, sout2_A_eq, e]
  | n + 1, h => by
    by_cases h0 : (n + 1) % 16 = 0
    · have e : row2 (n + 1) h = ⟨n + 1, h⟩ := Fin.ext (by show 16 * ((n + 1) / 16) = n + 1; omega)
      rw [outsAt2_A V c ⟨n + 1, h⟩ h0, out2_A_eq, sout2_A_eq, e]
    · have e : row2 (n + 1) h = row2 n (Nat.lt_of_succ_lt h) := Fin.ext (by show 16 * ((n + 1) / 16) = 16 * (n / 16); omega)
      rw [outsAt2_B V c ⟨n + 1, h⟩ h0, out2_B_eq]
      show (k2_pay2 (outsAt2 V c n _).2 _, (outsAt2 V c n _).2) = _
      rw [outsAt2_eq c n, e]

/-- The result array, index by index: block `j 0` is what point `j 0` left in the output buffer. -/
def G2 (c : Dev nD) : S64x2048x64.Idx → Elt F .bf16 :=
  fun j => (outsAt2 V c (j 0).val (lt_of_lt_of_eq (j 0).isLt N_2.symm)).1 (ix3 (0 : Fin 1) (j 1) (j 2))

theorem G2_apply (c : Dev nD) (j : S64x2048x64.Idx) (n : ℕ) (hn : n < cfg2.N) (e : (j 0).val = n) :
    G2 V c j = (outsAt2 V c n hn).1 (ix3 (0 : Fin 1) (j 1) (j 2)) := by subst e; rfl

/-- The output window's block index at point `t` is `(t, 0, 0)`. -/
theorem idx2_2 : ∀ t : Fin cfg2.N, win2_2.index t (0 : Fin 3) = t.val ∧ win2_2.index t (1 : Fin 3) = 0 ∧ win2_2.index t (2 : Fin 3) = 0 :=
  (by decide +kernel : ∀ t : Fin grid2.N, win2_2.index t (0 : Fin 3) = t.val ∧ win2_2.index t (1 : Fin 3) = 0 ∧ win2_2.index t (2 : Fin 3) = 0)

/-- What point `t` writes back is block `t` of the result array. -/
theorem flushed2_eq (c : Dev nD) (t : Fin cfg2.N) :
    (dat2 V c).flushed 2 t = ((cfg2.win 2).blk t).view.read (Elt F) (G2 V c) := by
  show (cfg2.win 2).cut (grid2.coords t) ((dat2 V c).after 2 t) = _
  rw [after2_2]
  obtain ⟨e0, e1, e2⟩ := idx2_2 t
  funext y
  show (outsAt2 V c t.val t.isLt).1 y = G2 V c (((cfg2.win 2).blk t).view.emb y)
  have hy0 : (y 0).val < 1 := (y 0).isLt
  have hy1 : (y 1).val < 2048 := (y 1).isLt
  have hy2 : (y 2).val < 64 := (y 2).isLt
  have i0 : ((((cfg2.win 2).blk t).view.emb y) 0).val = t.val := by
    show win2_2.index t (0 : Fin 3) * 1 + 1 * (y 0).val = t.val; omega
  rw [G2_apply V c _ t.val t.isLt i0]
  refine congrArg (outsAt2 V c t.val t.isLt).1 ?_
  funext a; apply Fin.ext
  match a with
  | ⟨0, _⟩ => show (y 0).val = 0; omega
  | ⟨1, _⟩ => show (y 1).val = win2_2.index t (1 : Fin 3) * 2048 + 1 * (y 1).val; omega
  | ⟨2, _⟩ => show (y 2).val = win2_2.index t (2 : Fin 3) * 64 + 1 * (y 2).val; omega

theorem mem_blk2_2 (t : Fin cfg2.N) (i : S64x2048x64.Idx) :
    i ∈ ((cfg2.win 2).blk t).view.set ↔ ∀ a : Fin 3, win2_2.index t a * S1x2048x64.size a ≤ (i a).val ∧ (i a).val < win2_2.index t a * S1x2048x64.size a + S1x2048x64.size a := by
  show i ∈ ((View.whole main_v7).slice (win2_2.rect t)).set ↔ _
  rw [View.set_slice_whole, Rect.mem_set_unit]
  exact Iff.rfl

/-- The result array after the run. -/
theorem final2 (c : Dev nD) : (dat2 V c).arrAt 2 cfg2.N = G2 V c :=
  (dat2 V c).arrAt_eq_of_cover 2 (G2 V c) (fun t _ => flushed2_eq V c t) fun i => by
    have hi0 : (i 0).val < 64 := (i 0).isLt
    have hi1 : (i 1).val < 2048 := (i 1).isLt
    have hi2 : (i 2).val < 64 := (i 2).isLt
    refine ⟨⟨(i 0).val, lt_of_lt_of_eq (i 0).isLt N_2.symm⟩, flush2_2 _, ?_⟩
    rw [mem_blk2_2]
    obtain ⟨e0', e1, e2⟩ := idx2_2 ⟨(i 0).val, lt_of_lt_of_eq (i 0).isLt N_2.symm⟩
    have e0 : win2_2.index ⟨(i 0).val, lt_of_lt_of_eq (i 0).isLt N_2.symm⟩ (0 : Fin 3) = (i 0).val := e0'
    intro a
    match a with
    | ⟨0, _⟩ => show win2_2.index _ (0 : Fin 3) * 1 ≤ (i 0).val ∧ (i 0).val < win2_2.index _ (0 : Fin 3) * 1 + 1; rw [e0]; omega
    | ⟨1, _⟩ => show win2_2.index _ (1 : Fin 3) * 2048 ≤ (i 1).val ∧ (i 1).val < win2_2.index _ (1 : Fin 3) * 2048 + 2048; rw [e1]; omega
    | ⟨2, _⟩ => show win2_2.index _ (2 : Fin 3) * 64 ≤ (i 2).val ∧ (i 2).val < win2_2.index _ (2 : Fin 3) * 64 + 64; rw [e2]; omega

end Region

end Cert.KernelIdeal.Hand

end
-- ==== Proof.KiR2Idx.lean ====
/-
  Call 2's result array, entry by entry, at the ideal instance: entry (16 b + h, l, k) is the dot
  product over the model dimension of row l of batch b of the activation array with row 64 h + k of
  the weight array (rounding to bf16 is the identity on extended reals; the reshapes drop or add a
  unit axis).
-/
import proofs.«140923_j35270271435571_2_alg».proof.Proof.KiR2Val
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem mm_proj2_l0 (i : S2048x64.Idx) (q : dot_S2048x1024_S64x1024_S2048x64_1_1_0_0_n_n.contr.Idx) :
    (dot_S2048x1024_S64x1024_S2048x64_1_1_0_0_n_n.lhsIdx i q 0).val = (i 0).val := by
  unfold DotDims.lhsIdx
  rw [dif_neg (show ¬(0 : Fin S2048x1024.rank) ∈ dot_S2048x1024_S64x1024_S2048x64_1_1_0_0_n_n.lhsBatch by decide), dif_pos (show (0 : Fin S2048x1024.rank) ∈ dot_S2048x1024_S64x1024_S2048x64_1_1_0_0_n_n.lhsNonContracting by decide)]
  rfl
theorem mm_proj2_l1 (i : S2048x64.Idx) (q : dot_S2048x1024_S64x1024_S2048x64_1_1_0_0_n_n.contr.Idx) :
    (dot_S2048x1024_S64x1024_S2048x64_1_1_0_0_n_n.lhsIdx i q 1).val = (q ⟨0, by decide⟩).val :=
  dot_S2048x1024_S64x1024_S2048x64_1_1_0_0_n_n.lhsIdx_val_of_single rfl i q
theorem mm_proj2_r0 (i : S2048x64.Idx) (q : dot_S2048x1024_S64x1024_S2048x64_1_1_0_0_n_n.contr.Idx) :
    (dot_S2048x1024_S64x1024_S2048x64_1_1_0_0_n_n.rhsIdx i q 0).val = (i 1).val := by
  unfold DotDims.rhsIdx
  rw [dif_neg (show ¬(0 : Fin S64x1024.rank) ∈ dot_S2048x1024_S64x1024_S2048x64_1_1_0_0_n_n.rhsBatch by decide), dif_pos (show (0 : Fin S64x1024.rank) ∈ dot_S2048x1024_S64x1024_S2048x64_1_1_0_0_n_n.rhsNonContracting by decide)]
  rfl
theorem mm_proj2_r1 (i : S2048x64.Idx) (q : dot_S2048x1024_S64x1024_S2048x64_1_1_0_0_n_n.contr.Idx) :
    (dot_S2048x1024_S64x1024_S2048x64_1_1_0_0_n_n.rhsIdx i q 1).val = (q ⟨0, by decide⟩).val :=
  dot_S2048x1024_S64x1024_S2048x64_1_1_0_0_n_n.rhsIdx_val_of_single rfl i q
theorem mm_proj2 (Lh : FVec Ideal S2048x1024 .bf16) (Rh : FVec Ideal S64x1024 .bf16) (p : Fin 2048) (q : Fin 64) :
    matmul dot_S2048x1024_S64x1024_S2048x64_1_1_0_0_n_n none Lh Rh (constant (F := Ideal) S2048x64 .f32 0x00000000#32) (ix2 p q)
      = ∑ k : Fin 1024, Lh (ix2 p k) * Rh (ix2 q k) := by
  simp only [matmul]
  rw [Ideal.matmul_constant_zero_apply, ← Equiv.sum_comp (contrEquiv1 dot_S2048x1024_S64x1024_S2048x64_1_1_0_0_n_n 1024 rfl rfl).symm]
  refine Finset.sum_congr rfl fun k _ => ?_
  have hk := contrEquiv1_symm_val dot_S2048x1024_S64x1024_S2048x64_1_1_0_0_n_n 1024 rfl rfl k
  have el : dot_S2048x1024_S64x1024_S2048x64_1_1_0_0_n_n.lhsIdx (ix2 p q) ((contrEquiv1 dot_S2048x1024_S64x1024_S2048x64_1_1_0_0_n_n 1024 rfl rfl).symm k) = ix2 p k := funext fun a => Fin.ext (by
    match a with
    | ⟨0, _⟩ => exact mm_proj2_l0 _ _
    | ⟨1, _⟩ => exact (mm_proj2_l1 _ _).trans hk)
  have er : dot_S2048x1024_S64x1024_S2048x64_1_1_0_0_n_n.rhsIdx (ix2 p q) ((contrEquiv1 dot_S2048x1024_S64x1024_S2048x64_1_1_0_0_n_n 1024 rfl rfl).symm k) = ix2 q k := funext fun a => Fin.ext (by
    match a with
    | ⟨0, _⟩ => exact mm_proj2_r0 _ _
    | ⟨1, _⟩ => exact (mm_proj2_r1 _ _).trans hk)
  rw [el, er]

/-- The rounded activation block at an entry. -/
theorem pay1_2_apply (x : FVec Ideal S1x2048x1024 .f32) (l : Fin 2048) (d : Fin 1024) :
    k2_pay1 (F := Ideal) x (ix2 l d) = x (ix3 (0 : Fin 1) l d) := by
  unfold k2_pay1
  rw [shapeCast_self]
  rw [truncf_apply]
  exact shapeCast_1ab_ab_apply x _ l d

/-- The product block at an entry. -/
theorem pay2_2_apply (xs : FVec Ideal S2048x1024 .bf16) (w : FVec Ideal S64x1024 .bf16) (u : Fin 1) (l : Fin 2048) (k : Fin 64) :
    k2_pay2 (F := Ideal) xs w (ix3 u l k) = ∑ d : Fin 1024, xs (ix2 l d) * w (ix2 k d) := by
  unfold k2_pay2
  rw [shapeCast_ab_1ab_apply, truncf_apply, shapeCast_self]
  exact mm_proj2 xs w l k

/-- An array of the batch shape, and a weight matrix, as extended-real-valued functions. -/
abbrev arr3_2 (x : S4x2048x1024.Idx → EReal) : S4x2048x1024.Idx → EReal := x
abbrev mat_2 (x : S1024x1024.Idx → EReal) : S1024x1024.Idx → EReal := x

section Region
variable (V : (c : Dev nD) → (b : Ref sig .tc) → Buf (Elt Ideal) ((c : Thread nD τ).loc b))

/-- The two input windows' block indices at a point: the batch row; the head. -/
theorem idx2_0 : ∀ t : Fin cfg2.N, win2_0.index t (0 : Fin 3) = t.val / 16 ∧ win2_0.index t (1 : Fin 3) = 0 ∧ win2_0.index t (2 : Fin 3) = 0 :=
  (by decide +kernel : ∀ t : Fin grid2.N, win2_0.index t (0 : Fin 3) = t.val / 16 ∧ win2_0.index t (1 : Fin 3) = 0 ∧ win2_0.index t (2 : Fin 3) = 0)
theorem idx2_1 : ∀ t : Fin cfg2.N, win2_1.index t (0 : Fin 2) = t.val % 16 ∧ win2_1.index t (1 : Fin 2) = 0 :=
  (by decide +kernel : ∀ t : Fin grid2.N, win2_1.index t (0 : Fin 2) = t.val % 16 ∧ win2_1.index t (1 : Fin 2) = 0)

/-- The activation block of a point, at an entry: the array at the point's batch row. -/
theorem iblk2_0_apply (c : Dev nD) (t : Fin cfg2.N) (b : Fin 4) (hb : b.val = t.val / 16) (l : Fin 2048) (d : Fin 1024) :
    (iblk2 V c 0 t : Vec Ideal S1x2048x1024 .f32) (ix3 (0 : Fin 1) l d) = V c main_arg2 (ix3 b l d) := by
  obtain ⟨e0, e1, e2⟩ := idx2_0 t
  unfold iblk2
  rw [View.read_apply]
  show V c main_arg2 _ = V c main_arg2 _
  congr 1
  funext a; apply Fin.ext
  match a with
  | ⟨0, _⟩ => show win2_0.index t (0 : Fin 3) * 1 + 1 * 0 = b.val; omega
  | ⟨1, _⟩ => show win2_0.index t (1 : Fin 3) * 2048 + 1 * l.val = l.val; omega
  | ⟨2, _⟩ => show win2_0.index t (2 : Fin 3) * 1024 + 1 * d.val = d.val; omega

/-- The weight block of a point, at an entry: the head's 64 rows of the weight array. -/
theorem iblk2_1_apply (c : Dev nD) (t : Fin cfg2.N) (r : Fin 1024) (k : Fin 64) (hr : r.val = (t.val % 16) * 64 + k.val) (d : Fin 1024) :
    (iblk2 V c 1 t : Vec Ideal S64x1024 .bf16) (ix2 k d) = V c main_v2 (ix2 r d) := by
  obtain ⟨e0, e1⟩ := idx2_1 t
  unfold iblk2
  rw [View.read_apply]
  show V c main_v2 _ = V c main_v2 _
  congr 1
  funext a; apply Fin.ext
  match a with
  | ⟨0, _⟩ => show win2_1.index t (0 : Fin 2) * 64 + 1 * k.val = r.val; omega
  | ⟨1, _⟩ => show win2_1.index t (1 : Fin 2) * 1024 + 1 * d.val = d.val; omega

/-- THE PROJECTION, entry by entry. -/
theorem G2_sum (c : Dev nD) (j : S64x2048x64.Idx) (b : Fin 4) (hb : b.val = (j 0).val / 16) (r : Fin 1024) (hr : r.val = ((j 0).val % 16) * 64 + (j 2).val) :
    G2 V c j = ∑ d : Fin 1024, arr3_2 (V c main_arg2) (ix3 b (j 1) d) * mat_2 (V c main_v2) (ix2 r d) := by
  have hN : cfg2.N = 64 := N_2
  unfold G2
  rw [outsAt2_eq]
  dsimp only
  refine (pay2_2_apply _ _ (0 : Fin 1) (j 1) (j 2)).trans ?_
  refine Finset.sum_congr rfl fun d _ => ?_
  refine congrArg₂ (· * ·) ((pay1_2_apply _ (j 1) d).trans (iblk2_0_apply V c _ b (by show b.val = (16 * ((j 0).val / 16)) / 16; omega) (j 1) d))
    (iblk2_1_apply V c _ r (j 2) (by show r.val = ((j 0).val % 16) * 64 + (j 2).val; exact hr) d)

end Region

end Cert.KernelIdeal.Hand

end
-- ==== Proof.KiR3Val.lean ====
/-
  Call 3's two result arrays as functions of the arrays it is entered with. At point t (row tile
  t / 16, head t % 16) the attention-weights buffer is left at the head's softmax block; the
  accumulator is left at the running sum of the heads' output-projection contributions, starting
  from the zero block at head 0; at head 15 that sum is stored into the output buffer. Each point
  writes back one block of the attention weights; the points of head 15 write back the output's
  row tiles. Both families of blocks tile their arrays.
-/
import proofs.«140923_j35270271435571_2_alg».proof.Proof.Gen.KernelIdeal.Launch
import proofs.«140923_j35270271435571_2_alg».proof.Proof.Gen.KernelIdeal.Skeleton
import proofs.«140923_j35270271435571_2_alg».proof.Proof.Gen.KernelIdeal.Points
import proofs.«140923_j35270271435571_2_alg».proof.Proof.KiR3Dat
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz3 : (![0, 0, 0] : Fin 3 → Nat) = fun _ => 0 := funext fun a => by fin_cases a <;> rfl
theorem hz2 : (![0, 0] : Fin 2 → Nat) = fun _ => 0 := funext fun a => by fin_cases a <;> rfl

/-! ## What each case leaves, as values -/

theorem out3_A_5_eq (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : cond3_0 i) (hc1 : ¬cond3_1 i) (x0 : Vec F S1x512x64 .bf16) (x1 : Vec F S1x2048x64 .bf16) (x2 : Vec F S1x2048x64 .bf16) (x3 : Vec F S64x1024 .bf16)  :
    out3_A_5 c i arg3 harg3 arg4 harg4 arg5 harg5 arg6 harg6 arg7 harg7 arg8 harg8 arg9 harg9 hc0 hc1 x0 x1 x2 x3 = k3_pay3 x0 x1 := by
  unfold out3_A_5
  rw [View.read_writes_eq_canon _ _ _ (cover3_A_5 c i arg3 harg3 arg4 harg4 arg5 harg5 arg6 harg6 arg7 harg7 arg8 harg8 arg9 harg9 hc0 hc1 x0 x1 x2 x3)]
  unfold kernelRun3_A
  dsimp only
  sl_unfold_words
  rw [View.canon_unit_zero hz3]
  simp only [View.readAt_eq_ld, harg3.read_unread, harg4.read_unread, harg5.read_unread, harg6.read_unread, View.ld_unit_zero (S := S1x512x64) hz3, View.ld_unit_zero (S := S1x2048x64) hz3, View.ld_unit_zero (S := S64x1024) hz2]
theorem sout3_A_eq (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : cond3_0 i) (hc1 : ¬cond3_1 i) (x0 : Vec F S1x512x64 .bf16) (x1 : Vec F S1x2048x64 .bf16) (x2 : Vec F S1x2048x64 .bf16) (x3 : Vec F S64x1024 .bf16)  :
    sout3_A c i arg3 harg3 arg4 harg4 arg5 harg5 arg6 harg6 arg7 harg7 arg8 harg8 arg9 harg9 hc0 hc1 x0 x1 x2 x3 = k3_pay1 (k3_pay4 x0 x1 x2 x3) (k3_pay5 (F := F)) := by
  unfold sout3_A
  rw [View.read_writes_eq_canon _ _ _ (scover3_A c i arg3 harg3 arg4 harg4 arg5 harg5 arg6 harg6 arg7 harg7 arg8 harg8 arg9 harg9 hc0 hc1 x0 x1 x2 x3)]
  unfold kernelRun3_A
  dsimp only
  sl_unfold_words
  rw [View.canon_cons_unit_zero (S := S512x1024) hz2, View.readCov_unit_zero (S := S512x1024) _ hz2]
  simp only [View.readAt_eq_ld, harg3.read_unread, harg4.read_unread, harg5.read_unread, harg6.read_unread, View.ld_unit_zero (S := S1x512x64) hz3, View.ld_unit_zero (S := S1x2048x64) hz3, View.ld_unit_zero (S := S64x1024) hz2]
theorem out3_B_5_eq (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : ¬cond3_1 i) (x0 : Vec F S1x512x64 .bf16) (x1 : Vec F S1x2048x64 .bf16) (x2 : Vec F S1x2048x64 .bf16) (x3 : Vec F S64x1024 .bf16) (xs0 : Vec F S512x1024 .f32) :
    out3_B_5 c i arg3 harg3 arg4 harg4 arg5 harg5 arg6 harg6 arg7 harg7 arg8 harg8 arg9 harg9 hc0 hc1 x0 x1 x2 x3 xs0 = k3_pay3 x0 x1 := by
  unfold out3_B_5
  rw [View.read_writes_eq_canon _ _ _ (cover3_B_5 c i arg3 harg3 arg4 harg4 arg5 harg5 arg6 harg6 arg7 harg7 arg8 harg8 arg9 harg9 hc0 hc1 x0 x1 x2 x3 xs0)]
  unfold kernelRun3_B
  dsimp only
  sl_unfold_words
  rw [View.canon_unit_zero hz3]
  simp only [View.readAt_eq_ld, harg3.read_unread, harg4.read_unread, harg5.read_unread, harg6.read_unread, View.ld_unit_zero (S := S1x512x64) hz3, View.ld_unit_zero (S := S1x2048x64) hz3, View.ld_unit_zero (S := S64x1024) hz2]
theorem sout3_B_eq (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : ¬cond3_1 i) (x0 : Vec F S1x512x64 .bf16) (x1 : Vec F S1x2048x64 .bf16) (x2 : Vec F S1x2048x64 .bf16) (x3 : Vec F S64x1024 .bf16) (xs0 : Vec F S512x1024 .f32) :
    sout3_B c i arg3 harg3 arg4 harg4 arg5 harg5 arg6 harg6 arg7 harg7 arg8 harg8 arg9 harg9 hc0 hc1 x0 x1 x2 x3 xs0 = k3_pay1 (k3_pay4 x0 x1 x2 x3) xs0 := by
  unfold sout3_B
  rw [View.read_writes_eq_canon _ _ _ (scover3_B c i arg3 harg3 arg4 harg4 arg5 harg5 arg6 harg6 arg7 harg7 arg8 harg8 arg9 harg9 hc0 hc1 x0 x1 x2 x3 xs0)]
  unfold kernelRun3_B
  dsimp only
  sl_unfold_words
  rw [View.canon_unit_zero hz2]
  simp only [View.readAt_eq_ld, harg3.read_unread, harg4.read_unread, harg5.read_unread, harg6.read_unread, View.ld_unit_zero (S := S1x512x64) hz3, View.ld_unit_zero (S := S1x2048x64) hz3, View.ld_unit_zero (S := S64x1024) hz2, harg9.read_unread, View.ld_unit_zero (S := S512x1024) hz2]
theorem out3_C_5_eq (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : cond3_1 i) (x0 : Vec F S1x512x64 .bf16) (x1 : Vec F S1x2048x64 .bf16) (x2 : Vec F S1x2048x64 .bf16) (x3 : Vec F S64x1024 .bf16) (xs0 : Vec F S512x1024 .f32) :
    out3_C_5 c i arg3 harg3 arg4 harg4 arg5 harg5 arg6 harg6 arg7 harg7 arg8 harg8 arg9 harg9 hc0 hc1 x0 x1 x2 x3 xs0 = k3_pay3 x0 x1 := by
  unfold out3_C_5
  rw [View.read_writes_eq_canon _ _ _ (cover3_C_5 c i arg3 harg3 arg4 harg4 arg5 harg5 arg6 harg6 arg7 harg7 arg8 harg8 arg9 harg9 hc0 hc1 x0 x1 x2 x3 xs0)]
  unfold kernelRun3_C
  dsimp only
  sl_unfold_words
  rw [View.canon_unit_zero hz3]
  simp only [View.readAt_eq_ld, harg3.read_unread, harg4.read_unread, harg5.read_unread, harg6.read_unread, View.ld_unit_zero (S := S1x512x64) hz3, View.ld_unit_zero (S := S1x2048x64) hz3, View.ld_unit_zero (S := S64x1024) hz2]
theorem sout3_C_eq (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : cond3_1 i) (x0 : Vec F S1x512x64 .bf16) (x1 : Vec F S1x2048x64 .bf16) (x2 : Vec F S1x2048x64 .bf16) (x3 : Vec F S64x1024 .bf16) (xs0 : Vec F S512x1024 .f32) :
    sout3_C c i arg3 harg3 arg4 harg4 arg5 harg5 arg6 harg6 arg7 harg7 arg8 harg8 arg9 harg9 hc0 hc1 x0 x1 x2 x3 xs0 = k3_pay1 (k3_pay4 x0 x1 x2 x3) xs0 := by
  unfold sout3_C
  rw [View.read_writes_eq_canon _ _ _ (scover3_C c i arg3 harg3 arg4 harg4 arg5 harg5 arg6 harg6 arg7 harg7 arg8 harg8 arg9 harg9 hc0 hc1 x0 x1 x2 x3 xs0)]
  unfold kernelRun3_C
  dsimp only
  sl_unfold_words
  rw [View.canon_unit_zero hz2]
  simp only [View.readAt_eq_ld, harg3.read_unread, harg4.read_unread, harg5.read_unread, harg6.read_unread, View.ld_unit_zero (S := S1x512x64) hz3, View.ld_unit_zero (S := S1x2048x64) hz3, View.ld_unit_zero (S := S64x1024) hz2, harg9.read_unread, View.ld_unit_zero (S := S512x1024) hz2]
theorem out3_C_4_eq (c : Dev nD) (i : grid3.Coords) (arg3 : Memref sig .tc .vmem S1x512x64 .bf16) (harg3 : arg3.IsWhole) (arg4 : Memref sig .tc .vmem S1x2048x64 .bf16) (harg4 : arg4.IsWhole) (arg5 : Memref sig .tc .vmem S1x2048x64 .bf16) (harg5 : arg5.IsWhole) (arg6 : Memref sig .tc .vmem S64x1024 .bf16) (harg6 : arg6.IsWhole) (arg7 : Memref sig .tc .vmem S512x1024 .f32) (harg7 : arg7.IsWhole) (arg8 : Memref sig .tc .vmem S1x512x2048 .f32) (harg8 : arg8.IsWhole) (arg9 : Memref sig .tc .vmem S512x1024 .f32) (harg9 : arg9.IsWhole) (hc0 : ¬cond3_0 i) (hc1 : cond3_1 i) (x0 : Vec F S1x512x64 .bf16) (x1 : Vec F S1x2048x64 .bf16) (x2 : Vec F S1x2048x64 .bf16) (x3 : Vec F S64x1024 .bf16) (xs0 : Vec F S512x1024 .f32) :
    out3_C_4 c i arg3 harg3 arg4 harg4 arg5 harg5 arg6 harg6 arg7 harg7 arg8 harg8 arg9 harg9 hc0 hc1 x0 x1 x2 x3 xs0 = k3_pay1 (k3_pay4 x0 x1 x2 x3) xs0 := by
  unfold out3_C_4
  rw [View.read_writes_eq_canon _ _ _ (cover3_C_4 c i arg3 harg3 arg4 harg4 arg5 harg5 arg6 harg6 arg7 harg7 arg8 harg8 arg9 harg9 hc0 hc1 x0 x1 x2 x3 xs0)]
  unfold kernelRun3_C
  dsimp only
  sl_unfold_words
  rw [View.canon_unit_zero hz2, View.readCov_unit_zero (S := S512x1024) _ hz2]
  simp only [View.readAt_eq_ld, harg3.read_unread, harg4.read_unread, harg5.read_unread, harg6.read_unread, View.ld_unit_zero (S := S1x512x64) hz3, View.ld_unit_zero (S := S1x2048x64) hz3, View.ld_unit_zero (S := S64x1024) hz2, harg9.read_unread, View.ld_unit_zero (S := S512x1024) hz2]

section Region
variable (V : (c : Dev nD) → (b : Ref sig .tc) → Buf (Elt F) ((c : Thread nD τ).loc b))

/-- The head's contribution at a point, from the point's four input blocks. -/
abbrev contrib3 (c : Dev nD) (t : Fin cfg3.N) : FVec F S512x1024 .f32 := k3_pay4 (iblk3 V c 0 t) (iblk3 V c 1 t) (iblk3 V c 2 t) (iblk3 V c 3 t)

/-- The accumulator after position `n`: at head 0 the zero block plus the contribution, otherwise what the position
    before left plus the contribution. -/
def acc3 (c : Dev nD) : (n : ℕ) → n < cfg3.N → Vec F S512x1024 .f32
  | 0, h => k3_pay1 (contrib3 V c ⟨0, h⟩) (k3_pay5 (F := F))
  | n + 1, h => if (n + 1) % 16 = 0 then k3_pay1 (contrib3 V c ⟨n + 1, h⟩) (k3_pay5 (F := F))
      else k3_pay1 (contrib3 V c ⟨n + 1, h⟩) (acc3 c n (Nat.lt_of_succ_lt h))

/-- What the buffers hold after position `n`: the attention weights of the point, the accumulator. -/
theorem outsAt3_eq (c : Dev nD) : ∀ (n : ℕ) (h : n < cfg3.N),
    (outsAt3 V c n h).2 = (k3_pay3 (iblk3 V c 0 ⟨n, h⟩) (iblk3 V c 1 ⟨n, h⟩), acc3 V c n h)
  | 0, h => by
    rw [outsAt3_A V c ⟨0, h⟩ rfl (by show ¬((0 : ℕ) % 16 = 15); omega)]
    show (out3_A_5 _ _ _ _ _ _ _ _ _ _ _ _ _ _ _ _ _ _ _ _ _ _, sout3_A _ _ _ _ _ _ _ _ _ _ _ _ _ _ _ _ _ _ _ _ _ _) = _
    rw [out3_A_5_eq, sout3_A_eq]; rfl
  | n + 1, h => by
    by_cases h0 : (n + 1) % 16 = 0
    · have h1 : ¬(n + 1) % 16 = 15 := by omega
      rw [outsAt3_A V c ⟨n + 1, h⟩ h0 h1]
      show (out3_A_5 _ _ _ _ _ _ _ _ _ _ _ _ _ _ _ _ _ _ _ _ _ _, sout3_A _ _ _ _ _ _ _ _ _ _ _ _ _ _ _ _ _ _ _ _ _ _) = _
      rw [out3_A_5_eq, sout3_A_eq]
      show _ = (_, acc3 V c (n + 1) h)
      rw [acc3, if_pos h0]
    · have ih := outsAt3_eq c n (Nat.lt_of_succ_lt h)
      by_cases h1 : (n + 1) % 16 = 15
      · rw [outsAt3_C V c ⟨n + 1, h⟩ h0 h1]
        show (out3_C_5 _ _ _ _ _ _ _ _ _ _ _ _ _ _ _ _ _ _ _ _ _ _ (outsAt3 V c n _).2.2, sout3_C _ _ _ _ _ _ _ _ _ _ _ _ _ _ _ _ _ _ _ _ _ _ (outsAt3 V c n _).2.2) = _
        rw [out3_C_5_eq, sout3_C_eq, ih]
        show _ = (_, acc3 V c (n + 1) h)
        rw [acc3, if_neg h0]
      · rw [outsAt3_B V c ⟨n + 1, h⟩ h0 h1]
        show (out3_B_5 _ _ _ _ _ _ _ _ _ _ _ _ _ _ _ _ _ _ _ _ _ _ (outsAt3 V c n _).2.2, sout3_B _ _ _ _ _ _ _ _ _ _ _ _ _ _ _ _ _ _ _ _ _ _ (outsAt3 V c n _).2.2) = _
        rw [out3_B_5_eq, sout3_B_eq, ih]
        show _ = (_, acc3 V c (n + 1) h)
        rw [acc3, if_neg h0]

set_option maxHeartbeats 4000000 in
/-- At the last head the output buffer holds the accumulator. -/
theorem outsAt3_fst (c : Dev nD) (t : Fin cfg3.N) (h1 : t.val % 16 = 15) : (outsAt3 V c t.val t.isLt).1 = acc3 V c t.val t.isLt := by
  have h0 : ¬t.val % 16 = 0 := by omega
  have e2 : (outsAt3 V c t.val t.isLt).2.2 = acc3 V c t.val t.isLt := by rw [outsAt3_eq V c t.val t.isLt]
  rw [← e2, outsAt3_C V c t h0 h1]
  dsimp only
  rw [out3_C_4_eq, sout3_C_eq]

end Region

section Region
variable (V : (c : Dev nD) → (b : Ref sig .tc) → Buf (Elt F) ((c : Thread nD τ).loc b))

/-! ## The attention weights: every point writes back one block -/

/-- The point that writes the block an attention-weights entry lies in: head `j 0` (16 b + h), row tile `j 1 / 512`. -/
def pt5 (j : S64x2048x2048.Idx) : Fin cfg3.N :=
  ⟨(((j 0).val / 16) * 4 + (j 1).val / 512) * 16 + (j 0).val % 16, by
    have hN : cfg3.N = 256 := N_3
    have h0 : (j 0).val < 64 := (j 0).isLt
    have h1 : (j 1).val < 2048 := (j 1).isLt
    omega⟩

/-- The attention-weights array, entry by entry: what the entry's point left in the buffer, at the entry's row in the tile. -/
def G5 (c : Dev nD) : S64x2048x2048.Idx → Elt F .f32 :=
  fun j => (outsAt3 V c (pt5 j).val (pt5 j).isLt).2.1 (ix3 (0 : Fin 1) (⟨(j 1).val % 512, Nat.mod_lt _ (by norm_num)⟩ : Fin 512) (j 2))

theorem G5_apply (c : Dev nD) (j : S64x2048x2048.Idx) (n : ℕ) (hn : n < cfg3.N) (e : (pt5 j).val = n) :
    G5 V c j = (outsAt3 V c n hn).2.1 (ix3 (0 : Fin 1) (⟨(j 1).val % 512, Nat.mod_lt _ (by norm_num)⟩ : Fin 512) (j 2)) := by subst e; rfl

theorem idx3_5 : ∀ t : Fin cfg3.N, win3_5.index t (0 : Fin 3) = (t.val / 64) * 16 + t.val % 16 ∧ win3_5.index t (1 : Fin 3) = (t.val / 16) % 4 ∧ win3_5.index t (2 : Fin 3) = 0 :=
  (by decide +kernel : ∀ t : Fin grid3.N, win3_5.index t (0 : Fin 3) = (t.val / 64) * 16 + t.val % 16 ∧ win3_5.index t (1 : Fin 3) = (t.val / 16) % 4 ∧ win3_5.index t (2 : Fin 3) = 0)

theorem flushed3_5_eq (c : Dev nD) (t : Fin cfg3.N) :
    (dat3 V c).flushed 5 t = ((cfg3.win 5).blk t).view.read (Elt F) (G5 V c) := by
  show (cfg3.win 5).cut (grid3.coords t) ((dat3 V c).after 5 t) = _
  rw [after3_5]
  obtain ⟨e0, e1, e2⟩ := idx3_5 t
  funext y
  show (outsAt3 V c t.val t.isLt).2.1 y = G5 V c (((cfg3.win 5).blk t).view.emb y)
  have hy0 : (y 0).val < 1 := (y 0).isLt
  have hy1 : (y 1).val < 512 := (y 1).isLt
  have hy2 : (y 2).val < 2048 := (y 2).isLt
  have hN : cfg3.N = 256 := N_3
  have ht := t.isLt
  have j0 : ((((cfg3.win 5).blk t).view.emb y) 0).val = (t.val / 64) * 16 + t.val % 16 := by
    show win3_5.index t (0 : Fin 3) * 1 + 1 * (y 0).val = _; omega
  have j1 : ((((cfg3.win 5).blk t).view.emb y) 1).val = ((t.val / 16) % 4) * 512 + (y 1).val := by
    show win3_5.index t (1 : Fin 3) * 512 + 1 * (y 1).val = _; omega
  have i0 : (pt5 (((cfg3.win 5).blk t).view.emb y)).val = t.val := by
    show ((((((cfg3.win 5).blk t).view.emb y) 0).val / 16) * 4 + ((((cfg3.win 5).blk t).view.emb y) 1).val / 512) * 16 + ((((cfg3.win 5).blk t).view.emb y) 0).val % 16 = t.val
    rw [j0, j1]; omega
  rw [G5_apply V c _ t.val t.isLt i0]
  refine congrArg (outsAt3 V c t.val t.isLt).2.1 ?_
  funext a; apply Fin.ext
  match a with
  | ⟨0, _⟩ => show (y 0).val = 0; omega
  | ⟨1, _⟩ => show (y 1).val = ((((cfg3.win 5).blk t).view.emb y) 1).val % 512; rw [j1]; omega
  | ⟨2, _⟩ => show (y 2).val = win3_5.index t (2 : Fin 3) * 2048 + 1 * (y 2).val; omega

theorem mem_blk3_5 (t : Fin cfg3.N) (i : S64x2048x2048.Idx) :
    i ∈ ((cfg3.win 5).blk t).view.set ↔ ∀ a : Fin 3, win3_5.index t a * S1x512x2048.size a ≤ (i a).val ∧ (i a).val < win3_5.index t a * S1x512x2048.size a + S1x512x2048.size a := by
  show i ∈ ((View.whole main_v8_1).slice (win3_5.rect t)).set ↔ _
  rw [View.set_slice_whole, Rect.mem_set_unit]
  exact Iff.rfl

/-- The attention-weights array after the run. -/
theorem final3_5 (c : Dev nD) : (dat3 V c).arrAt 5 cfg3.N = G5 V c :=
  (dat3 V c).arrAt_eq_of_cover 5 (G5 V c) (fun t _ => flushed3_5_eq V c t) fun i => by
    have hi0 : (i 0).val < 64 := (i 0).isLt
    have hi1 : (i 1).val < 2048 := (i 1).isLt
    have hi2 : (i 2).val < 2048 := (i 2).isLt
    refine ⟨pt5 i, flush3_5 _, ?_⟩
    rw [mem_blk3_5]
    obtain ⟨e0, e1, e2⟩ := idx3_5 (pt5 i)
    have hp : (pt5 i).val = (((i 0).val / 16) * 4 + (i 1).val / 512) * 16 + (i 0).val % 16 := rfl
    intro a
    match a with
    | ⟨0, _⟩ => show win3_5.index _ (0 : Fin 3) * 1 ≤ (i 0).val ∧ (i 0).val < win3_5.index _ (0 : Fin 3) * 1 + 1; rw [e0, hp]; omega
    | ⟨1, _⟩ => show win3_5.index _ (1 : Fin 3) * 512 ≤ (i 1).val ∧ (i 1).val < win3_5.index _ (1 : Fin 3) * 512 + 512; rw [e1, hp]; omega
    | ⟨2, _⟩ => show win3_5.index _ (2 : Fin 3) * 2048 ≤ (i 2).val ∧ (i 2).val < win3_5.index _ (2 : Fin 3) * 2048 + 2048; rw [e2]; omega

/-! ## The output: the points of the last head write back the row tiles -/

/-- The point that writes the row tile an output entry lies in: the tile's last head. -/
def pt4 (j : S8192x1024.Idx) : Fin cfg3.N :=
  ⟨((j 0).val / 512) * 16 + 15, by
    have hN : cfg3.N = 256 := N_3
    have h0 : (j 0).val < 8192 := (j 0).isLt
    omega⟩

/-- The output array, entry by entry: the accumulator after the tile's last head, at the entry's row in the tile. -/
def G4 (c : Dev nD) : S8192x1024.Idx → Elt F .f32 :=
  fun j => (acc3 V c (pt4 j).val (pt4 j).isLt) (ix2 (⟨(j 0).val % 512, Nat.mod_lt _ (by norm_num)⟩ : Fin 512) (j 1))

theorem G4_apply (c : Dev nD) (j : S8192x1024.Idx) (n : ℕ) (hn : n < cfg3.N) (e : (pt4 j).val = n) :
    G4 V c j = (acc3 V c n hn) (ix2 (⟨(j 0).val % 512, Nat.mod_lt _ (by norm_num)⟩ : Fin 512) (j 1)) := by subst e; rfl

theorem idx3_4 : ∀ t : Fin cfg3.N, win3_4.index t (0 : Fin 2) = t.val / 16 ∧ win3_4.index t (1 : Fin 2) = 0 :=
  (by decide +kernel : ∀ t : Fin grid3.N, win3_4.index t (0 : Fin 2) = t.val / 16 ∧ win3_4.index t (1 : Fin 2) = 0)

theorem flushed3_4_eq (c : Dev nD) (t : Fin cfg3.N) (hf : (cfg3.win 4).flush t = true) :
    (dat3 V c).flushed 4 t = ((cfg3.win 4).blk t).view.read (Elt F) (G4 V c) := by
  have h15 : t.val % 16 = 15 := (flush3_4 t).mp hf
  show (cfg3.win 4).cut (grid3.coords t) ((dat3 V c).after 4 t) = _
  rw [after3_4, outsAt3_fst V c t h15]
  obtain ⟨e0, e1⟩ := idx3_4 t
  funext y
  show acc3 V c t.val t.isLt y = G4 V c (((cfg3.win 4).blk t).view.emb y)
  have hy0 : (y 0).val < 512 := (y 0).isLt
  have hy1 : (y 1).val < 1024 := (y 1).isLt
  have hN : cfg3.N = 256 := N_3
  have ht := t.isLt
  have j0 : ((((cfg3.win 4).blk t).view.emb y) 0).val = (t.val / 16) * 512 + (y 0).val := by
    show win3_4.index t (0 : Fin 2) * 512 + 1 * (y 0).val = _; omega
  have i0 : (pt4 (((cfg3.win 4).blk t).view.emb y)).val = t.val := by
    show (((((cfg3.win 4).blk t).view.emb y) 0).val / 512) * 16 + 15 = t.val
    rw [j0]; omega
  rw [G4_apply V c _ t.val t.isLt i0]
  refine congrArg (acc3 V c t.val t.isLt) ?_
  funext a; apply Fin.ext
  match a with
  | ⟨0, _⟩ => show (y 0).val = ((((cfg3.win 4).blk t).view.emb y) 0).val % 512; rw [j0]; omega
  | ⟨1, _⟩ => show (y 1).val = win3_4.index t (1 : Fin 2) * 1024 + 1 * (y 1).val; omega

theorem mem_blk3_4 (t : Fin cfg3.N) (i : S8192x1024.Idx) :
    i ∈ ((cfg3.win 4).blk t).view.set ↔ ∀ a : Fin 2, win3_4.index t a * S512x1024.size a ≤ (i a).val ∧ (i a).val < win3_4.index t a * S512x1024.size a + S512x1024.size a := by
  show i ∈ ((View.whole main_v8_0).slice (win3_4.rect t)).set ↔ _
  rw [View.set_slice_whole, Rect.mem_set_unit]
  exact Iff.rfl

/-- The output array after the run. -/
theorem final3_4 (c : Dev nD) : (dat3 V c).arrAt 4 cfg3.N = G4 V c :=
  (dat3 V c).arrAt_eq_of_cover 4 (G4 V c) (fun t hf => flushed3_4_eq V c t hf) fun i => by
    have hi0 : (i 0).val < 8192 := (i 0).isLt
    have hi1 : (i 1).val < 1024 := (i 1).isLt
    have hp : (pt4 i).val = ((i 0).val / 512) * 16 + 15 := rfl
    refine ⟨pt4 i, (flush3_4 _).mpr (by rw [hp]; omega), ?_⟩
    rw [mem_blk3_4]
    obtain ⟨e0, e1⟩ := idx3_4 (pt4 i)
    intro a
    match a with
    | ⟨0, _⟩ => show win3_4.index _ (0 : Fin 2) * 512 ≤ (i 0).val ∧ (i 0).val < win3_4.index _ (0 : Fin 2) * 512 + 512; rw [e0, hp]; omega
    | ⟨1, _⟩ => show win3_4.index _ (1 : Fin 2) * 1024 ≤ (i 1).val ∧ (i 1).val < win3_4.index _ (1 : Fin 2) * 1024 + 1024; rw [e1]; omega

end Region

end Cert.KernelIdeal.Hand

end
-- ==== Proof.KiAttnPay.lean ====
/-
  The attention kernel's pure values, entry by entry, at the ideal instance. For a query tile q
  (512 rows), the head's keys k and values v (2048 rows each) and the head's 64 rows w of the
  transposed output weights:
    score(l, s)  = (sum over the 64 features of q(l, .) k(s, .)) * (1/8)
    weight(l, s) = exp(score(l, s) - max over s' of score(l, s')) / sum over s' of the same exponentials
    contribution(l, d) = sum over the 64 features f of (sum over s of weight(l, s) v(s, f)) * w(f, d)
  Rounding to bf16 is the identity on extended reals; a reshape that adds or drops a unit axis, and a
  column broadcast along the rows, read their operand at the evident index.
-/
import proofs.«140923_j35270271435571_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-! ## The three matrix products -/

theorem mm_qk_l0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem mm_qk_l1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem mm_qk_r0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem mm_qk_r1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q
theorem mm_qk (Lh : FVec Ideal S512x64 .bf16) (Rh : FVec Ideal S2048x64 .bf16) (p : Fin 512) (q : Fin 2048) :
    matmul dot_S512x64_S2048x64_S512x2048_1_1_0_0_n_n none Lh Rh (constant (F := Ideal) S512x2048 .f32 0x00000000#32) (ix2 p q)
      = ∑ k : Fin 64, Lh (ix2 p k) * Rh (ix2 q k) := by
  simp only [matmul]
  rw [Ideal.matmul_constant_zero_apply, ← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 p q) ((contrEquiv1 dot_S512x64_S2048x64_S512x2048_1_1_0_0_n_n 64 rfl rfl).symm k) = ix2 p k := funext fun a => Fin.ext (by
    match a with
    | ⟨0, _⟩ => exact mm_qk_l0 _ _
    | ⟨1, _⟩ => exact (mm_qk_l1 _ _).trans hk)
  have er : dot_S512x64_S2048x64_S512x2048_1_1_0_0_n_n.rhsIdx (ix2 p q) ((contrEquiv1 dot_S512x64_S2048x64_S512x2048_1_1_0_0_n_n 64 rfl rfl).symm k) = ix2 q k := funext fun a => Fin.ext (by
    match a with
    | ⟨0, _⟩ => exact mm_qk_r0 _ _
    | ⟨1, _⟩ => exact (mm_qk_r1 _ _).trans hk)
  rw [el, er]

theorem mm_av_l0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem mm_av_l1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem mm_av_r0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem mm_av_r1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl
theorem mm_av (Lh : FVec Ideal S512x2048 .bf16) (Rh : FVec Ideal S2048x64 .bf16) (p : Fin 512) (q : Fin 64) :
    matmul dot_S512x2048_S2048x64_S512x64_1_0_0_1_n_n none Lh Rh (constant (F := Ideal) S512x64 .f32 0x00000000#32) (ix2 p q)
      = ∑ k : Fin 2048, Lh (ix2 p k) * Rh (ix2 k q) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 p q) ((contrEquiv1 dot_S512x2048_S2048x64_S512x64_1_0_0_1_n_n 2048 rfl rfl).symm k) = ix2 p k := funext fun a => Fin.ext (by
    match a with
    | ⟨0, _⟩ => exact mm_av_l0 _ _
    | ⟨1, _⟩ => exact (mm_av_l1 _ _).trans hk)
  have er : dot_S512x2048_S2048x64_S512x64_1_0_0_1_n_n.rhsIdx (ix2 p q) ((contrEquiv1 dot_S512x2048_S2048x64_S512x64_1_0_0_1_n_n 2048 rfl rfl).symm k) = ix2 k q := funext fun a => Fin.ext (by
    match a with
    | ⟨0, _⟩ => exact (mm_av_r0 _ _).trans hk
    | ⟨1, _⟩ => exact mm_av_r1 _ _)
  rw [el, er]

theorem mm_wo_l0 (i : S512x1024.Idx) (q : dot_S512x64_S64x1024_S512x1024_1_0_0_1_n_n.contr.Idx) :
    (dot_S512x64_S64x1024_S512x1024_1_0_0_1_n_n.lhsIdx i q 0).val = (i 0).val := by
  unfold DotDims.lhsIdx
  rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
  rfl
theorem mm_wo_l1 (i : S512x1024.Idx) (q : dot_S512x64_S64x1024_S512x1024_1_0_0_1_n_n.contr.Idx) :
    (dot_S512x64_S64x1024_S512x1024_1_0_0_1_n_n.lhsIdx i q 1).val = (q ⟨0, by decide⟩).val :=
  dot_S512x64_S64x1024_S512x1024_1_0_0_1_n_n.lhsIdx_val_of_single rfl i q
theorem mm_wo_r0 (i : S512x1024.Idx) (q : dot_S512x64_S64x1024_S512x1024_1_0_0_1_n_n.contr.Idx) :
    (dot_S512x64_S64x1024_S512x1024_1_0_0_1_n_n.rhsIdx i q 0).val = (q ⟨0, by decide⟩).val :=
  dot_S512x64_S64x1024_S512x1024_1_0_0_1_n_n.rhsIdx_val_of_single rfl i q
theorem mm_wo_r1 (i : S512x1024.Idx) (q : dot_S512x64_S64x1024_S512x1024_1_0_0_1_n_n.contr.Idx) :
    (dot_S512x64_S64x1024_S512x1024_1_0_0_1_n_n.rhsIdx i q 1).val = (i 1).val := by
  unfold DotDims.rhsIdx
  rw [dif_neg (show ¬(1 : Fin S64x1024.rank) ∈ dot_S512x64_S64x1024_S512x1024_1_0_0_1_n_n.rhsBatch by decide), dif_pos (show (1 : Fin S64x1024.rank) ∈ dot_S512x64_S64x1024_S512x1024_1_0_0_1_n_n.rhsNonContracting by decide)]
  rfl
theorem mm_wo (Lh : FVec Ideal S512x64 .bf16) (Rh : FVec Ideal S64x1024 .bf16) (p : Fin 512) (q : Fin 1024) :
    matmul dot_S512x64_S64x1024_S512x1024_1_0_0_1_n_n none Lh Rh (constant (F := Ideal) S512x1024 .f32 0x00000000#32) (ix2 p q)
      = ∑ k : Fin 64, Lh (ix2 p k) * Rh (ix2 k q) := by
  simp only [matmul]
  rw [Ideal.matmul_constant_zero_apply, ← Equiv.sum_comp (contrEquiv1 dot_S512x64_S64x1024_S512x1024_1_0_0_1_n_n 64 rfl rfl).symm]
  refine Finset.sum_congr rfl fun k _ => ?_
  have hk := contrEquiv1_symm_val dot_S512x64_S64x1024_S512x1024_1_0_0_1_n_n 64 rfl rfl k
  have el : dot_S512x64_S64x1024_S512x1024_1_0_0_1_n_n.lhsIdx (ix2 p q) ((contrEquiv1 dot_S512x64_S64x1024_S512x1024_1_0_0_1_n_n 64 rfl rfl).symm k) = ix2 p k := funext fun a => Fin.ext (by
    match a with
    | ⟨0, _⟩ => exact mm_wo_l0 _ _
    | ⟨1, _⟩ => exact (mm_wo_l1 _ _).trans hk)
  have er : dot_S512x64_S64x1024_S512x1024_1_0_0_1_n_n.rhsIdx (ix2 p q) ((contrEquiv1 dot_S512x64_S64x1024_S512x1024_1_0_0_1_n_n 64 rfl rfl).symm k) = ix2 k q := funext fun a => Fin.ext (by
    match a with
    | ⟨0, _⟩ => exact (mm_wo_r0 _ _).trans hk
    | ⟨1, _⟩ => exact mm_wo_r1 _ _)
  rw [el, er]

/-! ## A column: a vector viewed as one column, and that column repeated along the rows -/

theorem col_cast {α : Type} (x : S512.Idx → α) (h : S512.ShapeCasts S512x1) (l : Fin 512) (u : Fin 1) :
    shapeCast S512x1 x h (ix2 l u) = x (ix1 l) :=
  shapeCast_apply x h _ _ (by
    have hu : u.val = 0 := by omega
    rw [Shape.rowMajor_val_one, Shape.rowMajor_val_two]
    show l.val = l.val * 1 + u.val
    omega)

theorem col_bcast {α : Type} (x : S512x1.Idx → α) (h : S512x1.Broadcasts S512x2048) (l : Fin 512) (s : Fin 2048) :
    broadcastTo S512x2048 x h (ix2 l s) = x (ix2 l (0 : Fin 1)) := by
  refine broadcastTo_apply x h (ix2 l s) (ix2 l (0 : Fin 1)) fun ax => ?_
  match ax with
  | ⟨0, _⟩ => rfl
  | ⟨1, _⟩ => rfl

/-! ## Scores, their row maximum, the softmax -/

/-- A scaled score. -/
def sc (q : FVec Ideal S1x512x64 .bf16) (k : FVec Ideal S1x2048x64 .bf16) (l : Fin 512) (s : Fin 2048) : EReal :=
  (∑ κ : Fin 64, q (ix3 (0 : Fin 1) l κ) * k (ix3 (0 : Fin 1) s κ)) * Ideal.ofBits .f32 0x3E000000#32

/-- A row's maximum score, from minus infinity. -/
def mx (q : FVec Ideal S1x512x64 .bf16) (k : FVec Ideal S1x2048x64 .bf16) (l : Fin 512) : EReal :=
  (Finset.univ : Finset (Fin 2048)).fold max (Ideal.ofBits .f32 0xFF800000#32) (fun s => sc q k l s)

/-- An attention weight. -/
def wt (q : FVec Ideal S1x512x64 .bf16) (k : FVec Ideal S1x2048x64 .bf16) (l : Fin 512) (s : Fin 2048) : EReal :=
  Ideal.div (Ideal.exp (sc q k l s - mx q k l)) (∑ σ : Fin 2048, Ideal.exp (sc q k l σ - mx q k l))

/-! ## The payloads' vector terms, named, and read at an entry -/

/-- The scaled scores of a query tile against a head's keys. -/
abbrev scoresV (q : FVec Ideal S1x512x64 .bf16) (k : FVec Ideal S1x2048x64 .bf16) : FVec Ideal S512x2048 .f32 :=
  mulf (matmul dot_S512x64_S2048x64_S512x2048_1_1_0_0_n_n none (shapeCast S512x64 q shapeCasts_S1x512x64_S512x64) (shapeCast S2048x64 k shapeCasts_S1x2048x64_S2048x64) (constant (F := Ideal) S512x2048 .f32 0x00000000#32))
    (broadcast S512x2048 (Scalar.ofBits (F := Ideal) .f32 0x3E000000#32))

theorem scoresV_apply (q : FVec Ideal S1x512x64 .bf16) (k : FVec Ideal S1x2048x64 .bf16) (l : Fin 512) (s : Fin 2048) :
    scoresV q k (ix2 l s) = sc q k l s := by
  unfold scoresV sc
  rw [mulf_apply, mm_qk, broadcast_apply]
  refine congrArg₂ (· * ·) (Finset.sum_congr rfl fun κ _ => ?_) rfl
  rw [shapeCast_1ab_ab_apply, shapeCast_1ab_ab_apply]

/-- A row's maximum, repeated along the row. -/
abbrev rowMaxV (x : FVec Ideal S512x2048 .f32) : FVec Ideal S512x2048 .f32 :=
  broadcastTo S512x2048 (shapeCast S512x1 (multiReduction .maximumf [1] S512 x 0xFF800000#32 reduces_S512x2048_S512 (.inl rfl) rfl) shapeCasts_S512_S512x1) broadcasts_S512x1_S512x2048

theorem rowMaxV_apply (x : FVec Ideal S512x2048 .f32) (l : Fin 512) (s : Fin 2048) :
    rowMaxV x (ix2 l s) = (Finset.univ : Finset (Fin 2048)).fold max (Ideal.ofBits .f32 0xFF800000#32) (fun σ => x (ix2 l σ)) := by
  unfold rowMaxV
  rw [col_bcast, col_cast]
  refine (Ideal.multiReduction_maximumf_single x 0xFF800000#32 reduces_S512x2048_S512 (.inl rfl) rfl (ix1 l)).trans ?_
  refine congrArg (Finset.fold max _ · Finset.univ) (funext fun σ => congrArg x (funext fun a => Fin.ext ?_))
  match a with
  | ⟨0, _⟩ => rfl
  | ⟨1, _⟩ => rfl

/-- A row's sum, repeated along the row. -/
abbrev rowSumV (x : FVec Ideal S512x2048 .f32) : FVec Ideal S512x2048 .f32 :=
  broadcastTo S512x2048 (shapeCast S512x1 (multiReduction .add [1] S512 x 0x00000000#32 reduces_S512x2048_S512 (.inl rfl) rfl) shapeCasts_S512_S512x1) broadcasts_S512x1_S512x2048

theorem rowSumV_apply (x : FVec Ideal S512x2048 .f32) (l : Fin 512) (s : Fin 2048) :
    rowSumV x (ix2 l s) = ∑ σ : Fin 2048, x (ix2 l σ) := by
  unfold rowSumV
  rw [col_bcast, col_cast]
  refine (Ideal.multiReduction_add_single x 0x00000000#32 reduces_S512x2048_S512 (.inl rfl) rfl (ix1 l)).trans ?_
  refine Finset.sum_congr rfl fun σ _ => congrArg x (funext fun a => Fin.ext ?_)
  match a with
  | ⟨0, _⟩ => rfl
  | ⟨1, _⟩ => rfl

/-- The softmax payload is the weights. -/
theorem pay2_apply (q : FVec Ideal S1x512x64 .bf16) (k : FVec Ideal S1x2048x64 .bf16) (l : Fin 512) (s : Fin 2048) :
    k3_pay2 (F := Ideal) q k (ix2 l s) = wt q k l s := by
  rw [show k3_pay2 (F := Ideal) q k = divf (exp (subf (scoresV q k) (rowMaxV (scoresV q k)))) (rowSumV (exp (subf (scoresV q k) (rowMaxV (scoresV q k))))) from rfl]
  rw [divf_apply, rowSumV_apply]
  show Ideal.div (Ideal.exp (scoresV q k (ix2 l s) - rowMaxV (scoresV q k) (ix2 l s))) (∑ σ : Fin 2048, Ideal.exp (scoresV q k (ix2 l σ) - rowMaxV (scoresV q k) (ix2 l σ))) = _
  simp only [scoresV_apply, rowMaxV_apply]
  rfl

/-- The stored attention-weights block. -/
theorem pay3_apply (q : FVec Ideal S1x512x64 .bf16) (k : FVec Ideal S1x2048x64 .bf16) (u : Fin 1) (l : Fin 512) (s : Fin 2048) :
    k3_pay3 (F := Ideal) q k (ix3 u l s) = wt q k l s := by
  unfold k3_pay3
  rw [shapeCast_ab_1ab_apply, pay2_apply]

/-- The head's contribution to the output tile. -/
theorem pay4_apply (q : FVec Ideal S1x512x64 .bf16) (k : FVec Ideal S1x2048x64 .bf16) (v : FVec Ideal S1x2048x64 .bf16) (w : FVec Ideal S64x1024 .bf16)
    (l : Fin 512) (d : Fin 1024) :
    k3_pay4 (F := Ideal) q k v w (ix2 l d) = ∑ f : Fin 64, (∑ σ : Fin 2048, wt q k l σ * v (ix3 (0 : Fin 1) σ f)) * w (ix2 f d) := by
  rw [show k3_pay4 (F := Ideal) q k v w
      = matmul dot_S512x64_S64x1024_S512x1024_1_0_0_1_n_n none
          (truncf .bf16 (matmul dot_S512x2048_S2048x64_S512x64_1_0_0_1_n_n none (truncf .bf16 (k3_pay2 q k) bitsLt_bf16_f32) (shapeCast S2048x64 v shapeCasts_S1x2048x64_S2048x64) (constant (F := Ideal) S512x64 .f32 0x00000000#32)) bitsLt_bf16_f32)
          (shapeCast S64x1024 w shapeCasts_S64x1024_S64x1024) (constant (F := Ideal) S512x1024 .f32 0x00000000#32) from rfl]
  rw [mm_wo]
  refine Finset.sum_congr rfl fun f _ => ?_
  rw [truncf_apply, mm_av, shapeCast_self]
  refine congrArg₂ (· * ·) (Finset.sum_congr rfl fun σ _ => ?_) rfl
  rw [truncf_apply, pay2_apply, shapeCast_1ab_ab_apply]

/-- The accumulator step: what it held plus the contribution. -/
theorem pay1_apply (cv : FVec Ideal S512x1024 .f32) (acc : FVec Ideal S512x1024 .f32) (i : S512x1024.Idx) :
    k3_pay1 (F := Ideal) cv acc i = acc i + cv i := by
  unfold k3_pay1
  rw [shapeCast_self, addf_apply]

/-- The zero block. -/
theorem pay5_apply (i : S512x1024.Idx) : k3_pay5 (F := Ideal) i = 0 := by
  unfold k3_pay5
  rw [shapeCast_self, broadcast_apply]
  exact Ideal.ofBits_zero_f32

end Cert.KernelIdeal.Hand

end
-- ==== Proof.KiR3Idx.lean ====
/-
  Call 3's two result arrays, entry by entry, at the ideal instance, in terms of the head-major
  arrays Q, K, V it is entered with and the transposed output weights W:
    weights(16 b + h, l, s) = softmax over s of (sum over f of Q(16 b + h, l, f) K(16 b + h, s, f)) / 8
    output(2048 b + l, d)   = sum over the heads h and the features f of
                                (sum over s of weights(16 b + h, l, s) V(16 b + h, s, f)) * W(64 h + f, d)
  the second by induction along the sixteen heads of a row tile: the accumulator starts from the
  zero block and each head adds its contribution.
-/
import proofs.«140923_j35270271435571_2_alg».proof.Proof.KiR3Val
import proofs.«140923_j35270271435571_2_alg».proof.Proof.KiAttnPay

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- A head-major array and a weight matrix, as extended-real-valued functions. -/
abbrev hm (x : S64x2048x64.Idx → EReal) : S64x2048x64.Idx → EReal := x
abbrev wm (x : S1024x1024.Idx → EReal) : S1024x1024.Idx → EReal := x

/-! ## Array-level scores and weights -/

def scA (Q K : S64x2048x64.Idx → EReal) (bh : Fin 64) (l s : Fin 2048) : EReal :=
  (∑ κ : Fin 64, Q (ix3 bh l κ) * K (ix3 bh s κ)) * Ideal.ofBits .f32 0x3E000000#32
def mxA (Q K : S64x2048x64.Idx → EReal) (bh : Fin 64) (l : Fin 2048) : EReal :=
  (Finset.univ : Finset (Fin 2048)).fold max (Ideal.ofBits .f32 0xFF800000#32) (fun s => scA Q K bh l s)
def wtA (Q K : S64x2048x64.Idx → EReal) (bh : Fin 64) (l s : Fin 2048) : EReal :=
  Ideal.div (Ideal.exp (scA Q K bh l s - mxA Q K bh l)) (∑ σ : Fin 2048, Ideal.exp (scA Q K bh l σ - mxA Q K bh l))

/-- A tile's weights are the array-level ones when its blocks are the arrays' blocks. -/
theorem wt_eq (q : FVec Ideal S1x512x64 .bf16) (k : FVec Ideal S1x2048x64 .bf16) (Q K : S64x2048x64.Idx → EReal) (bh : Fin 64)
    (l : Fin 2048) (l' : Fin 512) (hq : ∀ κ : Fin 64, q (ix3 (0 : Fin 1) l' κ) = Q (ix3 bh l κ))
    (hk : ∀ (s : Fin 2048) (κ : Fin 64), k (ix3 (0 : Fin 1) s κ) = K (ix3 bh s κ)) (s : Fin 2048) :
    wt q k l' s = wtA Q K bh l s := by
  have hsc : ∀ σ : Fin 2048, sc q k l' σ = scA Q K bh l σ := fun σ => by
    unfold sc scA
    exact congrArg (· * _) (Finset.sum_congr rfl fun κ _ => by rw [hq κ, hk σ κ])
  unfold wt wtA mx mxA
  simp only [hsc]

/-- A head's contribution at the array level. -/
def ctA (Q K Vv : S64x2048x64.Idx → EReal) (W : S1024x1024.Idx → EReal) (b : Fin 4) (l : Fin 2048) (d : Fin 1024) (h : Fin 16) : EReal :=
  ∑ f : Fin 64, (∑ σ : Fin 2048, wtA Q K ⟨b.val * 16 + h.val, by have := b.isLt; have := h.isLt; omega⟩ l σ
      * Vv (ix3 (⟨b.val * 16 + h.val, by have := b.isLt; have := h.isLt; omega⟩ : Fin 64) σ f))
    * W (ix2 (⟨h.val * 64 + f.val, by have := h.isLt; have := f.isLt; omega⟩ : Fin 1024) d)

section Region
variable (V : (c : Dev nD) → (b : Ref sig .tc) → Buf (Elt Ideal) ((c : Thread nD τ).loc b))

/-! ## The input blocks of a point, read off the arrays -/

theorem idx3_0 : ∀ t : Fin cfg3.N, win3_0.index t (0 : Fin 3) = (t.val / 64) * 16 + t.val % 16 ∧ win3_0.index t (1 : Fin 3) = (t.val / 16) % 4 ∧ win3_0.index t (2 : Fin 3) = 0 :=
  (by decide +kernel : ∀ t : Fin grid3.N, win3_0.index t (0 : Fin 3) = (t.val / 64) * 16 + t.val % 16 ∧ win3_0.index t (1 : Fin 3) = (t.val / 16) % 4 ∧ win3_0.index t (2 : Fin 3) = 0)
theorem idx3_1 : ∀ t : Fin cfg3.N, win3_1.index t (0 : Fin 3) = (t.val / 64) * 16 + t.val % 16 ∧ win3_1.index t (1 : Fin 3) = 0 ∧ win3_1.index t (2 : Fin 3) = 0 :=
  (by decide +kernel : ∀ t : Fin grid3.N, win3_1.index t (0 : Fin 3) = (t.val / 64) * 16 + t.val % 16 ∧ win3_1.index t (1 : Fin 3) = 0 ∧ win3_1.index t (2 : Fin 3) = 0)
theorem idx3_2 : ∀ t : Fin cfg3.N, win3_2.index t (0 : Fin 3) = (t.val / 64) * 16 + t.val % 16 ∧ win3_2.index t (1 : Fin 3) = 0 ∧ win3_2.index t (2 : Fin 3) = 0 :=
  (by decide +kernel : ∀ t : Fin grid3.N, win3_2.index t (0 : Fin 3) = (t.val / 64) * 16 + t.val % 16 ∧ win3_2.index t (1 : Fin 3) = 0 ∧ win3_2.index t (2 : Fin 3) = 0)
theorem idx3_3 : ∀ t : Fin cfg3.N, win3_3.index t (0 : Fin 2) = t.val % 16 ∧ win3_3.index t (1 : Fin 2) = 0 :=
  (by decide +kernel : ∀ t : Fin grid3.N, win3_3.index t (0 : Fin 2) = t.val % 16 ∧ win3_3.index t (1 : Fin 2) = 0)

theorem iblk3_0_apply (c : Dev nD) (t : Fin cfg3.N) (bh : Fin 64) (hbh : bh.val = (t.val / 64) * 16 + t.val % 16)
    (l : Fin 2048) (l' : Fin 512) (hl : l.val = ((t.val / 16) % 4) * 512 + l'.val) (κ : Fin 64) :
    (iblk3 V c 0 t : FVec Ideal S1x512x64 .bf16) (ix3 (0 : Fin 1) l' κ) = hm (V c main_v5) (ix3 bh l κ) := by
  obtain ⟨e0, e1, e2⟩ := idx3_0 t
  unfold iblk3
  rw [View.read_apply]
  show V c main_v5 _ = V c main_v5 _
  congr 1
  funext a; apply Fin.ext
  match a with
  | ⟨0, _⟩ => show win3_0.index t (0 : Fin 3) * 1 + 1 * 0 = bh.val; omega
  | ⟨1, _⟩ => show win3_0.index t (1 : Fin 3) * 512 + 1 * l'.val = l.val; omega
  | ⟨2, _⟩ => show win3_0.index t (2 : Fin 3) * 64 + 1 * κ.val = κ.val; omega

theorem iblk3_1_apply (c : Dev nD) (t : Fin cfg3.N) (bh : Fin 64) (hbh : bh.val = (t.val / 64) * 16 + t.val % 16)
    (s : Fin 2048) (κ : Fin 64) :
    (iblk3 V c 1 t : FVec Ideal S1x2048x64 .bf16) (ix3 (0 : Fin 1) s κ) = hm (V c main_v6) (ix3 bh s κ) := by
  obtain ⟨e0, e1, e2⟩ := idx3_1 t
  unfold iblk3
  rw [View.read_apply]
  show V c main_v6 _ = V c main_v6 _
  congr 1
  funext a; apply Fin.ext
  match a with
  | ⟨0, _⟩ => show win3_1.index t (0 : Fin 3) * 1 + 1 * 0 = bh.val; omega
  | ⟨1, _⟩ => show win3_1.index t (1 : Fin 3) * 2048 + 1 * s.val = s.val; omega
  | ⟨2, _⟩ => show win3_1.index t (2 : Fin 3) * 64 + 1 * κ.val = κ.val; omega

theorem iblk3_2_apply (c : Dev nD) (t : Fin cfg3.N) (bh : Fin 64) (hbh : bh.val = (t.val / 64) * 16 + t.val % 16)
    (s : Fin 2048) (f : Fin 64) :
    (iblk3 V c 2 t : FVec Ideal S1x2048x64 .bf16) (ix3 (0 : Fin 1) s f) = hm (V c main_v7) (ix3 bh s f) := by
  obtain ⟨e0, e1, e2⟩ := idx3_2 t
  unfold iblk3
  rw [View.read_apply]
  show V c main_v7 _ = V c main_v7 _
  congr 1
  funext a; apply Fin.ext
  match a with
  | ⟨0, _⟩ => show win3_2.index t (0 : Fin 3) * 1 + 1 * 0 = bh.val; omega
  | ⟨1, _⟩ => show win3_2.index t (1 : Fin 3) * 2048 + 1 * s.val = s.val; omega
  | ⟨2, _⟩ => show win3_2.index t (2 : Fin 3) * 64 + 1 * f.val = f.val; omega

theorem iblk3_3_apply (c : Dev nD) (t : Fin cfg3.N) (r : Fin 1024) (f : Fin 64) (hr : r.val = (t.val % 16) * 64 + f.val) (d : Fin 1024) :
    (iblk3 V c 3 t : FVec Ideal S64x1024 .bf16) (ix2 f d) = wm (V c main_v4) (ix2 r d) := by
  obtain ⟨e0, e1⟩ := idx3_3 t
  unfold iblk3
  rw [View.read_apply]
  show V c main_v4 _ = V c main_v4 _
  congr 1
  funext a; apply Fin.ext
  match a with
  | ⟨0, _⟩ => show win3_3.index t (0 : Fin 2) * 64 + 1 * f.val = r.val; omega
  | ⟨1, _⟩ => show win3_3.index t (1 : Fin 2) * 1024 + 1 * d.val = d.val; omega

/-! ## The attention weights -/

theorem G5_wt (c : Dev nD) (bh : Fin 64) (l s : Fin 2048) :
    G5 V c (ix3 bh l s) = wtA (hm (V c main_v5)) (hm (V c main_v6)) bh l s := by
  have hN : cfg3.N = 256 := N_3
  have hbh := bh.isLt; have hl := l.isLt
  unfold G5
  rw [outsAt3_eq]
  dsimp only
  have hp : (pt5 (ix3 bh l s)).val = ((bh.val / 16) * 4 + l.val / 512) * 16 + bh.val % 16 := rfl
  refine (pay3_apply _ _ (0 : Fin 1) (⟨l.val % 512, Nat.mod_lt _ (by norm_num)⟩ : Fin 512) s).trans ?_
  refine wt_eq _ _ _ _ bh l _ (fun κ => ?_) (fun σ κ => ?_) s
  · exact iblk3_0_apply V c _ bh (by rw [hp]; omega) l _ (by rw [hp]; show l.val = _ + l.val % 512; omega) κ
  · exact iblk3_1_apply V c _ bh (by rw [hp]; omega) σ κ

/-! ## The output: sixteen contributions added to the zero block -/

/-- The contribution of the point of head `h` of row tile `rt`, at a row of the tile. -/
theorem contrib_apply (c : Dev nD) (t : Fin cfg3.N) (b : Fin 4) (h : Fin 16) (hb : b.val = t.val / 64) (hh : h.val = t.val % 16)
    (l : Fin 2048) (l' : Fin 512) (hl : l.val = ((t.val / 16) % 4) * 512 + l'.val) (d : Fin 1024) :
    contrib3 V c t (ix2 l' d) = ctA (hm (V c main_v5)) (hm (V c main_v6)) (hm (V c main_v7)) (wm (V c main_v4)) b l d h := by
  have hN : cfg3.N = 256 := N_3
  have ht := t.isLt
  unfold contrib3 ctA
  refine (pay4_apply _ _ _ _ l' d).trans ?_
  refine Finset.sum_congr rfl fun f _ => ?_
  refine congrArg₂ (· * ·) (Finset.sum_congr rfl fun σ _ => ?_) (iblk3_3_apply V c t _ f (by show h.val * 64 + f.val = _; rw [hh]) d)
  refine congrArg₂ (· * ·) ?_ (iblk3_2_apply V c t _ (by show b.val * 16 + h.val = _; omega) σ f)
  refine wt_eq _ _ _ _ _ l l' (fun κ => ?_) (fun s κ => ?_) σ
  · exact iblk3_0_apply V c t _ (by show b.val * 16 + h.val = _; omega) l l' hl κ
  · exact iblk3_1_apply V c t _ (by show b.val * 16 + h.val = _; omega) s κ

/-- The accumulator after head `h` of a row tile is the sum of the contributions of the heads up to `h`. -/
theorem acc3_sum (c : Dev nD) (rt : Fin 16) (b : Fin 4) (hb : b.val = rt.val / 4) (l : Fin 2048) (l' : Fin 512) (hl : l.val = (rt.val % 4) * 512 + l'.val) (d : Fin 1024) :
    ∀ (h : ℕ) (hh : h < 16) (hn : rt.val * 16 + h < cfg3.N),
      acc3 V c (rt.val * 16 + h) hn (ix2 l' d)
        = ∑ h' ∈ Finset.range (h + 1), if hh' : h' < 16 then ctA (hm (V c main_v5)) (hm (V c main_v6)) (hm (V c main_v7)) (wm (V c main_v4)) b l d ⟨h', hh'⟩ else 0
  | 0, hh, hn => by
    have hrt := rt.isLt
    have e : ∀ (n : ℕ) (hn' : n < cfg3.N), n % 16 = 0 → acc3 V c n hn' = k3_pay1 (contrib3 V c ⟨n, hn'⟩) (k3_pay5 (F := Ideal)) := by
      intro n hn' h0
      cases n with
      | zero => rfl
      | succ n => rw [acc3, if_pos h0]
    rw [e _ hn (by omega), pay1_apply, pay5_apply, zero_add, Finset.sum_range_one, dif_pos (by omega : (0 : ℕ) < 16)]
    exact contrib_apply V c ⟨rt.val * 16 + 0, hn⟩ b ⟨0, by omega⟩ (by show b.val = (rt.val * 16 + 0) / 64; omega) (by show 0 = (rt.val * 16 + 0) % 16; omega)
      l l' (by show l.val = (((rt.val * 16 + 0) / 16) % 4) * 512 + l'.val; omega) d
  | h + 1, hh, hn => by
    have hrt := rt.isLt
    have hn0 : rt.val * 16 + h < cfg3.N := by omega
    have e : acc3 V c (rt.val * 16 + (h + 1)) hn = k3_pay1 (contrib3 V c ⟨rt.val * 16 + (h + 1), hn⟩) (acc3 V c (rt.val * 16 + h) hn0) := by
      show acc3 V c ((rt.val * 16 + h) + 1) hn = _
      rw [acc3, if_neg (by omega)]
      rfl
    rw [e, pay1_apply, acc3_sum c rt b hb l l' hl d h (by omega) hn0, Finset.sum_range_succ (n := h + 1), dif_pos hh]
    refine congrArg (_ + ·) ?_
    exact contrib_apply V c ⟨rt.val * 16 + (h + 1), hn⟩ b ⟨h + 1, hh⟩ (by show b.val = (rt.val * 16 + (h + 1)) / 64; omega) (by show h + 1 = (rt.val * 16 + (h + 1)) % 16; omega)
      l l' (by show l.val = (((rt.val * 16 + (h + 1)) / 16) % 4) * 512 + l'.val; omega) d

/-- THE OUTPUT, entry by entry. -/
theorem G4_sum (c : Dev nD) (b : Fin 4) (l : Fin 2048) (d : Fin 1024) (r : Fin 8192) (hr : r.val = b.val * 2048 + l.val) :
    G4 V c (ix2 r d) = ∑ h : Fin 16, ctA (hm (V c main_v5)) (hm (V c main_v6)) (hm (V c main_v7)) (wm (V c main_v4)) b l d h := by
  have hN : cfg3.N = 256 := N_3
  have hb := b.isLt; have hl := l.isLt
  unfold G4
  have hp : (pt4 (ix2 r d)).val = (r.val / 512) * 16 + 15 := rfl
  have key := acc3_sum V c ⟨r.val / 512, by omega⟩ b (by show b.val = (r.val / 512) / 4; omega) l ⟨r.val % 512, Nat.mod_lt _ (by norm_num)⟩
    (by show l.val = ((r.val / 512) % 4) * 512 + r.val % 512; omega) d 15 (by norm_num) (by show (r.val / 512) * 16 + 15 < cfg3.N; omega)
  refine key.trans ?_
  rw [Finset.sum_range (f := fun h' => if hh' : h' < 16 then ctA (hm (V c main_v5)) (hm (V c main_v6)) (hm (V c main_v7)) (wm (V c main_v4)) b l d ⟨h', hh'⟩ else 0)]
  exact Finset.sum_congr rfl fun h _ => by rw [dif_pos h.isLt]

end Region

end Cert.KernelIdeal.Hand

end
-- ==== Proof.RefRead.lean ====
/-
  The reference's two results, entry by entry, over the extended reals: multi-head attention of the
  argument arrays. With  proj x w (b, h, l, f) = sum over d of w(64 h + f, d) x(b, l, d):
    score(b, h, l, s)  = sum over f of (proj q Wq (b, h, l, f) / 64^(1/2)) * proj k Wk (b, h, s, f)
    weight(b, h, l, s) = exp(score - max over s') / (0 + sum over s' of exp(score - max over s'))
    head(b, h, l, f)   = sum over s of weight(b, h, l, s) * proj v Wv (b, h, s, f)
    out(b, l, d)       = sum over e of head(b, e / 64, l, e % 64) * Wo(d, e)
  The second result is weight; the first is out.
-/
import proofs.«140923_j35270271435571_2_alg».proof.Proof.Gen.ReferenceIdeal.Run
import proofs.«140923_j35270271435571_2_alg».proof.Proof.Gen.ReferenceIdeal.Read
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

abbrev Arr := (⟨S4x2048x1024, .f32⟩ : BufTy).Contents (Elt Ideal)
abbrev Mat := (⟨S1024x1024, .f32⟩ : BufTy).Contents (Elt Ideal)

/-- Row 64 h + f of a weight matrix. -/
abbrev hrow (h : Fin 16) (f : Fin 64) : Fin 1024 := ⟨h.val * 64 + f.val, by have := h.isLt; have := f.isLt; omega⟩

/-- A projection, head-major. -/
def proj (x : Arr) (w : Mat) (b : Fin 4) (h : Fin 16) (l : Fin 2048) (f : Fin 64) : EReal :=
  ∑ d : Fin 1024, w (ix2 (hrow h f) d) * x (ix3 b l d)

theorem v2_apply (x0 : Arr) (x3 : Mat) (b : Fin 4) (h : Fin 16) (l : Fin 2048) (f : Fin 64) :
    val_main_v2 (F := Ideal) x0 x3 (ix4 b h l f) = proj x0 x3 b h l f := by
  rw [val_main_v2_apply, val_main_v1_apply]
  unfold proj
  refine Finset.sum_congr rfl fun d _ => ?_
  rw [val_main_v0_apply]
  refine congrArg₂ (· * ·) (congrArg x3 (funext fun a => Fin.ext ?_)) (congrArg x0 (funext fun a => Fin.ext ?_))
  · have := h.isLt; have := f.isLt; have := d.isLt
    match a with
    | ⟨0, _⟩ => show ((h.val * 64 + f.val) * 1024 + d.val) / 1024 = h.val * 64 + f.val; omega
    | ⟨1, _⟩ => show ((h.val * 64 + f.val) * 1024 + d.val) % 1024 = d.val; omega
  · match a with
    | ⟨0, _⟩ => rfl
    | ⟨1, _⟩ => rfl
    | ⟨2, _⟩ => rfl

theorem v5_apply (x1 : Arr) (x4 : Mat) (b : Fin 4) (h : Fin 16) (l : Fin 2048) (f : Fin 64) :
    val_main_v5 (F := Ideal) x1 x4 (ix4 b h l f) = proj x1 x4 b h l f := by
  rw [val_main_v5_apply, val_main_v4_apply]
  unfold proj
  refine Finset.sum_congr rfl fun d _ => ?_
  rw [val_main_v3_apply]
  refine congrArg₂ (· * ·) (congrArg x4 (funext fun a => Fin.ext ?_)) (congrArg x1 (funext fun a => Fin.ext ?_))
  · have := h.isLt; have := f.isLt; have := d.isLt
    match a with
    | ⟨0, _⟩ => show ((h.val * 64 + f.val) * 1024 + d.val) / 1024 = h.val * 64 + f.val; omega
    | ⟨1, _⟩ => show ((h.val * 64 + f.val) * 1024 + d.val) % 1024 = d.val; omega
  · match a with
    | ⟨0, _⟩ => rfl
    | ⟨1, _⟩ => rfl
    | ⟨2, _⟩ => rfl

theorem v8_apply (x2 : Arr) (x5 : Mat) (b : Fin 4) (h : Fin 16) (l : Fin 2048) (f : Fin 64) :
    val_main_v8 (F := Ideal) x2 x5 (ix4 b h l f) = proj x2 x5 b h l f := by
  rw [val_main_v8_apply, val_main_v7_apply]
  unfold proj
  refine Finset.sum_congr rfl fun d _ => ?_
  rw [val_main_v6_apply]
  refine congrArg₂ (· * ·) (congrArg x5 (funext fun a => Fin.ext ?_)) (congrArg x2 (funext fun a => Fin.ext ?_))
  · have := h.isLt; have := f.isLt; have := d.isLt
    match a with
    | ⟨0, _⟩ => show ((h.val * 64 + f.val) * 1024 + d.val) / 1024 = h.val * 64 + f.val; omega
    | ⟨1, _⟩ => show ((h.val * 64 + f.val) * 1024 + d.val) % 1024 = d.val; omega
  · match a with
    | ⟨0, _⟩ => rfl
    | ⟨1, _⟩ => rfl
    | ⟨2, _⟩ => rfl

/-- The temperature the reference divides by: 64 to the power one half. -/
abbrev temp : EReal := Ideal.pow (Ideal.ofBits .f32 0x42800000#32) (Ideal.ofBits .f32 0x3F000000#32)

/-- A score. -/
def score (x0 x1 : Arr) (x3 x4 : Mat) (b : Fin 4) (h : Fin 16) (l s : Fin 2048) : EReal :=
  ∑ f : Fin 64, Ideal.div (proj x0 x3 b h l f) temp * proj x1 x4 b h s f

theorem v12_apply (x0 x1 : Arr) (x3 x4 : Mat) (b : Fin 4) (h : Fin 16) (l s : Fin 2048) :
    val_main_v12 (F := Ideal) x0 x1 x3 x4 (ix4 b h l s) = score x0 x1 x3 x4 b h l s := by
  rw [val_main_v12_apply]
  unfold score
  refine Finset.sum_congr rfl fun f _ => ?_
  have el : lidx_main_v12 (ix4 b h l s) f = ix4 b h l f := funext fun a => Fin.ext (by
    match a with
    | ⟨0, _⟩ => rfl
    | ⟨1, _⟩ => rfl
    | ⟨2, _⟩ => rfl
    | ⟨3, _⟩ => rfl)
  have er : ridx_main_v12 (ix4 b h l s) f = ix4 b h s f := funext fun a => Fin.ext (by
    match a with
    | ⟨0, _⟩ => rfl
    | ⟨1, _⟩ => rfl
    | ⟨2, _⟩ => rfl
    | ⟨3, _⟩ => rfl)
  rw [el, er, val_main_v11_apply, v2_apply, v5_apply, val_main_v10_apply]
  rfl

/-- A row's maximum, as the reference takes it. -/
def rmax (x0 x1 : Arr) (x3 x4 : Mat) (b : Fin 4) (h : Fin 16) (l : Fin 2048) : EReal :=
  max (Ideal.ofBits .f32 0xFF800000#32)
    ((Finset.univ : Finset (Fin 2048)).fold max (Ideal.ofBits .f32 0xFF800000#32) (fun s => score x0 x1 x3 x4 b h l s))

set_option maxRecDepth 200000 in
theorem v15_apply (x0 x1 : Arr) (x3 x4 : Mat) (b : Fin 4) (h : Fin 16) (l : Fin 2048) :
    val_main_v15 (F := Ideal) x0 x1 x3 x4 (ix3 b h l) = rmax x0 x1 x3 x4 b h l := by
  rw [val_main_v15_apply, val_main_v14_apply]
  unfold rmax val_main_v13
  show max (Ideal.ofBits .f32 0xFF800000#32) _ = _
  refine congrArg (max _) ?_
  have hR : S4x16x2048x2048.Reduces [3] S4x16x2048 := by decide
  have key := Host.reduce_eq_fold_single (α := Ideal .f32) (FloatOps.maximumf (F := Ideal) (φ := .f32)) (fun i => val_main_v12 (F := Ideal) x0 x1 x3 x4 i) (fun i => val_main_cst_1 (F := Ideal) i) reducesTo_S4x16x2048x2048_S4x16x2048_d3 hR h_S_ (ix3 b h l)
  refine key.trans ?_
  refine congrArg₂ (Finset.fold max · · Finset.univ) rfl (funext fun s => ?_)
  show val_main_v12 (F := Ideal) x0 x1 x3 x4 _ = _
  refine Eq.trans (congrArg (val_main_v12 (F := Ideal) x0 x1 x3 x4) (funext fun a => Fin.ext ?_)) (v12_apply x0 x1 x3 x4 b h l (⟨s.val, s.isLt⟩ : Fin 2048))
  match a with
  | ⟨0, _⟩ => rfl
  | ⟨1, _⟩ => rfl
  | ⟨2, _⟩ => rfl
  | ⟨3, _⟩ => rfl

/-- An unnormalised weight and an attention weight. -/
def ew (x0 x1 : Arr) (x3 x4 : Mat) (b : Fin 4) (h : Fin 16) (l s : Fin 2048) : EReal :=
  Ideal.exp (score x0 x1 x3 x4 b h l s - rmax x0 x1 x3 x4 b h l)

theorem v19_apply (x0 x1 : Arr) (x3 x4 : Mat) (b : Fin 4) (h : Fin 16) (l s : Fin 2048) :
    val_main_v19 (F := Ideal) x0 x1 x3 x4 (ix4 b h l s) = ew x0 x1 x3 x4 b h l s := by
  rw [val_main_v19_apply, val_main_v18_apply, v12_apply, val_main_v17_apply, val_main_v16_apply]
  have e : idx_main_v16 (idx_main_v17 (ix4 b h l s)) = ix3 b h l := funext fun a => Fin.ext (by
    match a with
    | ⟨0, _⟩ => rfl
    | ⟨1, _⟩ => rfl
    | ⟨2, _⟩ => rfl)
  rw [e, v15_apply]
  rfl

def weight (x0 x1 : Arr) (x3 x4 : Mat) (b : Fin 4) (h : Fin 16) (l s : Fin 2048) : EReal :=
  Ideal.div (ew x0 x1 x3 x4 b h l s) (Ideal.ofBits .f32 0x00000000#32 + ∑ σ : Fin 2048, ew x0 x1 x3 x4 b h l σ)

theorem v23_apply (x0 x1 : Arr) (x3 x4 : Mat) (b : Fin 4) (h : Fin 16) (l s : Fin 2048) :
    val_main_v23 (F := Ideal) x0 x1 x3 x4 (ix4 b h l s) = weight x0 x1 x3 x4 b h l s := by
  rw [val_main_v23_apply, v19_apply, val_main_v22_apply, val_main_v21_apply]
  have e : idx_main_v21 (idx_main_v22 (ix4 b h l s)) = ix3 b h l := funext fun a => Fin.ext (by
    match a with
    | ⟨0, _⟩ => rfl
    | ⟨1, _⟩ => rfl
    | ⟨2, _⟩ => rfl)
  rw [e, val_main_v20_apply]
  unfold weight
  show Ideal.div _ (Ideal.ofBits .f32 0x00000000#32 + _) = _
  refine congrArg (Ideal.div _) (congrArg (_ + ·) (Finset.sum_congr rfl fun σ _ => ?_))
  rw [← v19_apply]
  refine congrArg _ (funext fun a => Fin.ext ?_)
  match a with
  | ⟨0, _⟩ => rfl
  | ⟨1, _⟩ => rfl
  | ⟨2, _⟩ => rfl
  | ⟨3, _⟩ => rfl

/-- A head's output. -/
def headOut (x0 x1 x2 : Arr) (x3 x4 x5 : Mat) (b : Fin 4) (h : Fin 16) (l : Fin 2048) (f : Fin 64) : EReal :=
  ∑ σ : Fin 2048, weight x0 x1 x3 x4 b h l σ * proj x2 x5 b h σ f

theorem v24_apply (x0 x1 x2 : Arr) (x3 x4 x5 : Mat) (b : Fin 4) (h : Fin 16) (l : Fin 2048) (f : Fin 64) :
    val_main_v24 (F := Ideal) x0 x1 x2 x3 x4 x5 (ix4 b h l f) = headOut x0 x1 x2 x3 x4 x5 b h l f := by
  rw [val_main_v24_apply]
  unfold headOut
  refine Finset.sum_congr rfl fun σ _ => ?_
  have el : lidx_main_v24 (ix4 b h l f) σ = ix4 b h l σ := funext fun a => Fin.ext (by
    match a with
    | ⟨0, _⟩ => rfl
    | ⟨1, _⟩ => rfl
    | ⟨2, _⟩ => rfl
    | ⟨3, _⟩ => rfl)
  have er : ridx_main_v24 (ix4 b h l f) σ = ix4 b h σ f := funext fun a => Fin.ext (by
    match a with
    | ⟨0, _⟩ => rfl
    | ⟨1, _⟩ => rfl
    | ⟨2, _⟩ => rfl
    | ⟨3, _⟩ => rfl)
  rw [el, er, v23_apply, v8_apply]

/-- The first result. -/
def out (x0 x1 x2 : Arr) (x3 x4 x5 x6 : Mat) (b : Fin 4) (l : Fin 2048) (d : Fin 1024) : EReal :=
  ∑ e : Fin 1024, headOut x0 x1 x2 x3 x4 x5 b ⟨e.val / 64, by have := e.isLt; omega⟩ l ⟨e.val % 64, Nat.mod_lt _ (by norm_num)⟩ * x6 (ix2 d e)

theorem v27_apply (x0 x1 x2 : Arr) (x3 x4 x5 x6 : Mat) (b : Fin 4) (l : Fin 2048) (d : Fin 1024) :
    val_main_v27 (F := Ideal) x0 x1 x2 x3 x4 x5 x6 (ix3 b l d) = out x0 x1 x2 x3 x4 x5 x6 b l d := by
  rw [val_main_v27_apply]
  unfold out
  refine Finset.sum_congr rfl fun e _ => ?_
  rw [val_main_v26_apply, val_main_v25_apply, ← v24_apply]
  have hb := b.isLt; have hl := l.isLt; have he := e.isLt
  refine congrArg₂ (· * ·) (congrArg _ (funext fun a => Fin.ext ?_)) (congrArg x6 (funext fun a => Fin.ext ?_))
  · match a with
    | ⟨0, _⟩ => show ((b.val * 2048 + l.val) * 1024 + e.val) / 2097152 = b.val; omega
    | ⟨1, _⟩ => show ((b.val * 2048 + l.val) * 1024 + e.val) / 64 % 16 = e.val / 64; omega
    | ⟨2, _⟩ => show ((b.val * 2048 + l.val) * 1024 + e.val) / 1024 % 2048 = l.val; omega
    | ⟨3, _⟩ => show ((b.val * 2048 + l.val) * 1024 + e.val) % 64 = e.val % 64; omega
  · match a with
    | ⟨0, _⟩ => rfl
    | ⟨1, _⟩ => rfl

end Cert.ReferenceIdeal.RefValue

end
-- ==== Proof.AttnAlgebra.lean ====
/-
  The arithmetic the two programs differ by, over the extended reals. The reference divides each
  query entry by 64 ^ (1/2) before the dot product with a key; the kernel multiplies the finished
  dot product by 1/8. On real (finite) entries the two agree: division by the real 8 is
  multiplication by 1/8, which moves out of a finite sum of reals.
-/
import Idealize.ShloMosaic.PureOps.Ideal
import Idealize.ShloMosaic.PureOps.Ideal.Laws
import Mathlib.Analysis.SpecialFunctions.Pow.Real

noncomputable section

namespace Cert.AttnAlgebra

open Idealize.ShloMosaic

/-- The words the programs spell, as extended reals. -/
theorem ofBits_64 : Ideal.ofBits .f32 0x42800000#32 = ((64 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_eighth : Ideal.ofBits .f32 0x3E000000#32 = ((1 / 8 : ℝ) : EReal) := by
  simp [Ideal.ofBits, Ideal.ieee, -EReal.coe_mul]; norm_num
theorem ofBits_zero : Ideal.ofBits .f32 0x00000000#32 = 0 := by
  simp [Ideal.ofBits, Ideal.ieee]

/-- 64 ^ (1/2) = 8. -/
theorem rpow_64_half : Real.rpow 64 (1 / 2) = 8 := by
  rw [show (64 : ℝ) = 8 ^ (2 : ℝ) by norm_num, Real.rpow_eq_pow, ← Real.rpow_mul (by norm_num)]; norm_num

/-- The reference's temperature is the real 8. -/
theorem temperature : Ideal.pow (Ideal.ofBits .f32 0x42800000#32) (Ideal.ofBits .f32 0x3F000000#32) = ((8 : ℝ) : EReal) := by
  rw [ofBits_64, ofBits_half, Ideal.pow_coe_coe, rpow_64_half]

/-- A finite sum of reals, in the extended reals, is the real sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- THE LAW: dividing each query entry by the temperature before the dot product is multiplying the dot product by
    1/8, on real entries. -/
theorem scaled_dot {n : ℕ} (q k : Fin n → ℝ) :
    (∑ κ : Fin n, Ideal.div ((q κ : ℝ) : EReal) (Ideal.pow (Ideal.ofBits .f32 0x42800000#32) (Ideal.ofBits .f32 0x3F000000#32)) * ((k κ : ℝ) : EReal))
      = (∑ κ : Fin n, ((q κ : ℝ) : EReal) * ((k κ : ℝ) : EReal)) * Ideal.ofBits .f32 0x3E000000#32 := by
  rw [temperature, ofBits_eighth]
  simp only [Ideal.div_coe (by norm_num : (8 : ℝ) ≠ 0), ← EReal.coe_mul]
  rw [coe_sum, coe_sum, ← EReal.coe_mul, Finset.sum_mul]
  refine congrArg _ (Finset.sum_congr rfl fun κ _ => ?_)
  ring

end Cert.AttnAlgebra

end
-- ==== Proof.Bridge.lean ====
/-
  The two programs compute one function. With the head-major projections
    P x w (16 b + h, l, f) = sum over d of x(b, l, d) w(64 h + f, d)
  the kernel's weights and output, stated over P q Wq, P k Wk, P v Wv and the transposed output
  weights, are the reference's weight and out:
  * a product commutes, so P is the reference's projection;
  * dividing every query entry by 8 before the dot product is multiplying the dot product by 1/8 —
    on REAL entries, which is where the finiteness of q, k, Wq, Wk is used;
  * the maximum with minus infinity of a maximum taken from minus infinity is that maximum, and a sum
    started from zero is the sum;
  * a sum over the 1024 concatenated features is the sum over the 16 heads of the sums over their 64
    features.
-/
import proofs.«140923_j35270271435571_2_alg».proof.Proof.RefRead
import proofs.«140923_j35270271435571_2_alg».proof.Proof.KiR3Idx
import proofs.«140923_j35270271435571_2_alg».proof.Proof.AttnAlgebra

set_option maxRecDepth 16384

noncomputable section

namespace Cert.Bridge

open Idealize.ShloMosaic Idealize.ShloMosaic.ValueIdx
open Cert.ReferenceIdeal.RefValue
open Cert.ReferenceIdeal (S4x2048x1024 S1024x1024)
open Cert.KernelIdeal (S64x2048x64)
open Cert.KernelIdeal.Hand (scA mxA wtA ctA)

/-- Head 16 b + h. -/
abbrev bhOf (b : Fin 4) (h : Fin 16) : Fin 64 := ⟨b.val * 16 + h.val, by have := b.isLt; have := h.isLt; omega⟩

/-- The kernel's head-major projection of an array by a weight matrix. -/
def P (x : Arr) (w : Mat) : S64x2048x64.Idx → EReal := fun j =>
  ∑ d : Fin 1024, x (ix3 (⟨(j 0).val / 16, by have h0 : (j 0).val < 64 := (j 0).isLt; omega⟩ : Fin 4) (⟨(j 1).val, (j 1).isLt⟩ : Fin 2048) d)
    * w (ix2 (⟨((j 0).val % 16) * 64 + (j 2).val, by have h0 : (j 0).val < 64 := (j 0).isLt; have h2 : (j 2).val < 64 := (j 2).isLt; omega⟩ : Fin 1024) d)

theorem P_proj (x : Arr) (w : Mat) (b : Fin 4) (h : Fin 16) (l : Fin 2048) (f : Fin 64) :
    P x w (ix3 (bhOf b h) l f) = proj x w b h l f := by
  have hb := b.isLt; have hh := h.isLt; have hf := f.isLt
  unfold P proj
  refine Finset.sum_congr rfl fun d _ => ?_
  rw [mul_comm]
  refine congrArg₂ (· * ·) (congrArg w ?_) (congrArg x ?_)
  · refine congrArg (fun r => ix2 r d) (Fin.ext ?_)
    show ((b.val * 16 + h.val) % 16) * 64 + f.val = h.val * 64 + f.val
    omega
  · refine congrArg (fun a => ix3 a l d) (Fin.ext ?_)
    show (b.val * 16 + h.val) / 16 = b.val
    omega

/-- A real-valued array gives real-valued projections. -/
theorem proj_real (x : Arr) (w : Mat) (xr : S4x2048x1024.Idx → ℝ) (wr : S1024x1024.Idx → ℝ) (hx : ∀ i, x i = ((xr i : ℝ) : EReal)) (hw : ∀ i, w i = ((wr i : ℝ) : EReal))
    (b : Fin 4) (h : Fin 16) (l : Fin 2048) (f : Fin 64) :
    proj x w b h l f = ((∑ d : Fin 1024, wr (ix2 (hrow h f) d) * xr (ix3 b l d) : ℝ) : EReal) := by
  unfold proj
  simp only [hx, hw, ← EReal.coe_mul]
  exact Cert.AttnAlgebra.coe_sum _ _

section Finite
variable (x0 x1 : Arr) (x3 x4 : Mat)
variable (h0 : ∀ i, ∃ r : ℝ, x0 i = ((r : ℝ) : EReal)) (h1 : ∀ i, ∃ r : ℝ, x1 i = ((r : ℝ) : EReal))
variable (h3 : ∀ i, ∃ r : ℝ, x3 i = ((r : ℝ) : EReal)) (h4 : ∀ i, ∃ r : ℝ, x4 i = ((r : ℝ) : EReal))

include h0 h1 h3 h4 in
/-- The kernel's scaled score is the reference's score. -/
theorem score_eq (b : Fin 4) (h : Fin 16) (l s : Fin 2048) :
    scA (P x0 x3) (P x1 x4) (bhOf b h) l s = score x0 x1 x3 x4 b h l s := by
  choose a0 e0 using h0
  choose a1 e1 using h1
  choose a3 e3 using h3
  choose a4 e4 using h4
  unfold scA score
  simp only [P_proj, proj_real x0 x3 a0 a3 e0 e3, proj_real x1 x4 a1 a4 e1 e4]
  exact (Cert.AttnAlgebra.scaled_dot _ _).symm

include h0 h1 h3 h4 in
/-- The kernel's weights are the reference's. -/
theorem weight_eq (b : Fin 4) (h : Fin 16) (l s : Fin 2048) :
    wtA (P x0 x3) (P x1 x4) (bhOf b h) l s = weight x0 x1 x3 x4 b h l s := by
  have hsc := score_eq x0 x1 x3 x4 h0 h1 h3 h4 b h l
  have hmx : mxA (P x0 x3) (P x1 x4) (bhOf b h) l = rmax x0 x1 x3 x4 b h l := by
    unfold mxA rmax
    simp only [hsc]
    refine (max_eq_right ?_).symm
    exact (Finset.le_fold_max _).2 (Or.inl le_rfl)
  unfold wtA weight ew
  simp only [hsc, hmx]
  rw [Cert.AttnAlgebra.ofBits_zero, zero_add]

end Finite

/-- A sum over the 1024 concatenated features, head by head. -/
theorem sum_heads {M : Type*} [AddCommMonoid M] (F : Fin 1024 → M) :
    ∑ e : Fin 1024, F e = ∑ h : Fin 16, ∑ f : Fin 64, F (hrow h f) := by
  rw [← Fintype.sum_prod_type']
  refine (Equiv.sum_comp (finProdFinEquiv : Fin 16 × Fin 64 ≃ Fin (16 * 64)) F).symm.trans ?_
  refine Finset.sum_congr rfl fun p _ => congrArg F (Fin.ext ?_)
  show (finProdFinEquiv p).val = p.1.val * 64 + p.2.val
  rw [finProdFinEquiv_apply_val]; omega

section Finite2
variable (x0 x1 x2 : Arr) (x3 x4 x5 x6 : Mat)
variable (h0 : ∀ i, ∃ r : ℝ, x0 i = ((r : ℝ) : EReal)) (h1 : ∀ i, ∃ r : ℝ, x1 i = ((r : ℝ) : EReal))
variable (h3 : ∀ i, ∃ r : ℝ, x3 i = ((r : ℝ) : EReal)) (h4 : ∀ i, ∃ r : ℝ, x4 i = ((r : ℝ) : EReal))

include h0 h1 h3 h4 in
/-- The kernel's output — the sixteen heads' contributions — is the reference's. -/
theorem out_eq (WoT : S1024x1024.Idx → EReal) (hW : ∀ (e d : Fin 1024), WoT (ix2 e d) = x6 (ix2 d e))
    (b : Fin 4) (l : Fin 2048) (d : Fin 1024) :
    ∑ h : Fin 16, ctA (P x0 x3) (P x1 x4) (P x2 x5) WoT b l d h = out x0 x1 x2 x3 x4 x5 x6 b l d := by
  unfold out
  rw [sum_heads]
  refine Finset.sum_congr rfl fun h _ => ?_
  unfold ctA
  refine Finset.sum_congr rfl fun f _ => ?_
  have hh := h.isLt; have hf := f.isLt
  have e1 : (⟨(hrow h f).val / 64, by have := (hrow h f).isLt; omega⟩ : Fin 16) = h := Fin.ext (by show (h.val * 64 + f.val) / 64 = h.val; omega)
  have e2 : (⟨(hrow h f).val % 64, Nat.mod_lt _ (by norm_num)⟩ : Fin 64) = f := Fin.ext (by show (h.val * 64 + f.val) % 64 = f.val; omega)
  refine congrArg₂ (· * ·) ?_ (hW _ d)
  show _ = headOut x0 x1 x2 x3 x4 x5 b (⟨(hrow h f).val / 64, _⟩ : Fin 16) l (⟨(hrow h f).val % 64, _⟩ : Fin 64)
  rw [e1, e2]
  unfold headOut
  refine Finset.sum_congr rfl fun σ _ => ?_
  exact congrArg₂ (· * ·) (weight_eq x0 x1 x3 x4 h0 h1 h3 h4 b h l σ) (P_proj x2 x5 b h σ f)

end Finite2

end Cert.Bridge

end
-- ==== Proof.KiFinal.lean ====
/-
  The kernel's two results are the reference's. The host operations before the calls round the
  weight matrices (the identity on extended reals) and transpose the output weights; each projection
  call leaves its head-major projection; the attention call leaves the weights and the output in
  terms of them; the two reshapes after it regroup the leading axes. Entry by entry this is the
  reference's weight and out, by the bridge between the two formulas — under the precondition, which
  makes the queries, the keys and their weights real-valued.
-/
import proofs.«140923_j35270271435571_2_alg».proof.Proof.KiMain
import proofs.«140923_j35270271435571_2_alg».proof.Proof.KiR0Idx
import proofs.«140923_j35270271435571_2_alg».proof.Proof.KiR1Idx
import proofs.«140923_j35270271435571_2_alg».proof.Proof.KiR2Idx
import proofs.«140923_j35270271435571_2_alg».proof.Proof.KiR3Idx
import proofs.«140923_j35270271435571_2_alg».proof.Proof.Bridge
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Bridge Cert.ReferenceIdeal.RefValue

variable (m : (ℓ : Loc nD τ sig) → Buf (Elt Ideal) ℓ) (ρ : Dev nD → PrngReg)

/-- The seven argument arrays on core `c`. -/
abbrev X0 (c : Dev nD) : Arr := m ((c : Thread nD τ).loc main_arg0)
abbrev X1 (c : Dev nD) : Arr := m ((c : Thread nD τ).loc main_arg1)
abbrev X2 (c : Dev nD) : Arr := m ((c : Thread nD τ).loc main_arg2)
abbrev X3 (c : Dev nD) : Mat := m ((c : Thread nD τ).loc main_arg3)
abbrev X4 (c : Dev nD) : Mat := m ((c : Thread nD τ).loc main_arg4)
abbrev X5 (c : Dev nD) : Mat := m ((c : Thread nD τ).loc main_arg5)
abbrev X6 (c : Dev nD) : Mat := m ((c : Thread nD τ).loc main_arg6)

/-! ## After the first host stretch -/

theorem U1_arg0 (c : Dev nD) : U1 m ρ c main_arg0 = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem U1_arg1 (c : Dev nD) : U1 m ρ c main_arg1 = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem U1_arg2 (c : Dev nD) : U1 m ρ c main_arg2 = m ((c : Thread nD τ).loc main_arg2) :=
  (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem U1_v0 (c : Dev nD) : U1 m ρ c main_v0 = (fun i => X3 m c i) := by
  show StableHlo.after hostOps0 (W0 m ρ c) (Proc.devRef .tc main_v0) = _
  after_results
  rfl
theorem U1_v1 (c : Dev nD) : U1 m ρ c main_v1 = (fun i => X4 m c i) := by
  show StableHlo.after hostOps0 (W0 m ρ c) (Proc.devRef .tc main_v1) = _
  after_results
  rfl
theorem U1_v2 (c : Dev nD) : U1 m ρ c main_v2 = (fun i => X5 m c i) := by
  show StableHlo.after hostOps0 (W0 m ρ c) (Proc.devRef .tc main_v2) = _
  after_results
  rfl
theorem U1_v4 (c : Dev nD) : U1 m ρ c main_v4 = (fun i => (transpose S1024x1024 [1, 0] (X6 m c) transposes_S1024x1024_S1024x1024_1_0 : FVec Ideal S1024x1024 .f32) i) := by
  show StableHlo.after hostOps0 (W0 m ρ c) (Proc.devRef .tc main_v4) = _
  after_results
  rfl

/-- The transposed output weights, entry by entry. -/
theorem U1_v4_apply (c : Dev nD) (e d : Fin 1024) : wm (U1 m ρ c main_v4) (ix2 e d) = X6 m c (ix2 d e) := by
  show U1 m ρ c main_v4 (ix2 e d) = _
  rw [U1_v4]
  exact transpose_apply [1, 0] (X6 m c) transposes_S1024x1024_S1024x1024_1_0 (ix2 e d) (ix2 d e) (fun a => match a with
    | ⟨0, _⟩ => rfl
    | ⟨1, _⟩ => rfl)

/-! ## The arrays the attention call is entered with -/

theorem U4_v5 (c : Dev nD) : U4 m ρ c main_v5 = G0 (U1 m ρ) c :=
  (W4_of_ne m ρ c main_v5 (by decide)).trans ((W3_of_ne m ρ c main_v5 (by decide)).trans ((W2_arr m ρ c 2).trans (final0 (U1 m ρ) c)))
theorem U4_v6 (c : Dev nD) : U4 m ρ c main_v6 = G1 (U2 m ρ) c :=
  (W4_of_ne m ρ c main_v6 (by decide)).trans ((W3_arr m ρ c 2).trans (final1 (U2 m ρ) c))
theorem U4_v7 (c : Dev nD) : U4 m ρ c main_v7 = G2 (U3 m ρ) c :=
  (W4_arr m ρ c 2).trans (final2 (U3 m ρ) c)
theorem U4_v4 (c : Dev nD) : U4 m ρ c main_v4 = U1 m ρ c main_v4 :=
  (W4_of_ne m ρ c main_v4 (by decide)).trans ((W3_of_ne m ρ c main_v4 (by decide)).trans (W2_of_ne m ρ c main_v4 (by decide)))
theorem U2_arg1 (c : Dev nD) : U2 m ρ c main_arg1 = m ((c : Thread nD τ).loc main_arg1) :=
  (W2_of_ne m ρ c main_arg1 (by decide)).trans (U1_arg1 m ρ c)
theorem U2_v1 (c : Dev nD) : U2 m ρ c main_v1 = (fun i => X4 m c i) :=
  (W2_of_ne m ρ c main_v1 (by decide)).trans (U1_v1 m ρ c)
theorem U3_arg2 (c : Dev nD) : U3 m ρ c main_arg2 = m ((c : Thread nD τ).loc main_arg2) :=
  (W3_of_ne m ρ c main_arg2 (by decide)).trans ((W2_of_ne m ρ c main_arg2 (by decide)).trans (U1_arg2 m ρ c))
theorem U3_v2 (c : Dev nD) : U3 m ρ c main_v2 = (fun i => X5 m c i) :=
  (W3_of_ne m ρ c main_v2 (by decide)).trans ((W2_of_ne m ρ c main_v2 (by decide)).trans (U1_v2 m ρ c))

theorem Q_eq (c : Dev nD) : hm (U4 m ρ c main_v5) = P (X0 m c) (X3 m c) := by
  funext j
  have h0 : (j 0).val < 64 := (j 0).isLt
  have h2 : (j 2).val < 64 := (j 2).isLt
  show U4 m ρ c main_v5 j = _
  rw [U4_v5]
  refine (G0_sum (U1 m ρ) c j ⟨(j 0).val / 16, by omega⟩ rfl ⟨((j 0).val % 16) * 64 + (j 2).val, by omega⟩ rfl).trans ?_
  unfold P
  refine Finset.sum_congr rfl fun d _ => ?_
  rw [U1_arg0, U1_v0]
  try rfl

theorem K_eq (c : Dev nD) : hm (U4 m ρ c main_v6) = P (X1 m c) (X4 m c) := by
  funext j
  have h0 : (j 0).val < 64 := (j 0).isLt
  have h2 : (j 2).val < 64 := (j 2).isLt
  show U4 m ρ c main_v6 j = _
  rw [U4_v6]
  refine (G1_sum (U2 m ρ) c j ⟨(j 0).val / 16, by omega⟩ rfl ⟨((j 0).val % 16) * 64 + (j 2).val, by omega⟩ rfl).trans ?_
  unfold P
  refine Finset.sum_congr rfl fun d _ => ?_
  rw [U2_arg1, U2_v1]
  try rfl

theorem V_eq (c : Dev nD) : hm (U4 m ρ c main_v7) = P (X2 m c) (X5 m c) := by
  funext j
  have h0 : (j 0).val < 64 := (j 0).isLt
  have h2 : (j 2).val < 64 := (j 2).isLt
  show U4 m ρ c main_v7 j = _
  rw [U4_v7]
  refine (G2_sum (U3 m ρ) c j ⟨(j 0).val / 16, by omega⟩ rfl ⟨((j 0).val % 16) * 64 + (j 2).val, by omega⟩ rfl).trans ?_
  unfold P
  refine Finset.sum_congr rfl fun d _ => ?_
  rw [U3_arg2, U3_v2]
  try rfl

theorem W_eq (c : Dev nD) (e d : Fin 1024) : wm (U4 m ρ c main_v4) (ix2 e d) = X6 m c (ix2 d e) := by
  show U4 m ρ c main_v4 (ix2 e d) = _
  rw [U4_v4]
  exact U1_v4_apply m ρ c e d

/-! ## The two results -/

/-- The second result: the attention weights, regrouped by batch and head. -/
theorem W6_v10 (c : Dev nD) : W6 m ρ c (Proc.devRef .tc main_v10) = shapeCast S4x16x2048x2048 (G5 (U4 m ρ) c) shapeCasts_S64x2048x2048_S4x16x2048x2048 := by
  show StableHlo.after hostOps4 (W5 m ρ c) (Proc.devRef .tc main_v10) = _
  after_results
  show shapeCast _ (W5 m ρ c (Proc.devRef .tc main_v8_1)) _ = _
  rw [show W5 m ρ c (Proc.devRef .tc main_v8_1) = G5 (U4 m ρ) c from (W5_arr m ρ c 5).trans (final3_5 (U4 m ρ) c)]
  rfl

/-- The first result: the output, regrouped by batch. -/
theorem W6_v9 (c : Dev nD) : W6 m ρ c (Proc.devRef .tc main_v9) = shapeCast S4x2048x1024 (G4 (U4 m ρ) c) shapeCasts_S8192x1024_S4x2048x1024 := by
  show StableHlo.after hostOps4 (W5 m ρ c) (Proc.devRef .tc main_v9) = _
  after_results
  show shapeCast _ (W5 m ρ c (Proc.devRef .tc main_v8_0)) _ = _
  rw [show W5 m ρ c (Proc.devRef .tc main_v8_0) = G4 (U4 m ρ) c from (W5_arr m ρ c 4).trans (final3_4 (U4 m ρ) c)]
  rfl

section Finite
variable (c : Dev nD)
variable (h0 : ∀ i, ∃ r : ℝ, X0 m c i = ((r : ℝ) : EReal)) (h1 : ∀ i, ∃ r : ℝ, X1 m c i = ((r : ℝ) : EReal))
variable (h3 : ∀ i, ∃ r : ℝ, X3 m c i = ((r : ℝ) : EReal)) (h4 : ∀ i, ∃ r : ℝ, X4 m c i = ((r : ℝ) : EReal))

include h0 h1 h3 h4 in
theorem result1_apply (b : Fin 4) (h : Fin 16) (l s : Fin 2048) :
    W6 m ρ c (Proc.devRef .tc main_v10) (ix4 b h l s) = weight (X0 m c) (X1 m c) (X3 m c) (X4 m c) b h l s := by
  have hb := b.isLt; have hh := h.isLt
  rw [W6_v10]
  refine (shapeCast_apply (G5 (U4 m ρ) c) shapeCasts_S64x2048x2048_S4x16x2048x2048 (ix4 b h l s) (ix3 (bhOf b h) l s) (by
    rw [Shape.rowMajor_val_three, Shape.rowMajor_val_four]
    show ((b.val * 16 + h.val) * 2048 + l.val) * 2048 + s.val = ((b.val * 16 + h.val) * 2048 + l.val) * 2048 + s.val
    rfl)).trans ?_
  rw [G5_wt, Q_eq, K_eq]
  exact weight_eq (X0 m c) (X1 m c) (X3 m c) (X4 m c) h0 h1 h3 h4 b h l s

include h0 h1 h3 h4 in
theorem result0_apply (b : Fin 4) (l : Fin 2048) (d : Fin 1024) :
    W6 m ρ c (Proc.devRef .tc main_v9) (ix3 b l d) = out (X0 m c) (X1 m c) (X2 m c) (X3 m c) (X4 m c) (X5 m c) (X6 m c) b l d := by
  have hb := b.isLt; have hl := l.isLt
  rw [W6_v9]
  refine (shapeCast_apply (G4 (U4 m ρ) c) shapeCasts_S8192x1024_S4x2048x1024 (ix3 b l d) (ix2 (⟨b.val * 2048 + l.val, by omega⟩ : Fin 8192) d) (by
    rw [Shape.rowMajor_val_two, Shape.rowMajor_val_three]
    show (b.val * 2048 + l.val) * 1024 + d.val = (b.val * 2048 + l.val) * 1024 + d.val
    rfl)).trans ?_
  rw [G4_sum (U4 m ρ) c b l d _ rfl, Q_eq, K_eq, V_eq]
  exact out_eq (X0 m c) (X1 m c) (X2 m c) (X3 m c) (X4 m c) (X5 m c) (X6 m c) h0 h1 h3 h4 _ (W_eq m ρ c) b l d

end Finite

end Cert.KernelIdeal.Hand

end
-- ==== Proof.PreFinite.lean ====
/-
  What the precondition says: every entry of every argument array is a real number. The printed
  predicate is a conjunction, one conjunct per array, each an "all entries satisfy |x| < +infinity";
  an extended real whose absolute value (the larger of x and -x) is below +infinity is neither
  infinity.
-/
import proofs.«140923_j35270271435571_2_alg».proof.Pre_finite_inputs
import Idealize.ShloMosaic.PureOps.Ideal
import Idealize.ShloMosaic.Lib.ReduceAll
import Idealize.ShloMosaic.Lib.ValueIdx

set_option maxRecDepth 16384

noncomputable section

namespace Cert.PreFinite

open Idealize.ShloMosaic Idealize.ShloMosaic.ValueIdx Cert.Pre_finite_inputs

instance : Subsingleton S_.Idx := ⟨fun a b => funext fun d => d.elim0⟩

theorem ofBits_inf : Ideal.ofBits .f32 0x7F800000#32 = ⊤ := by
  simp [Ideal.ofBits, Ideal.ieee]

/-- An extended real whose absolute value is below plus infinity is a real. -/
theorem real_of_abs_lt (x : EReal) (h : Ideal.cmp .olt (max x (-x)) (Ideal.ofBits .f32 0x7F800000#32) = 1#1) :
    ∃ r : ℝ, x = ((r : ℝ) : EReal) := by
  rw [ofBits_inf] at h
  have hlt : max x (-x) < ⊤ := by
    unfold Ideal.cmp at h
    by_contra hn
    simp [hn] at h
  have h1 : x ≠ ⊤ := fun e => by rw [e] at hlt; simp at hlt
  have h2 : x ≠ ⊥ := fun e => by rw [e] at hlt; simp at hlt
  exact ⟨x.toReal, (EReal.coe_toReal h1 h2).symm⟩

variable [Facts]
open Facts

theorem arr_real (a : FVec Ideal S4x2048x1024 .f32)
    (h : Host.reduce IntOp.andi (cmpf .olt (Host.absf a) (broadcastInDim S4x2048x1024 ![] bcast_S_S4x2048x1024 (constant (F := Ideal) S_ .f32 0x7F800000#32))) (constantI S_ 1 1#1) reducesTo_S4x2048x1024_S_d0_1_2 h_S_ ix0 = 1#1)
    (i : S4x2048x1024.Idx) : ∃ r : ℝ, a i = ((r : ℝ) : EReal) :=
  real_of_abs_lt (a i) (Host.reduce_andi_all _ _ _ _ _ h i)

theorem mat_real (a : FVec Ideal S1024x1024 .f32)
    (h : Host.reduce IntOp.andi (cmpf .olt (Host.absf a) (broadcastInDim S1024x1024 ![] bcast_S_S1024x1024 (constant (F := Ideal) S_ .f32 0x7F800000#32))) (constantI S_ 1 1#1) reducesTo_S1024x1024_S_d0_1 h_S_ ix0 = 1#1)
    (i : S1024x1024.Idx) : ∃ r : ℝ, a i = ((r : ℝ) : EReal) :=
  real_of_abs_lt (a i) (Host.reduce_andi_all _ _ _ _ _ h i)

/-- The precondition makes the queries, the keys and their two weight matrices real-valued. -/
theorem real_of_pre (a0 a1 a2 : FVec Ideal S4x2048x1024 .f32) (a3 a4 a5 a6 : FVec Ideal S1024x1024 .f32)
    (h : fn (F := Ideal) a0 a1 a2 a3 a4 a5 a6 = fun _ => 1#1) :
    (∀ i, ∃ r : ℝ, a0 i = ((r : ℝ) : EReal)) ∧ (∀ i, ∃ r : ℝ, a1 i = ((r : ℝ) : EReal))
      ∧ (∀ i, ∃ r : ℝ, a3 i = ((r : ℝ) : EReal)) ∧ (∀ i, ∃ r : ℝ, a4 i = ((r : ℝ) : EReal)) := by
  have h' := congrFun h ix0
  unfold fn fn_part1 at h'
  dsimp only at h'
  change IntOp.andi _ _ = 1#1 at h'
  obtain ⟨h', -⟩ := IntOp.andi_eq_one.1 h'
  change IntOp.andi _ _ = 1#1 at h'
  obtain ⟨h', -⟩ := IntOp.andi_eq_one.1 h'
  change IntOp.andi _ _ = 1#1 at h'
  obtain ⟨h', e4⟩ := IntOp.andi_eq_one.1 h'
  change IntOp.andi _ _ = 1#1 at h'
  obtain ⟨h', e3⟩ := IntOp.andi_eq_one.1 h'
  change IntOp.andi _ _ = 1#1 at h'
  obtain ⟨h', -⟩ := IntOp.andi_eq_one.1 h'
  change IntOp.andi _ _ = 1#1 at h'
  obtain ⟨e0, e1⟩ := IntOp.andi_eq_one.1 h'
  exact ⟨arr_real a0 e0, arr_real a1 e1, mat_real a3 e3, mat_real a4 e4⟩

end Cert.PreFinite

end
-- ==== Proof.lean ====
/-
  Multi-head attention, a Pallas kernel against its jnp reference. The kernel projects queries, keys
  and values head by head (three calls, each caching the rounded activation rows of a batch row in
  scratch across its sixteen heads), then for each row tile and head forms the scaled scores, the
  row softmax, the weighted values and their product with the head's slice of the output weights,
  which it accumulates over the heads in scratch and stores at the last head. Over the extended reals,
  with the inputs finite, this is the reference's attention weights and output: rounding between float
  formats is the identity, 64^(1/2) is 8, division by 8 before a dot product of reals is
  multiplication by 1/8 after it, and a sum over 1024 concatenated features is the sum over sixteen
  heads of sums over 64 features.

  Each program's frame (it terminates without a fault and leaves its arguments unchanged) is read off
  its run: for the kernel the run over its six segments with the buffers' contents named at every
  boundary, for the reference the straight line of its host operations.
-/
import proofs.«140923_j35270271435571_2_alg».proof.Defs
import proofs.«140923_j35270271435571_2_alg».proof.Proof.Gen.Kernel
import proofs.«140923_j35270271435571_2_alg».proof.Proof.Gen.KernelIdeal
import proofs.«140923_j35270271435571_2_alg».proof.Proof.Gen.ReferenceIdeal
import proofs.«140923_j35270271435571_2_alg».proof.Proof.Gen.Pre_finite_inputs
import proofs.«140923_j35270271435571_2_alg».proof.Proof.Gen.ReferenceIdeal.Run
import proofs.«140923_j35270271435571_2_alg».proof.Proof.Gen.ReferenceIdeal.Read
import proofs.«140923_j35270271435571_2_alg».proof.Proof.KMain
import proofs.«140923_j35270271435571_2_alg».proof.Proof.KiMain
import proofs.«140923_j35270271435571_2_alg».proof.Proof.KiFinal
import proofs.«140923_j35270271435571_2_alg».proof.Proof.PreFinite
import proofs.«140923_j35270271435571_2_alg».proof.Proof.RefRead
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

theorem preserves : Cert.preserves_Kernel_KernelIdeal := trivial

open Cert.KernelIdeal.Hand in
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => W6 m ρ c (Proc.devRef .tc Cert.KernelIdeal.main_v9), fun c => W6 m ρ c (Proc.devRef .tc Cert.KernelIdeal.main_v10), ?_, ?_⟩
  · refine (θ_run Cert.KernelIdeal.defs _ _).mono (fun r h c => ⟨h c _ (mem_uc Cert.KernelIdeal.main_v9 (by decide)), h c _ (mem_uc Cert.KernelIdeal.main_v10 (by decide)),
      (h c _ (mem_uc Cert.KernelIdeal.main_arg0 (by decide))).trans (W6_main_arg0 m ρ c),
      (h c _ (mem_uc Cert.KernelIdeal.main_arg1 (by decide))).trans (W6_main_arg1 m ρ c),
      (h c _ (mem_uc Cert.KernelIdeal.main_arg2 (by decide))).trans (W6_main_arg2 m ρ c),
      (h c _ (mem_uc Cert.KernelIdeal.main_arg3 (by decide))).trans (W6_main_arg3 m ρ c),
      (h c _ (mem_uc Cert.KernelIdeal.main_arg4 (by decide))).trans (W6_main_arg4 m ρ c),
      (h c _ (mem_uc Cert.KernelIdeal.main_arg5 (by decide))).trans (W6_main_arg5 m ρ c),
      (h c _ (mem_uc Cert.KernelIdeal.main_arg6 (by decide))).trans (W6_main_arg6 m ρ c)⟩) (run_all m ρ)
  · refine (θ_run Cert.ReferenceIdeal.defs _ _).mono (fun r h c => ⟨(h c).1.trans ?_, (h c).2.1.trans ?_, (h c).2.2⟩) (Cert.ReferenceIdeal.Value.run (F := Ideal) m' ρ')
    · obtain ⟨f0, f1, f3, f4⟩ := Cert.PreFinite.real_of_pre _ _ _ _ _ _ _ (hpre c)
      obtain ⟨e0, e1, e2, e3, e4, e5, e6⟩ := hagree c
      rw [Cert.ReferenceIdeal.Read.val_main_v27_eq, e0, e1, e2, e3, e4, e5, e6]
      funext i
      obtain ⟨b, l, d, rfl⟩ : ∃ (b : Fin 4) (l : Fin 2048) (d : Fin 1024), i = ix3 b l d := ⟨i 0, i 1, i 2, eq_ix3 i⟩
      rw [Cert.ReferenceIdeal.RefValue.v27_apply]
      exact (result0_apply m ρ c f0 f1 f3 f4 b l d).symm
    · obtain ⟨f0, f1, f3, f4⟩ := Cert.PreFinite.real_of_pre _ _ _ _ _ _ _ (hpre c)
      obtain ⟨e0, e1, e2, e3, e4, e5, e6⟩ := hagree c
      rw [Cert.ReferenceIdeal.Read.val_main_v23_eq, e0, e1, e3, e4]
      funext i
      obtain ⟨b, h, l, s, rfl⟩ : ∃ (b : Fin 4) (h : Fin 16) (l s : Fin 2048), i = ix4 b h l s := ⟨i 0, i 1, i 2, i 3, eq_ix4 i⟩
      rw [Cert.ReferenceIdeal.RefValue.v23_apply]
      exact (result1_apply m ρ c f0 f1 f3 f4 b h l s).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
